-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v89)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v89) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x500 : Shape := ⟨2, ![50000, 500]⟩
abbrev S2x800000 : Shape := ⟨2, ![2, 800000]⟩
abbrev S500x128 : Shape := ⟨2, ![500, 128]⟩
abbrev S128 : Shape := ⟨1, ![128]⟩
abbrev S128x128 : Shape := ⟨2, ![128, 128]⟩
abbrev S128x40 : Shape := ⟨2, ![128, 40]⟩
abbrev S40 : Shape := ⟨1, ![40]⟩
abbrev S_ : Shape := ⟨0, ![]⟩

class Facts : Prop where
  bcast_S_S50000x500 : S_.BroadcastsInDim S50000x500 (![] : Fin 0 → Fin S50000x500.rank)
  reducesTo_S50000x500_S_d0_1 : S50000x500.ReducesTo [0, 1] S_
  h_S_ : 0 < S_.numel
  bcast_S_S500x128 : S_.BroadcastsInDim S500x128 (![] : Fin 0 → Fin S500x128.rank)
  reducesTo_S500x128_S_d0_1 : S500x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S128 .f32) (main_arg6 : FVec F S128x40 .f32) (main_arg7 : FVec F S40 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x40 .f32 := Host.absf main_arg6
  let main_cst_8 : FVec F S_ .f32 := constant S_ .f32 0x7F800000#32
  let main_v25 : FVec F S128x40 .f32 := broadcastInDim S128x40 ![] bcast_S_S128x40 main_cst_8
  let main_v26 : IVec S128x40 1 := cmpf .olt main_v24 main_v25
  let main_c_9 : IVec S_ 1 := constantI S_ 1 1#1
  let main_v27 : IVec S_ 1 := (fun x v => Host.reduce IntOp.andi x v reducesTo_S128x40_S_d0_1 h_S_) main_v26 main_c_9
  let main_v28 : IVec S_ 1 := andi main_v23 main_v27
  let main_v29 : FVec F S40 .f32 := Host.absf main_arg7
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  main_v33

def fn {F : FTy → Type} [FloatOps F] (main_arg0 : FVec F S50000x500 .f32) (main_arg1 : IVec S2x800000 32) (main_arg2 : FVec F S500x128 .f32) (main_arg3 : FVec F S128 .f32) (main_arg4 : FVec F S128x128 .f32) (main_arg5 : FVec F S128 .f32) (main_arg6 : FVec F S128x40 .f32) (main_arg7 : FVec F S40 .f32) : IVec S_ 1 :=
  let main_v0 : FVec F S50000x500 .f32 := Host.absf main_arg0
  let main_cst : FVec F S_ .f32 := constant S_ .f32 0x7F800000#32
  let main_v1 : FVec F S50000x500 .f32 := broadcastInDim S50000x500 ![] bcast_S_S50000x500 main_cst
  let main_v2 : IVec S50000x500 1 := cmpf .olt main_v0 main_v1
  let main_c : IVec S_ 1 := constantI S_ 1 1#1
  let main_v3 : IVec S_ 1 := (fun x v => Host.reduce IntOp.andi x v reducesTo_S50000x500_S_d0_1 h_S_) main_v2 main_c
  let main_v4 : FVec F S500x128 .f32 := Host.absf main_arg2
  let main_cst_0 : FVec F S_ .f32 := constant S_ .f32 0x7F800000#32
  let main_v5 : FVec F S500x128 .f32 := broadcastInDim S500x128 ![] bcast_S_S500x128 main_cst_0
  let main_v6 : IVec S500x128 1 := cmpf .olt main_v4 main_v5
  let main_c_1 : IVec S_ 1 := constantI S_ 1 1#1
  let main_v7 : IVec S_ 1 := (fun x v => Host.reduce IntOp.andi x v reducesTo_S500x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S50000x500 : Shape := ⟨2, ![50000, 500]⟩
abbrev S2x800000 : Shape := ⟨2, ![2, 800000]⟩
abbrev S500x128 : Shape := ⟨2, ![500, 128]⟩
abbrev S128 : Shape := ⟨1, ![128]⟩
abbrev S128x128 : Shape := ⟨2, ![128, 128]⟩
abbrev S128x40 : Shape := ⟨2, ![128, 40]⟩
abbrev S40 : Shape := ⟨1, ![40]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x128 : Shape := ⟨2, ![50000, 128]⟩
abbrev S5000x500 : Shape := ⟨2, ![5000, 500]⟩
abbrev S5000x128 : Shape := ⟨2, ![5000, 128]⟩
abbrev S850000x128 : Shape := ⟨2, ![850000, 128]⟩
abbrev S1x128 : Shape := ⟨2, ![1, 128]⟩
abbrev S50000x40 : Shape := ⟨2, ![50000, 40]⟩
abbrev S5000x40 : Shape := ⟨2, ![5000, 40]⟩
abbrev S850000x40 : Shape := ⟨2, ![850000, 40]⟩
abbrev S1x40 : Shape := ⟨2, ![1, 40]⟩
abbrev S50000x1 : Shape := ⟨2, ![50000, 1]⟩

abbrev nBuf : Space → Nat
  | .hbm => 135
  | .vmem => 15
  | .smem => 0
  | _ => 0

abbrev hbmTy0_0 (i : Nat) : BufTy := match i % 128 with
  | 0 => ⟨S50000x500, .f32⟩
  | 1 => ⟨S2x800000, .i32⟩
  | 2 => ⟨S500x128, .f32⟩
  | 3 => ⟨S128, .f32⟩
  | 4 => ⟨S128x128, .f32⟩
  | 5 => ⟨S128, .f32⟩
  | 6 => ⟨S128x40, .f32⟩
  | 7 => ⟨S40, .f32⟩
  | 8 => ⟨S50000, .i32⟩
  | 9 => ⟨S1x800000, .i32⟩
  | 10 => ⟨S800000, .i32⟩
  | 11 => ⟨S850000, .i32⟩
  | 12 => ⟨S1x800000, .i32⟩
  | 13 => ⟨S800000, .i32⟩
  | 14 => ⟨S850000, .i32⟩
  | 15 => ⟨S_, .f32⟩
  | 16 => ⟨S850000, .f32⟩
  | 17 => ⟨S_, .f32⟩
  | 18 => ⟨S50000, .f32⟩
  | 19 => ⟨S850000x1, .i32⟩
  | 20 => ⟨S50000, .f32⟩
  | 21 => ⟨S_, .f32⟩
  | 22 => ⟨S50000, .f32⟩
  | 23 => ⟨S50000, .i1⟩
  | 24 => ⟨S50000, .f32⟩
  | 25 => ⟨S_, .f32⟩
  | 26 => ⟨S_, .f32⟩
  | 27 => ⟨S50000, .f32⟩
  | 28 => ⟨S50000, .f32⟩
  | 29 => ⟨S_, .i32⟩
  | 30 => ⟨S850000, .i32⟩
  | 31 => ⟨S850000, .i1⟩
  | 32 => ⟨S_, .i32⟩
  | 33 => ⟨S850000, .i32⟩
  | 34 => ⟨S850000, .i32⟩
  | 35 => ⟨S850000, .i32⟩
  | 36 => ⟨S850000x1, .i32⟩
  | 37 => ⟨S850000, .f32⟩
  | 38 => ⟨S_, .i32⟩
  | 39 => ⟨S850000, .i32⟩
  | 40 => ⟨S850000, .i1⟩
  | 41 => ⟨S_, .i32⟩
  | 42 => ⟨S850000, .i32⟩
  | 43 => ⟨S850000, .i32⟩
  | 44 => ⟨S850000, .i32⟩
  | 45 => ⟨S850000x1, .i32⟩
  | 46 => ⟨S850000, .f32⟩
  | 47 => ⟨S850000, .f32⟩
  | 48 => ⟨S50000x500, .bf16⟩
  | 49 => ⟨S500x128, .bf16⟩
  | 50 => ⟨S50000x128, .f32⟩
  | 51 => ⟨S_, .i32⟩
  | 52 => ⟨S850000, .i32⟩
  | 53 => ⟨S850000, .i1⟩
  | 54 => ⟨S_, .i32⟩
  | 55 => ⟨S850000, .i32⟩
  | 56 => ⟨S850000, .i32⟩
  | 57 => ⟨S850000, .i32⟩
  | 58 => ⟨S850000x1, .i32⟩
  | 59 => ⟨S850000x128, .f32⟩
  | 60 => ⟨S850000x1, .f32⟩
  | 61 => ⟨S850000x128, .f32⟩
  | 62 => ⟨S850000x128, .f32⟩
  | 63 => ⟨S_, .f32⟩
  | 64 => ⟨S50000x128, .f32⟩
  | 65 => ⟨S850000x1, .i32⟩
  | 66 => ⟨S50000x128, .f32⟩
  | 67 => ⟨S1x128, .f32⟩
  | 68 => ⟨S50000x128, .f32⟩
  | 69 => ⟨S50000x128, .f32⟩
  | 70 => ⟨S_, .f32⟩
  | 71 => ⟨S50000x128, .f32⟩
  | 72 => ⟨S50000x128, .f32⟩
  | 73 => ⟨S50000x128, .bf16⟩
  | 74 => ⟨S128x128, .bf16⟩
  | 75 => ⟨S50000x128, .f32⟩
  | 76 => ⟨S_, .i32⟩
  | 77 => ⟨S850000, .i32⟩
  | 78 => ⟨S850000, .i1⟩
  | 79 => ⟨S_, .i32⟩
  | 80 => ⟨S850000, .i32⟩
  | 81 => ⟨S850000, .i32⟩
  | 82 => ⟨S850000, .i32⟩
  | 83 => ⟨S850000x1, .i32⟩
  | 84 => ⟨S850000x128, .f32⟩
  | 85 => ⟨S850000x1, .f32⟩
  | 86 => ⟨S850000x128, .f32⟩
  | 87 => ⟨S850000x128, .f32⟩
  | 88 => ⟨S_, .f32⟩
  | 89 => ⟨S50000x128, .f32⟩
  | 90 => ⟨S850000x1, .i32⟩
  | 91 => ⟨S50000x128, .f32⟩
  | 92 => ⟨S1x128, .f32⟩
  | 93 => ⟨S50000x128, .f32⟩
  | 94 => ⟨S50000x128, .f32⟩
  | 95 => ⟨S_, .f32⟩
  | 96 => ⟨S50000x128, .f32⟩
  | 97 => ⟨S50000x128, .f32⟩
  | 98 => ⟨S50000x128, .bf16⟩
  | 99 => ⟨S128x40, .bf16⟩
  | 100 => ⟨S50000x40, .f32⟩
  | 101 => ⟨S_, .i32⟩
  | 102 => ⟨S850000, .i32⟩
  | 103 => ⟨S850000, .i1⟩
  | 104 => ⟨S_, .i32⟩
  | 105 => ⟨S850000, .i32⟩
  | 106 => ⟨S850000, .i32⟩
  | 107 => ⟨S850000, .i32⟩
  | 108 => ⟨S850000x1, .i32⟩
  | 109 => ⟨S850000x40, .f32⟩
  | 110 => ⟨S850000x1, .f32⟩
  | 111 => ⟨S850000x40, .f32⟩
  | 112 => ⟨S850000x40, .f32⟩
  | 113 => ⟨S_, .f32⟩
  | 114 => ⟨S50000x40, .f32⟩
  | 115 => ⟨S850000x1, .i32⟩
  | 116 => ⟨S50000x40, .f32⟩
  | 117 => ⟨S1x40, .f32⟩
  | 118 => ⟨S50000x40, .f32⟩
  | 119 => ⟨S50000x40, .f32⟩
  | 120 => ⟨S_, .f32⟩
  | 121 => ⟨S50000, .f32⟩
  | 122 => ⟨S_, .f32⟩
  | 123 => ⟨S50000, .f32⟩
  | 124 => ⟨S50000, .f32⟩
  | 125 => ⟨S50000x1, .f32⟩
  | 126 => ⟨S50000x40, .f32⟩
  | 127 => ⟨S50000x40, .f32⟩
  | _ => ⟨S50000x500, .f32⟩

abbrev hbmTy0_1 (i : Nat) : BufTy := match i % 128 with
  | 0 => ⟨S50000x40, .f32⟩
  | 1 => ⟨S_, .f32⟩
  | 2 => ⟨S50000, .f32⟩
  | 3 => ⟨S50000x1, .f32⟩
  | 4 => ⟨S50000x1, .f32⟩
  | 5 => ⟨S50000x40, .f32⟩
  | 6 => ⟨S50000x40, .f32⟩
  | _ => ⟨S50000x500, .f32⟩

abbrev hbmTy (i : Nat) : BufTy := match i / 128 with
  | 0 => hbmTy0_0 i
  | 1 => hbmTy0_1 i
  | _ => ⟨S50000x500, .f32⟩

abbrev bufTy : (tb : Table) → Fin (tcTables nBuf tb) → BufTy
  | .hbm, ⟨i, _⟩ => hbmTy i
  | .local _ .vmem, ⟨0, _⟩ => ⟨S5000x500, .bf16⟩
  | .local _ .vmem, ⟨1, _⟩ => ⟨S5000x500, .bf16⟩
  | .local _ .vmem, ⟨2, _⟩ => ⟨S500x128, .bf16⟩
  | .local _ .vmem, ⟨3, _⟩ => ⟨S5000x128, .f32⟩
  | .local _ .vmem, ⟨4, _⟩ => ⟨S5000x128, .f32⟩
  | .local _ .vmem, ⟨5, _⟩ => ⟨S5000x128, .bf16⟩
  | .local _ .vmem, ⟨6, _⟩ => ⟨S5000x128, .bf16⟩
  | .local _ .vmem, ⟨7, _⟩ => ⟨S128x128, .bf16⟩
  | .local _ .vmem, ⟨8, _⟩ => ⟨S5000x128, .f32⟩
  | .local _ .vmem, ⟨9, _⟩ => ⟨S5000x128, .f32⟩
  | .local _ .vmem, ⟨10, _⟩ => ⟨S5000x128, .bf16⟩
  | .local _ .vmem, ⟨11, _⟩ => ⟨S5000x128, .bf16⟩
  | .local _ .vmem, ⟨12, _⟩ => ⟨S128x40, .bf16⟩
  | .local _ .vmem, ⟨13, _⟩ => ⟨S5000x40, .f32⟩
  | .local _ .vmem, ⟨14, _⟩ => ⟨S5000x40, .f32⟩
  | _, _ => ⟨S50000x500, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_6 : Ref sig .tc := ⟨.hbm, 51, rfl⟩
abbrev main_v33 : Ref sig .tc := ⟨.hbm, 52, rfl⟩
abbrev main_v34 : Ref sig .tc := ⟨.hbm, 53, rfl⟩
abbrev main_c_7 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_call1_cst : Ref sig .tc := ⟨.hbm, 70, rfl⟩
abbrev main_call1_v0 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_c_9 : Ref sig .tc := ⟨.hbm, 76, rfl⟩
abbrev main_v53 : Ref sig .tc := ⟨.hbm, 77, rfl⟩
abbrev main_v54 : Ref sig .tc := ⟨.hbm, 78, rfl⟩
abbrev main_c_10 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_11 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_call2_cst : Ref sig .tc := ⟨.hbm, 95, rfl⟩
abbrev main_call2_v0 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_c_12 : Ref sig .tc := ⟨.hbm, 101, rfl⟩
abbrev main_v73 : Ref sig .tc := ⟨.hbm, 102, rfl⟩
abbrev main_v74 : Ref sig .tc := ⟨.hbm, 103, rfl⟩
abbrev main_c_13 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_cst_14 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_call3_cst : Ref sig .tc := ⟨.hbm, 120, rfl⟩
abbrev main_call3_v0 : Ref sig .tc := ⟨.hbm, 121, rfl⟩
abbrev main_call3_cst_0 : Ref sig .tc := ⟨.hbm, 122, rfl⟩
abbrev main_call3_v1 : Ref sig .tc := ⟨.hbm, 123, rfl⟩
abbrev main_call3_v2 : Ref sig .tc := ⟨.hbm, 124, rfl⟩
abbrev main_call3_v3 : Ref sig .tc := ⟨.hbm, 125, rfl⟩
abbrev main_call3_v4 : Ref sig .tc := ⟨.hbm, 126, rfl⟩
abbrev main_call3_v5 : Ref sig .tc := ⟨.hbm, 127, rfl⟩
abbrev main_call3_v6 : Ref sig .tc := ⟨.hbm, 128, rfl⟩
abbrev main_call3_cst_1 : Ref sig .tc := ⟨.hbm, 129, rfl⟩
abbrev main_call3_v7 : Ref sig .tc := ⟨.hbm, 130, rfl⟩
abbrev main_call3_v8 : Ref sig .tc := ⟨.hbm, 131, rfl⟩
abbrev main_call3_v9 : Ref sig .tc := ⟨.hbm, 132, rfl⟩
abbrev main_call3_v10 : Ref sig .tc := ⟨.hbm, 133, rfl⟩
abbrev main_v89 : Ref sig .tc := ⟨.hbm, 134, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x500 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S500x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x40 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bitsLt_bf16_f32 : FTy.bits .bf16 < FTy.bits .f32
  inb_S5000x500_S5000x500_0_0 : ∀ a, (![0, 0] : Fin 2 → Nat) a + S5000x500.size a ≤ S5000x500.size a
  h_S5000x500 : 0 < S5000x500.numel
  shapeCasts_S5000x500_S5000x500 : S5000x500.ShapeCasts S5000x500
  inb_S500x128_S500x128_0_0 : ∀ a, (![0, 0] : Fin 2 → Nat) a + S500x128.size a ≤ S500x128.size a
  h_S500x128 : 0 < S500x128.numel
  shapeCasts_S500x128_S500x128 : S500x128.ShapeCasts S500x128
  inb_S5000x128_S5000x128_0_0 : ∀ a, (![0, 0] : Fin 2 → Nat) a + S5000x128.size a ≤ S5000x128.size a
  h_S5000x128 : 0 < S5000x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128x40_S128x40_0_0 : ∀ a, (![0, 0] : Fin 2 → Nat) a + S128x40.size a ≤ S128x40.size a
  h_S128x40 : 0 < S128x40.numel
  shapeCasts_S128x40_S128x40 : S128x40.ShapeCasts S128x40
  inb_S5000x40_S5000x40_0_0 : ∀ a, (![0, 0] : Fin 2 → Nat) a + S5000x40.size a ≤ S5000x40.size a
  h_S5000x40 : 0 < S5000x40.numel
  bcast_S850000x1_S850000x40_0_1 : S850000x1.BroadcastsInDim S850000x40 (![0, 1] : Fin 2 → Fin S850000x40.rank)
  bcast_S_S50000x40 : S_.BroadcastsInDim S50000x40 (![] : Fin 0 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  reducesTo_S50000x40_S50000_d1 : S50000x40.ReducesTo [1] S50000
  h_S_ : 0 < S_.numel
  bcast_S50000_S50000x1_0 : S50000.BroadcastsInDim S50000x1 (![0] : Fin 1 → Fin S50000x1.rank)
  bcast_S50000x1_S50000x40_0_1 : S50000x1.BroadcastsInDim S50000x40 (![0, 1] : Fin 2 → Fin S50000x40.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x500_S500x128_S5000x128_1_0_0_1_n_n_wf : DotDims.WF S5000x500 S500x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x128_S5000x128_1_0_0_1_n_n_wf : DotDims.WF S5000x128 S128x128 S5000x128 [1] [0] [0] [1] [] []
  dot_S5000x128_S128x40_S5000x40_1_0_0_1_n_n_wf : DotDims.WF S5000x128 S128x40 S5000x40 [1] [0] [0] [1] [] []
  gather_S50000x40_S850000x1_S850000x40_1_0_n_n_0_1_140_wf : GatherDims.WF S50000x40 S850000x1 S850000x40 [1] [0] [] [0] [] 1 ![1, 40]
  scatter_S50000x40_S850000x1_S850000x40_1_0_0_1_wf : ScatterDims.WF S50000x40 S850000x1 S850000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x500.size a ≤ S50000x500.size a
  hwx0_0 : ∀ i : grid0.Coords, EltTy.bits .bf16 = 32 ∨ (Rect.block (s := S50000x500) S5000x500.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S500x128.size a ≤ S500x128.size a
  hwx0_1 : ∀ i : grid0.Coords, EltTy.bits .bf16 = 32 ∨ (Rect.block (s := S500x128) S500x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .bf16 = 32 ∨ (Rect.block (s := S50000x128) S5000x128.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .bf16 = 32 ∨ (Rect.block (s := S128x128) S128x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .bf16 = 32 ∨ (Rect.block (s := S50000x128) S5000x128.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x40.size a ≤ S128x40.size a
  hwx2_1 : ∀ i : grid2.Coords, EltTy.bits .bf16 = 32 ∨ (Rect.block (s := S128x40) S128x40.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x40.size a ≤ S50000x40.size a
  hwx2_2 : ∀ i : grid2.Coords, EltTy.bits .f32 = 32 ∨ (Rect.block (s := S50000x40) S5000x40.size (cc2_transform_2 i) (hinb2_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x500_S500x128_S5000x128_1_0_0_1_n_n : DotDims S5000x500 S500x128 S5000x128 where
  lhsContracting := [1]
  rhsContracting := [0]
  lhsNonContracting := [0]
  rhsNonContracting := [1]
  lhsBatch := []
  rhsBatch := []
  wf := dot_S5000x500_S500x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf
def gather_S50000x40_S850000x1_S850000x40_1_0_n_n_0_1_140 : GatherDims S50000x40 S850000x1 S850000x40 where
  offsetDims := [1]
  collapsedSliceDims := [0]
  operandBatchingDims := []
  startIndicesBatchingDims := []
  startIndexMap := [0]
  indexVectorDim := 1
  sliceSizes := ![1, 40]
  wf := gather_S50000x40_S850000x1_S850000x40_1_0_n_n_0_1_140_wf
def scatter_S50000x40_S850000x1_S850000x40_1_0_0_1 : ScatterDims S50000x40 S850000x1 S850000x40 where
  updateWindowDims := [1]
  insertedWindowDims := [0]
  scatterDimsToOperandDims := [0]
  indexVectorDim := 1
  wf := scatter_S50000x40_S850000x1_S850000x40_1_0_0_1_wf

abbrev win0_0 : Pipeline.Window sig grid0 :=
  Pipeline.Window.ofSpec (Memref.whole main_v30) S5000x500.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v31) S500x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v50) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v51) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v52) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v70) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v71) S128x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v72) S5000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S50000x500 : Shape := ⟨2, ![50000, 500]⟩
abbrev S2x800000 : Shape := ⟨2, ![2, 800000]⟩
abbrev S500x128 : Shape := ⟨2, ![500, 128]⟩
abbrev S128 : Shape := ⟨1, ![128]⟩
abbrev S128x128 : Shape := ⟨2, ![128, 128]⟩
abbrev S128x40 : Shape := ⟨2, ![128, 40]⟩
abbrev S40 : Shape := ⟨1, ![40]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x128 : Shape := ⟨2, ![50000, 128]⟩
abbrev S850000x128 : Shape := ⟨2, ![850000, 128]⟩
abbrev S1x128 : Shape := ⟨2, ![1, 128]⟩
abbrev S50000x40 : Shape := ⟨2, ![50000, 40]⟩
abbrev S850000x40 : Shape := ⟨2, ![850000, 40]⟩
abbrev S1x40 : Shape := ⟨2, ![1, 40]⟩
abbrev S50000x1 : Shape := ⟨2, ![50000, 1]⟩

abbrev nBuf : Space → Nat
  | .hbm => 129
  | .vmem => 0
  | .smem => 0
  | _ => 0

abbrev hbmTy0_0 (i : Nat) : BufTy := match i % 128 with
  | 0 => ⟨S50000x500, .f32⟩
  | 1 => ⟨S2x800000, .i32⟩
  | 2 => ⟨S500x128, .f32⟩
  | 3 => ⟨S128, .f32⟩
  | 4 => ⟨S128x128, .f32⟩
  | 5 => ⟨S128, .f32⟩
  | 6 => ⟨S128x40, .f32⟩
  | 7 => ⟨S40, .f32⟩
  | 8 => ⟨S50000, .i32⟩
  | 9 => ⟨S1x800000, .i32⟩
  | 10 => ⟨S800000, .i32⟩
  | 11 => ⟨S850000, .i32⟩
  | 12 => ⟨S1x800000, .i32⟩
  | 13 => ⟨S800000, .i32⟩
  | 14 => ⟨S850000, .i32⟩
  | 15 => ⟨S_, .f32⟩
  | 16 => ⟨S850000, .f32⟩
  | 17 => ⟨S_, .f32⟩
  | 18 => ⟨S50000, .f32⟩
  | 19 => ⟨S850000x1, .i32⟩
  | 20 => ⟨S50000, .f32⟩
  | 21 => ⟨S_, .f32⟩
  | 22 => ⟨S50000, .f32⟩
  | 23 => ⟨S50000, .i1⟩
  | 24 => ⟨S50000, .f32⟩
  | 25 => ⟨S_, .f32⟩
  | 26 => ⟨S_, .f32⟩
  | 27 => ⟨S50000, .f32⟩
  | 28 => ⟨S50000, .f32⟩
  | 29 => ⟨S_, .i32⟩
  | 30 => ⟨S850000, .i32⟩
  | 31 => ⟨S850000, .i1⟩
  | 32 => ⟨S_, .i32⟩
  | 33 => ⟨S850000, .i32⟩
  | 34 => ⟨S850000, .i32⟩
  | 35 => ⟨S850000, .i32⟩
  | 36 => ⟨S850000x1, .i32⟩
  | 37 => ⟨S850000, .f32⟩
  | 38 => ⟨S_, .i32⟩
  | 39 => ⟨S850000, .i32⟩
  | 40 => ⟨S850000, .i1⟩
  | 41 => ⟨S_, .i32⟩
  | 42 => ⟨S850000, .i32⟩
  | 43 => ⟨S850000, .i32⟩
  | 44 => ⟨S850000, .i32⟩
  | 45 => ⟨S850000x1, .i32⟩
  | 46 => ⟨S850000, .f32⟩
  | 47 => ⟨S850000, .f32⟩
  | 48 => ⟨S50000x128, .f32⟩
  | 49 => ⟨S_, .i32⟩
  | 50 => ⟨S850000, .i32⟩
  | 51 => ⟨S850000, .i1⟩
  | 52 => ⟨S_, .i32⟩
  | 53 => ⟨S850000, .i32⟩
  | 54 => ⟨S850000, .i32⟩
  | 55 => ⟨S850000, .i32⟩
  | 56 => ⟨S850000x1, .i32⟩
  | 57 => ⟨S850000x128, .f32⟩
  | 58 => ⟨S850000x1, .f32⟩
  | 59 => ⟨S850000x128, .f32⟩
  | 60 => ⟨S850000x128, .f32⟩
  | 61 => ⟨S_, .f32⟩
  | 62 => ⟨S50000x128, .f32⟩
  | 63 => ⟨S850000x1, .i32⟩
  | 64 => ⟨S50000x128, .f32⟩
  | 65 => ⟨S1x128, .f32⟩
  | 66 => ⟨S50000x128, .f32⟩
  | 67 => ⟨S50000x128, .f32⟩
  | 68 => ⟨S_, .f32⟩
  | 69 => ⟨S50000x128, .f32⟩
  | 70 => ⟨S50000x128, .f32⟩
  | 71 => ⟨S50000x128, .f32⟩
  | 72 => ⟨S_, .i32⟩
  | 73 => ⟨S850000, .i32⟩
  | 74 => ⟨S850000, .i1⟩
  | 75 => ⟨S_, .i32⟩
  | 76 => ⟨S850000, .i32⟩
  | 77 => ⟨S850000, .i32⟩
  | 78 => ⟨S850000, .i32⟩
  | 79 => ⟨S850000x1, .i32⟩
  | 80 => ⟨S850000x128, .f32⟩
  | 81 => ⟨S850000x1, .f32⟩
  | 82 => ⟨S850000x128, .f32⟩
  | 83 => ⟨S850000x128, .f32⟩
  | 84 => ⟨S_, .f32⟩
  | 85 => ⟨S50000x128, .f32⟩
  | 86 => ⟨S850000x1, .i32⟩
  | 87 => ⟨S50000x128, .f32⟩
  | 88 => ⟨S1x128, .f32⟩
  | 89 => ⟨S50000x128, .f32⟩
  | 90 => ⟨S50000x128, .f32⟩
  | 91 => ⟨S_, .f32⟩
  | 92 => ⟨S50000x128, .f32⟩
  | 93 => ⟨S50000x128, .f32⟩
  | 94 => ⟨S50000x40, .f32⟩
  | 95 => ⟨S_, .i32⟩
  | 96 => ⟨S850000, .i32⟩
  | 97 => ⟨S850000, .i1⟩
  | 98 => ⟨S_, .i32⟩
  | 99 => ⟨S850000, .i32⟩
  | 100 => ⟨S850000, .i32⟩
  | 101 => ⟨S850000, .i32⟩
  | 102 => ⟨S850000x1, .i32⟩
  | 103 => ⟨S850000x40, .f32⟩
  | 104 => ⟨S850000x1, .f32⟩
  | 105 => ⟨S850000x40, .f32⟩
  | 106 => ⟨S850000x40, .f32⟩
  | 107 => ⟨S_, .f32⟩
  | 108 => ⟨S50000x40, .f32⟩
  | 109 => ⟨S850000x1, .i32⟩
  | 110 => ⟨S50000x40, .f32⟩
  | 111 => ⟨S1x40, .f32⟩
  | 112 => ⟨S50000x40, .f32⟩
  | 113 => ⟨S50000x40, .f32⟩
  | 114 => ⟨S_, .f32⟩
  | 115 => ⟨S50000, .f32⟩
  | 116 => ⟨S_, .f32⟩
  | 117 => ⟨S50000, .f32⟩
  | 118 => ⟨S50000, .f32⟩
  | 119 => ⟨S50000x1, .f32⟩
  | 120 => ⟨S50000x40, .f32⟩
  | 121 => ⟨S50000x40, .f32⟩
  | 122 => ⟨S50000x40, .f32⟩
  | 123 => ⟨S_, .f32⟩
  | 124 => ⟨S50000, .f32⟩
  | 125 => ⟨S50000x1, .f32⟩
  | 126 => ⟨S50000x1, .f32⟩
  | 127 => ⟨S50000x40, .f32⟩
  | _ => ⟨S50000x500, .f32⟩

abbrev hbmTy0_1 (i : Nat) : BufTy := match i % 128 with
  | 0 => ⟨S50000x40, .f32⟩
  | _ => ⟨S50000x500, .f32⟩

abbrev hbmTy (i : Nat) : BufTy := match i / 128 with
  | 0 => hbmTy0_0 i
  | 1 => hbmTy0_1 i
  | _ => ⟨S50000x500, .f32⟩

abbrev bufTy : (tb : Table) → Fin (tcTables nBuf tb) → BufTy
  | .hbm, ⟨i, _⟩ => hbmTy i
  | _, _ => ⟨S50000x500, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_call2_cst : Ref sig .tc := ⟨.hbm, 91, rfl⟩
abbrev main_call2_v0 : Ref sig .tc := ⟨.hbm, 92, rfl⟩
abbrev main_v65 : Ref sig .tc := ⟨.hbm, 93, rfl⟩
abbrev main_v66 : Ref sig .tc := ⟨.hbm, 94, rfl⟩
abbrev main_c_12 : Ref sig .tc := ⟨.hbm, 95, rfl⟩
abbrev main_v67 : Ref sig .tc := ⟨.hbm, 96, rfl⟩
abbrev main_v68 : Ref sig .tc := ⟨.hbm, 97, rfl⟩
abbrev main_c_13 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_14 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_call3_cst : Ref sig .tc := ⟨.hbm, 114, rfl⟩
abbrev main_call3_v0 : Ref sig .tc := ⟨.hbm, 115, rfl⟩
abbrev main_call3_cst_0 : Ref sig .tc := ⟨.hbm, 116, rfl⟩
abbrev main_call3_v1 : Ref sig .tc := ⟨.hbm, 117, rfl⟩
abbrev main_call3_v2 : Ref sig .tc := ⟨.hbm, 118, rfl⟩
abbrev main_call3_v3 : Ref sig .tc := ⟨.hbm, 119, rfl⟩
abbrev main_call3_v4 : Ref sig .tc := ⟨.hbm, 120, rfl⟩
abbrev main_call3_v5 : Ref sig .tc := ⟨.hbm, 121, rfl⟩
abbrev main_call3_v6 : Ref sig .tc := ⟨.hbm, 122, rfl⟩
abbrev main_call3_cst_1 : Ref sig .tc := ⟨.hbm, 123, rfl⟩
abbrev main_call3_v7 : Ref sig .tc := ⟨.hbm, 124, rfl⟩
abbrev main_call3_v8 : Ref sig .tc := ⟨.hbm, 125, rfl⟩
abbrev main_call3_v9 : Ref sig .tc := ⟨.hbm, 126, rfl⟩
abbrev main_call3_v10 : Ref sig .tc := ⟨.hbm, 127, rfl⟩
abbrev main_v83 : Ref sig .tc := ⟨.hbm, 128, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x40_0_1 : S850000x1.BroadcastsInDim S850000x40 (![0, 1] : Fin 2 → Fin S850000x40.rank)
  bcast_S_S50000x40 : S_.BroadcastsInDim S50000x40 (![] : Fin 0 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  reducesTo_S50000x40_S50000_d1 : S50000x40.ReducesTo [1] S50000
  h_S_ : 0 < S_.numel
  bcast_S50000_S50000x1_0 : S50000.BroadcastsInDim S50000x1 (![0] : Fin 1 → Fin S50000x1.rank)
  bcast_S50000x1_S50000x40_0_1 : S50000x1.BroadcastsInDim S50000x40 (![0, 1] : Fin 2 → Fin S50000x40.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x500_S500x128_S50000x128_1_0_0_1_n_n_wf : DotDims.WF S50000x500 S500x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x128_S50000x128_1_0_0_1_n_n_wf : DotDims.WF S50000x128 S128x128 S50000x128 [1] [0] [0] [1] [] []
  dot_S50000x128_S128x40_S50000x40_1_0_0_1_n_n_wf : DotDims.WF S50000x128 S128x40 S50000x40 [1] [0] [0] [1] [] []
  gather_S50000x40_S850000x1_S850000x40_1_0_n_n_0_1_140_wf : GatherDims.WF S50000x40 S850000x1 S850000x40 [1] [0] [] [0] [] 1 ![1, 40]
  scatter_S50000x40_S850000x1_S850000x40_1_0_0_1_wf : ScatterDims.WF S50000x40 S850000x1 S850000x40 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x500_S500x128_S50000x128_1_0_0_1_n_n : DotDims S50000x500 S500x128 S50000x128 where
  lhsContracting := [1]
  rhsContracting := [0]
  lhsNonContracting := [0]
  rhsNonContracting := [1]
  lhsBatch := []
  rhsBatch := []
  wf := dot_S50000x500_S500x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf
def gather_S50000x40_S850000x1_S850000x40_1_0_n_n_0_1_140 : GatherDims S50000x40 S850000x1 S850000x40 where
  offsetDims := [1]
  collapsedSliceDims := [0]
  operandBatchingDims := []
  startIndicesBatchingDims := []
  startIndexMap := [0]
  indexVectorDim := 1
  sliceSizes := ![1, 40]
  wf := gather_S50000x40_S850000x1_S850000x40_1_0_n_n_0_1_140_wf
def scatter_S50000x40_S850000x1_S850000x40_1_0_0_1 : ScatterDims S50000x40 S850000x1 S850000x40 where
  updateWindowDims := [1]
  insertedWindowDims := [0]
  scatterDimsToOperandDims := [0]
  indexVectorDim := 1
  wf := scatter_S50000x40_S850000x1_S850000x40_1_0_0_1_wf

class Facts : Prop extends Facts₀ where

variable [Facts]
-- ==== Proof.KernelRun.lean ====
/-
  The idealized kernel program's run with its RESULT kept.

  The program is fourteen segments: stretches of host operations around three matrix-product kernels. Running
  them in order from the launch memory is a fold: each stretch rewrites the buffers its operations write, each
  kernel launch replaces its output array by what the ten grid points write back, and every other buffer is
  carried along. At the return every buffer no scope owns holds the value of that fold (`Gen.W14`). The frame
  theorem reads only the argument arrays out of that final state; here the same run is read at the result buffer
  as well, so that the value of the program's result is the fold's value at that buffer.
-/
import proofs.«178061_j57535381897260_1_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of the program terminates without a fault;
    the result buffer then holds the fold's value at that buffer, and the argument arrays are as launched. -/
theorem run_value : θ_run defs (onTc (τ := τ) (main (F := F))) ⟨m, fun _ => 0, ρ⟩ (fun r => ∀ c : Dev nD,
      r.2.mem ((c.tc : Thread nD τ).loc main_v89) = W14 m ρ c (Proc.devRef .tc main_v89)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v89 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c)⟩)

end Cert.KernelIdeal.RunValue

end
-- ==== Proof.PlainCalls.lean ====
/-
  The operations of the functions the kernel program calls (the select guarding the inverse square root, the two
  rectifiers, the log-softmax), written on the buffers themselves. A called function's operation is stated through a
  typed view of each buffer, a transport along the buffer's recorded type; for these buffers that transport is the
  identity, so each list of operations equals the list of the same operations applied to the buffers directly.
-/
import proofs.«178061_j57535381897260_1_alg».proof.Proof.Gen.KernelIdeal.Launch

noncomputable section

namespace Cert.KernelIdeal.Plain

open Cert.KernelIdeal Cert.KernelIdeal.Gen Idealize.ShloMosaic Idealize.ShloMosaic.TcCoe Idealize.SL.Sem

variable {F : FTy → Type} [FloatOps F]

/-- The select of the inverse square roots where the degree is positive, else zero, on the buffers. -/
abbrev whereOps : List (HloOp τ sig (Elt F)) :=
  [ StableHlo.unary main_cst_2 main_call0_v0 ((id) : (⟨S_, .f32⟩ : BufTy).Contents (Elt F) → (⟨S_, .f32⟩ : BufTy).Contents (Elt F)),
    StableHlo.unary main_call0_v0 main_call0_v1 ((broadcastInDim S50000 ![] bcast_S_S50000) : (⟨S_, .f32⟩ : BufTy).Contents (Elt F) → (⟨S50000, .f32⟩ : BufTy).Contents (Elt F)),
    StableHlo.ternary main_v12 main_v13 main_call0_v1 main_v14 ((select) : (⟨S50000, .i1⟩ : BufTy).Contents (Elt F) → (⟨S50000, .f32⟩ : BufTy).Contents (Elt F) → (⟨S50000, .f32⟩ : BufTy).Contents (Elt F) → (⟨S50000, .f32⟩ : BufTy).Contents (Elt F)) ]
theorem whereOps_eq : (hostOps0_1 : List (HloOp τ sig (Elt F))) = whereOps := rfl

/-- The first rectifier, on the buffers. -/
abbrev relu1Ops : List (HloOp τ sig (Elt F)) :=
  [ StableHlo.nullary main_call1_cst ((constant S_ .f32 0x00000000#32) : (⟨S_, .f32⟩ : BufTy).Contents (Elt F)),
    StableHlo.unary main_call1_cst main_call1_v0 ((broadcastInDim S50000x128 ![] bcast_S_S50000x128) : (⟨S_, .f32⟩ : BufTy).Contents (Elt F) → (⟨S50000x128, .f32⟩ : BufTy).Contents (Elt F)),
    StableHlo.binary main_v48 main_call1_v0 main_v49 ((maximumf) : (⟨S50000x128, .f32⟩ : BufTy).Contents (Elt F) → (⟨S50000x128, .f32⟩ : BufTy).Contents (Elt F) → (⟨S50000x128, .f32⟩ : BufTy).Contents (Elt F)) ]
theorem relu1Ops_eq : (hostOps1_1 : List (HloOp τ sig (Elt F))) = relu1Ops := rfl

/-- The second rectifier, on the buffers. -/
abbrev relu2Ops : List (HloOp τ sig (Elt F)) :=
  [ StableHlo.nullary main_call2_cst ((constant S_ .f32 0x00000000#32) : (⟨S_, .f32⟩ : BufTy).Contents (Elt F)),
    StableHlo.unary main_call2_cst main_call2_v0 ((broadcastInDim S50000x128 ![] bcast_S_S50000x128) : (⟨S_, .f32⟩ : BufTy).Contents (Elt F) → (⟨S50000x128, .f32⟩ : BufTy).Contents (Elt F)),
    StableHlo.binary main_v68 main_call2_v0 main_v69 ((maximumf) : (⟨S50000x128, .f32⟩ : BufTy).Contents (Elt F) → (⟨S50000x128, .f32⟩ : BufTy).Contents (Elt F) → (⟨S50000x128, .f32⟩ : BufTy).Contents (Elt F)) ]
theorem relu2Ops_eq : (hostOps2_1 : List (HloOp τ sig (Elt F))) = relu2Ops := rfl

/-- The row-wise log-softmax, on the buffers. -/
abbrev softmaxOps : List (HloOp τ sig (Elt F)) :=
  [ StableHlo.nullary main_call3_cst ((constant S_ .f32 0xFF800000#32) : (⟨S_, .f32⟩ : BufTy).Contents (Elt F)),
    StableHlo.binary main_v88 main_call3_cst main_call3_v0 ((fun x v => Host.reduce FloatOps.maximumf x v reducesTo_S50000x40_S50000_d1 h_S_) : (⟨S50000x40, .f32⟩ : BufTy).Contents (Elt F) → (⟨S_, .f32⟩ : BufTy).Contents (Elt F) → (⟨S50000, .f32⟩ : BufTy).Contents (Elt F)),
    StableHlo.nullary main_call3_cst_0 ((constant S_ .f32 0xFF800000#32) : (⟨S_, .f32⟩ : BufTy).Contents (Elt F)),
    StableHlo.unary main_call3_cst_0 main_call3_v1 ((broadcastInDim S50000 ![] bcast_S_S50000) : (⟨S_, .f32⟩ : BufTy).Contents (Elt F) → (⟨S50000, .f32⟩ : BufTy).Contents (Elt F)),
    StableHlo.binary main_call3_v1 main_call3_v0 main_call3_v2 ((maximumf) : (⟨S50000, .f32⟩ : BufTy).Contents (Elt F) → (⟨S50000, .f32⟩ : BufTy).Contents (Elt F) → (⟨S50000, .f32⟩ : BufTy).Contents (Elt F)),
    StableHlo.unary main_call3_v2 main_call3_v3 ((broadcastInDim S50000x1 ![0] bcast_S50000_S50000x1_0) : (⟨S50000, .f32⟩ : BufTy).Contents (Elt F) → (⟨S50000x1, .f32⟩ : BufTy).Contents (Elt F)),
    StableHlo.unary main_call3_v3 main_call3_v4 ((broadcastInDim S50000x40 ![0, 1] bcast_S50000x1_S50000x40_0_1) : (⟨S50000x1, .f32⟩ : BufTy).Contents (Elt F) → (⟨S50000x40, .f32⟩ : BufTy).Contents (Elt F)),
    StableHlo.binary main_v88 main_call3_v4 main_call3_v5 ((subf) : (⟨S50000x40, .f32⟩ : BufTy).Contents (Elt F) → (⟨S50000x40, .f32⟩ : BufTy).Contents (Elt F) → (⟨S50000x40, .f32⟩ : BufTy).Contents (Elt F)),
    StableHlo.unary main_call3_v5 main_call3_v6 ((Host.exp) : (⟨S50000x40, .f32⟩ : BufTy).Contents (Elt F) → (⟨S50000x40, .f32⟩ : BufTy).Contents (Elt F)),
    StableHlo.nullary main_call3_cst_1 ((constant S_ .f32 0x00000000#32) : (⟨S_, .f32⟩ : BufTy).Contents (Elt F)),
    StableHlo.binary main_call3_v6 main_call3_cst_1 main_call3_v7 ((fun x v => Host.reduceAdd x v reducesTo_S50000x40_S50000_d1 h_S_) : (⟨S50000x40, .f32⟩ : BufTy).Contents (Elt F) → (⟨S_, .f32⟩ : BufTy).Contents (Elt F) → (⟨S50000, .f32⟩ : BufTy).Contents (Elt F)),
    StableHlo.unary main_call3_v7 main_call3_v8 ((broadcastInDim S50000x1 ![0] bcast_S50000_S50000x1_0) : (⟨S50000, .f32⟩ : BufTy).Contents (Elt F) → (⟨S50000x1, .f32⟩ : BufTy).Contents (Elt F)),
    StableHlo.unary main_call3_v8 main_call3_v9 ((Host.log) : (⟨S50000x1, .f32⟩ : BufTy).Contents (Elt F) → (⟨S50000x1, .f32⟩ : BufTy).Contents (Elt F)),
    StableHlo.unary main_call3_v9 main_call3_v10 ((broadcastInDim S50000x40 ![0, 1] bcast_S50000x1_S50000x40_0_1) : (⟨S50000x1, .f32⟩ : BufTy).Contents (Elt F) → (⟨S50000x40, .f32⟩ : BufTy).Contents (Elt F)),
    StableHlo.binary main_call3_v5 main_call3_v10 main_v89 ((subf) : (⟨S50000x40, .f32⟩ : BufTy).Contents (Elt F) → (⟨S50000x40, .f32⟩ : BufTy).Contents (Elt F) → (⟨S50000x40, .f32⟩ : BufTy).Contents (Elt F)) ]

/-- The row-maximum operation of the log-softmax, for any reducing function: the typed views of its three buffers are the
    buffers. (Stated over a variable so that nothing of the reduction itself is opened.) -/
theorem rowmax_plain (f : (⟨S50000x40, .f32⟩ : BufTy).Contents (Elt F) → (⟨S_, .f32⟩ : BufTy).Contents (Elt F) → (⟨S50000, .f32⟩ : BufTy).Contents (Elt F)) :
    (StableHlo.TRef.binary (.of main_v88 : StableHlo.TRef sig ⟨S50000x40, .f32⟩) (.of main_call3_cst : StableHlo.TRef sig ⟨S_, .f32⟩) (.of main_call3_v0 : StableHlo.TRef sig ⟨S50000, .f32⟩) f : HloOp τ sig (Elt F))
      = StableHlo.binary main_v88 main_call3_cst main_call3_v0 f := rfl

theorem softmaxOps_eq : (hostOps3_1 : List (HloOp τ sig (Elt F))) = softmaxOps :=
  congrArg₂ List.cons rfl (congrArg₂ List.cons (rowmax_plain _) rfl)

end Cert.KernelIdeal.Plain

end
-- ==== Proof.LibHostFold.lean ====
/-
  A straight line of host operations run in two parts: the contents after the whole line are the contents after the
  second part run from the contents after the first. (The fold of the operations' results over a list splits at any
  point of the list.)
-/
import Idealize.ShloMosaic.Lib.StableHlo.Run

namespace HostFold

open Idealize.ShloMosaic Idealize.ShloMosaic.StableHlo

variable {τ : Topo} {sig : RefSig} {Val : EltTy → Type}

/-- Two stretches run one after the other: the second folds over what the first left. -/
theorem after_append (l₁ l₂ : List (HloOp τ sig Val)) :
    ∀ V : Valuation τ sig Val, after (l₁ ++ l₂) V = after l₂ (after l₁ V) := by
  induction l₁ with
  | nil => intro V; rfl
  | cons op l ih => intro V; simp only [List.cons_append, after_cons, ih]

end HostFold
-- ==== Proof.ChainPrep.lean ====
/-
  The buffers on entry to the first matrix-product kernel.

  Before the first kernel the program computes, from the edge list alone, the source and destination node of every
  edge with one self-loop per node appended (two index vectors of length 850000) and the edge weights
  d(src)^(-1/2) · d(dst)^(-1/2), d the in-degree counted with the self-loops; and it rounds the node features and the
  first weight matrix to a narrower float format, which on extended reals changes nothing. These are, operation for
  operation, the reference program's own first stages, so each buffer holds the reference's stage of the same
  arguments; the argument arrays themselves are untouched. The first stretch of host operations is read in two
  parts — the seven operations that build the two index vectors, then the rest — so that the index vectors are
  named once and cited, not recomputed, by everything that reads them.
-/
import proofs.«178061_j57535381897260_1_alg».proof.Proof.Gen.KernelIdeal.Frame
import proofs.«178061_j57535381897260_1_alg».proof.Proof.PlainCalls
import proofs.«178061_j57535381897260_1_alg».proof.Proof.RefReadPatched
import proofs.«178061_j57535381897260_1_alg».proof.Proof.LibHostFold

set_option maxRecDepth 16384

noncomputable section

namespace Cert.KernelIdeal.Chain

open Cert.KernelIdeal Cert.KernelIdeal.Gen Idealize.ShloMosaic Idealize.ShloMosaic.TcCoe Idealize.SL.Sem
open Cert.ReferenceIdeal.ReadP

variable (m : (ℓ : Loc nD τ sig) → Buf (Elt Ideal) ℓ) (ρ : Dev nD → PrngReg) (c : Dev nD)

section
variable {F : FTy → Type} [FloatOps F]
/-- The first seven host operations: the edges' source and destination nodes, self-loops appended. -/
abbrev edgeOps : List (HloOp τ sig (Elt F)) :=
  [ StableHlo.nullary main_v0 (iotaInDim S50000 32 0),
    StableHlo.unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v1 main_v2 rfl shapeCasts_S1x800000_S800000,
    StableHlo.binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.unary main_arg1 main_v4 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v4 main_v5 rfl shapeCasts_S1x800000_S800000,
    StableHlo.binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)) ]
/-- The rest of the first stretch: the in-degrees, their comparison with zero and their inverse square roots. -/
abbrev degreeOps : List (HloOp τ sig (Elt F)) :=
  [ StableHlo.nullary main_cst (constant S_ .f32 0x3F800000#32),
    StableHlo.unary main_cst main_v7 (broadcastInDim S850000 ![] bcast_S_S850000 : (⟨S_, .f32⟩ : BufTy).Contents (Elt F) → (⟨S850000, .f32⟩ : BufTy).Contents (Elt F)),
    StableHlo.nullary main_cst_0 (constant S_ .f32 0x00000000#32),
    StableHlo.unary main_cst_0 main_v8 (broadcastInDim S50000 ![] bcast_S_S50000 : (⟨S_, .f32⟩ : BufTy).Contents (Elt F) → (⟨S50000, .f32⟩ : BufTy).Contents (Elt F)),
    StableHlo.unary main_v6 main_v9 (broadcastInDim S850000x1 ![0] bcast_S850000_S850000x1_0 : (⟨S850000, .i32⟩ : BufTy).Contents (Elt F) → (⟨S850000x1, .i32⟩ : BufTy).Contents (Elt F)),
    StableHlo.ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.nullary main_cst_1 (constant S_ .f32 0x00000000#32),
    StableHlo.unary main_cst_1 main_v11 (broadcastInDim S50000 ![] bcast_S_S50000 : (⟨S_, .f32⟩ : BufTy).Contents (Elt F) → (⟨S50000, .f32⟩ : BufTy).Contents (Elt F)),
    StableHlo.binary main_v10 main_v11 main_v12 (cmpf .ogt : (⟨S50000, .f32⟩ : BufTy).Contents (Elt F) → (⟨S50000, .f32⟩ : BufTy).Contents (Elt F) → (⟨S50000, .i1⟩ : BufTy).Contents (Elt F)),
    StableHlo.unary main_v10 main_v13 (Host.rsqrt : (⟨S50000, .f32⟩ : BufTy).Contents (Elt F) → (⟨S50000, .f32⟩ : BufTy).Contents (Elt F)),
    StableHlo.nullary main_cst_2 (constant S_ .f32 0x00000000#32) ]
theorem hostOps0_split : (hostOps0 : List (HloOp τ sig (Elt F))) = edgeOps ++ degreeOps := rfl
end

/-- The buffer contents after the first seven operations. -/
def afterEdges : Valuation τ sig (Elt Ideal) := StableHlo.after edgeOps (W0 m ρ c)

/-- The contents on entry to the first kernel, as the later operations folded over the contents after the first seven. -/
theorem entry0_fold : W3 m ρ c = StableHlo.after hostOps0_2 (StableHlo.after Plain.whereOps (StableHlo.after degreeOps (afterEdges m ρ c))) := by
  show StableHlo.after hostOps0_2 (StableHlo.after hostOps0_1 (StableHlo.after hostOps0 (W0 m ρ c))) = _
  rw [hostOps0_split, HostFold.after_append, Plain.whereOps_eq]
  rfl

/-- After the first seven operations: src. -/
theorem edges_src : afterEdges m ρ c (Proc.devRef .tc main_v3) = val_main_v3 (F := Ideal) (m ((c.tc : Thread nD τ).loc main_arg1)) := by
  show StableHlo.after edgeOps (W0 m ρ c) (Proc.devRef .tc main_v3) = _
  after_results_simp <;> rfl

/-- After the first seven operations: dst. -/
theorem edges_dst : afterEdges m ρ c (Proc.devRef .tc main_v6) = val_main_v6 (F := Ideal) (m ((c.tc : Thread nD τ).loc main_arg1)) := by
  show StableHlo.after edgeOps (W0 m ρ c) (Proc.devRef .tc main_v6) = _
  after_results_simp <;> rfl

/-- They leave arg0 as launched. -/
theorem edges_arg0 : afterEdges m ρ c (Proc.devRef .tc main_arg0) = (m ((c.tc : Thread nD τ).loc main_arg0)) := by
  show StableHlo.after edgeOps (W0 m ρ c) (Proc.devRef .tc main_arg0) = _
  after_results_simp <;> rfl

/-- They leave arg2 as launched. -/
theorem edges_arg2 : afterEdges m ρ c (Proc.devRef .tc main_arg2) = (m ((c.tc : Thread nD τ).loc main_arg2)) := by
  show StableHlo.after edgeOps (W0 m ρ c) (Proc.devRef .tc main_arg2) = _
  after_results_simp <;> rfl

/-- They leave arg3 as launched. -/
theorem edges_arg3 : afterEdges m ρ c (Proc.devRef .tc main_arg3) = (m ((c.tc : Thread nD τ).loc main_arg3)) := by
  show StableHlo.after edgeOps (W0 m ρ c) (Proc.devRef .tc main_arg3) = _
  after_results_simp <;> rfl

/-- They leave arg4 as launched. -/
theorem edges_arg4 : afterEdges m ρ c (Proc.devRef .tc main_arg4) = (m ((c.tc : Thread nD τ).loc main_arg4)) := by
  show StableHlo.after edgeOps (W0 m ρ c) (Proc.devRef .tc main_arg4) = _
  after_results_simp <;> rfl

/-- They leave arg5 as launched. -/
theorem edges_arg5 : afterEdges m ρ c (Proc.devRef .tc main_arg5) = (m ((c.tc : Thread nD τ).loc main_arg5)) := by
  show StableHlo.after edgeOps (W0 m ρ c) (Proc.devRef .tc main_arg5) = _
  after_results_simp <;> rfl

/-- They leave arg6 as launched. -/
theorem edges_arg6 : afterEdges m ρ c (Proc.devRef .tc main_arg6) = (m ((c.tc : Thread nD τ).loc main_arg6)) := by
  show StableHlo.after edgeOps (W0 m ρ c) (Proc.devRef .tc main_arg6) = _
  after_results_simp <;> rfl

/-- They leave arg7 as launched. -/
theorem edges_arg7 : afterEdges m ρ c (Proc.devRef .tc main_arg7) = (m ((c.tc : Thread nD τ).loc main_arg7)) := by
  show StableHlo.after edgeOps (W0 m ρ c) (Proc.devRef .tc main_arg7) = _
  after_results_simp <;> rfl

/-- On entry to the first kernel: src, untouched by the later operations. -/
theorem entry0_src : W3 m ρ c (Proc.devRef .tc main_v3) = val_main_v3 (F := Ideal) (m ((c.tc : Thread nD τ).loc main_arg1)) := by
  rw [entry0_fold]
  after_results_simp
  exact edges_src m ρ c

/-- On entry to the first kernel: dst, untouched by the later operations. -/
theorem entry0_dst : W3 m ρ c (Proc.devRef .tc main_v6) = val_main_v6 (F := Ideal) (m ((c.tc : Thread nD τ).loc main_arg1)) := by
  rw [entry0_fold]
  after_results_simp
  exact edges_dst m ρ c

/-- On entry to the first kernel: arg3, untouched by the later operations. -/
theorem entry0_arg3 : W3 m ρ c (Proc.devRef .tc main_arg3) = (m ((c.tc : Thread nD τ).loc main_arg3)) := by
  rw [entry0_fold]
  after_results_simp
  exact edges_arg3 m ρ c

/-- On entry to the first kernel: arg4, untouched by the later operations. -/
theorem entry0_arg4 : W3 m ρ c (Proc.devRef .tc main_arg4) = (m ((c.tc : Thread nD τ).loc main_arg4)) := by
  rw [entry0_fold]
  after_results_simp
  exact edges_arg4 m ρ c

/-- On entry to the first kernel: arg5, untouched by the later operations. -/
theorem entry0_arg5 : W3 m ρ c (Proc.devRef .tc main_arg5) = (m ((c.tc : Thread nD τ).loc main_arg5)) := by
  rw [entry0_fold]
  after_results_simp
  exact edges_arg5 m ρ c

/-- On entry to the first kernel: arg6, untouched by the later operations. -/
theorem entry0_arg6 : W3 m ρ c (Proc.devRef .tc main_arg6) = (m ((c.tc : Thread nD τ).loc main_arg6)) := by
  rw [entry0_fold]
  after_results_simp
  exact edges_arg6 m ρ c

/-- On entry to the first kernel: arg7, untouched by the later operations. -/
theorem entry0_arg7 : W3 m ρ c (Proc.devRef .tc main_arg7) = (m ((c.tc : Thread nD τ).loc main_arg7)) := by
  rw [entry0_fold]
  after_results_simp
  exact edges_arg7 m ρ c

/-- The node features in the narrower format: the node features. -/
theorem entry0_lhs : W3 m ρ c (Proc.devRef .tc main_v30) = (m ((c.tc : Thread nD τ).loc main_arg0)) := by
  rw [entry0_fold]
  after_results_simp
  rw [edges_arg0 m ρ c]
  rfl

/-- The first weight matrix in the narrower format: the matrix. -/
theorem entry0_rhs : W3 m ρ c (Proc.devRef .tc main_v31) = (m ((c.tc : Thread nD τ).loc main_arg2)) := by
  rw [entry0_fold]
  after_results_simp
  rw [edges_arg2 m ρ c]
  rfl

end Cert.KernelIdeal.Chain

end
-- ==== Proof.ChainWeight.lean ====
/-
  The edge weights on entry to the first kernel: w(e) = d(src e)^(-1/2) · d(dst e)^(-1/2), with d(v)^(-1/2) read as 0 where
  d(v) = 0, the in-degree d counted with the self-loops — the reference's stage of the same name of the edge list.
-/
import proofs.«178061_j57535381897260_1_alg».proof.Proof.ChainPrep

set_option maxRecDepth 16384

noncomputable section

namespace Cert.KernelIdeal.Chain

open Cert.KernelIdeal Cert.KernelIdeal.Gen Idealize.ShloMosaic Idealize.ShloMosaic.TcCoe Idealize.SL.Sem
open Cert.ReferenceIdeal.ReadP

variable (m : (ℓ : Loc nD τ sig) → Buf (Elt Ideal) ℓ) (ρ : Dev nD → PrngReg) (c : Dev nD)

/-- The edge weights. -/
theorem entry0_weight : W3 m ρ c (Proc.devRef .tc main_v29) = val_main_v29 (F := Ideal) (m ((c.tc : Thread nD τ).loc main_arg1)) := by
  rw [entry0_fold]
  after_results_simp
  rw [edges_src m ρ c, edges_dst m ρ c]
  rfl

end Cert.KernelIdeal.Chain

end
-- ==== Proof.LibRowOps.lean ====
/-
  Matrices read at an entry, for any extents: a column [a, 1] laid along every column of [a, b] (a kernel's broadcast);
  a vector [a] stood up as a column [a, 1]; and the product of an [M, K] matrix by a [K, N] matrix, as a kernel computes
  it into a zero accumulator and as a host program computes it, read at entry (a, b) as the sum over the contracted
  coordinate of the products of the entries. The products are stated for any dimension record that is the plain one
  (left operand contracted on its columns, right operand on its rows, no batch axis).
-/
import Idealize.ShloMosaic.Lib.Pipeline.Value
import Idealize.ShloMosaic.Lib.ValueIdx
import Idealize.ShloMosaic.Lib.StackMember
import Idealize.ShloMosaic.Lib.KernelVsHost
import Idealize.ShloMosaic.PureOps.Ideal.Laws

noncomputable section

open scoped BigOperators

namespace RowOps

open Idealize.ShloMosaic Idealize.ShloMosaic.ValueIdx

variable {α : Type}

/-- A column [a, 1] laid along every column of [a, b]: entry (p, q) is entry (p, 0). -/
theorem col_to_apply {a b : Nat} (h : (⟨2, ![a, 1]⟩ : Shape).Broadcasts ⟨2, ![a, b]⟩)
    (v : (⟨2, ![a, 1]⟩ : Shape).Idx → α) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A vector [a] stood up as a column [a, 1]: entry (p, 0) is entry p. -/
theorem vec_col_apply {a : Nat} (h : (⟨1, ![a]⟩ : Shape).BroadcastsInDim ⟨2, ![a, 1]⟩ (![0] : Fin 1 → Fin 2))
    (v : (⟨1, ![a]⟩ : Shape).Idx → α) (p : Fin a) (z : Fin 1) :
    broadcastInDim ⟨2, ![a, 1]⟩ ![0] h v (ix2 p z) = v (ix1 p) :=
  broadcastInDim_apply _ h v (ix2 p z) (ix1 p) (fun ax => match ax with
    | ⟨0, _⟩ => by
      show p.val = if a = 1 then 0 else p.val
      split
      · have := p.isLt; omega
      · rfl)

/-- The host's product of an [M, K] by a [K, N] matrix at entry (a, b): the sum over c of A(a, c) · B(c, b). -/
theorem dotGeneral_apply {M K N : Nat} {φ₁ φ₂ : FTy} (D : DotDims ⟨2, ![M, K]⟩ ⟨2, ![K, N]⟩ ⟨2, ![M, N]⟩)
    (hD : D = DotDims.plain M K N) (prec : Option ContractPrecision)
    (A : FVec Ideal ⟨2, ![M, K]⟩ φ₁) (B : FVec Ideal ⟨2, ![K, N]⟩ φ₂) (a : Fin M) (b : Fin N) :
    Host.dotGeneral D prec A B (ix2 a b) = ∑ c : Fin K, A (ix2 a c) * B (ix2 c b) := by
  subst hD
  exact StackMember.dotGeneral_plain_apply prec A B a b

/-- A kernel's product into a zero accumulator at entry (a, b): the same sum. -/
theorem matmul_apply {M K N : Nat} {φ₁ φ₂ : FTy} (D : DotDims ⟨2, ![M, K]⟩ ⟨2, ![K, N]⟩ ⟨2, ![M, N]⟩)
    (hD : D = DotDims.plain M K N) (prec : Option ContractPrecision)
    (A : FVec Ideal ⟨2, ![M, K]⟩ φ₁) (B : FVec Ideal ⟨2, ![K, N]⟩ φ₂) (a : Fin M) (b : Fin N) :
    matmul D prec A B (constant ⟨2, ![M, N]⟩ .f32 0x00000000#32) (ix2 a b) = ∑ c : Fin K, A (ix2 a c) * B (ix2 c b) := by
  rw [matmul_zero_eq_dotGeneral]
  exact dotGeneral_apply D hD prec A B a b

end RowOps

end
-- ==== Proof.BlockRows.lean ====
/-
  A block of rows of a matrix product.

  Let A be an [M, K] matrix and B a [K, N] matrix of extended reals. Take m rows of A, row p of the block being
  row `row p` of A, and all of B. The product of the block by B, accumulated into zero, has at entry (p, q) the sum
  over the contracted coordinate k of A(row p, k) · B(k, q) — which is entry (row p, q) of the whole product A · B.
  Only the shape of the two sums is used: no entry need be finite, and the float formats the entries are
  stored in play no part (every format's values are the extended reals).
-/
import proofs.«178061_j57535381897260_1_alg».proof.Proof.LibRowOps

noncomputable section

open scoped BigOperators

namespace BlockRows

open Idealize.ShloMosaic Idealize.ShloMosaic.ValueIdx

/-- The kernel's product of a row block by the right factor, at entry (p, q) of the block, is the host's whole
    product at entry (row p, q): both are the sum over k of A(row p, k) · B(k, q). -/
theorem matmul_block_eq {M K N m : Nat} {φ₁ φ₂ ψ₁ ψ₂ : FTy}
    (Dk : DotDims ⟨2, ![m, K]⟩ ⟨2, ![K, N]⟩ ⟨2, ![m, N]⟩) (hDk : Dk = DotDims.plain m K N)
    (Dh : DotDims ⟨2, ![M, K]⟩ ⟨2, ![K, N]⟩ ⟨2, ![M, N]⟩) (hDh : Dh = DotDims.plain M K N)
    (A : FVec Ideal ⟨2, ![M, K]⟩ φ₁) (B : FVec Ideal ⟨2, ![K, N]⟩ φ₂)
    (Ab : FVec Ideal ⟨2, ![m, K]⟩ ψ₁) (Bb : FVec Ideal ⟨2, ![K, N]⟩ ψ₂)
    (row : Fin m → Fin M)
    (hA : ∀ (p : Fin m) (k : Fin K), (Ab (ix2 p k) : EReal) = A (ix2 (row p) k))
    (hB : ∀ (k : Fin K) (q : Fin N), (Bb (ix2 k q) : EReal) = B (ix2 k q))
    (p : Fin m) (q : Fin N) :
    matmul Dk none Ab Bb (constant ⟨2, ![m, N]⟩ .f32 0x00000000#32) (ix2 p q)
      = Host.dotGeneral Dh none A B (ix2 (row p) q) := by
  rw [RowOps.matmul_apply Dk hDk none Ab Bb p q, RowOps.dotGeneral_apply Dh hDh none A B (row p) q]
  exact Finset.sum_congr rfl fun k _ => by rw [hA p k, hB k q]

end BlockRows

end
-- ==== Proof.Region0.lean ====
/-
  Matrix-product kernel 0: what its ten grid points leave in the output array.

  Grid point t stages rows 5000·t … 5000·t + 4999 of the left factor (an [50000, 500] array) and the whole right factor
  (a [500, 128] array), multiplies the two blocks into a zero accumulator, and writes the [5000, 128] result back as
  rows 5000·t … 5000·t + 4999 of the output. Entry (p, q) of that block is the sum over k of A(5000·t + p, k) · B(k, q),
  which is entry (5000·t + p, q) of the whole product A · B; so each point writes its block of ONE array, the product.
  The ten row blocks tile the 50000 rows (row r lies in block r / 5000), hence after the last point the output array
  IS the product of the two arrays the kernel found on entry.
-/
import proofs.«178061_j57535381897260_1_alg».proof.Proof.Gen.KernelIdeal.Frame
import proofs.«178061_j57535381897260_1_alg».proof.Proof.BlockRows
import Idealize.ShloMosaic.Lib.Pipeline.Value

set_option maxRecDepth 16384

noncomputable section

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat)

-- the buffer contents on entry to the kernel: a parameter
variable (V : (c : Dev nD) → (b : Ref sig .tc) → Buf (Elt Ideal) ((c : Thread nD τ).loc b))

theorem zero_offsets : (![0, 0] : Fin 2 → Nat) = fun _ => 0 := funext fun a => by fin_cases a <;> rfl

/-- The block index maps over the grid: the left factor's and the output's row-block index is the grid point, every
    column-block index is zero, the right factor is one block; and there are ten points. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 ∧ t.val < 10 :=
  (by decide +kernel : ∀ t : Fin grid0.N, _)

/-- Row p of grid point t's block is row 5000·t + p of the array. -/
def row (t : Fin cfg0.N) (p : Fin 5000) : Fin 50000 :=
  ⟨t.val * 5000 + p.val, by have := (block_indices t).2.2.2.2.2.2; have := p.isLt; omega⟩

/-- The body's stored value is the product of its two loaded blocks into a zero accumulator (its casts are to the
    blocks' own shapes and do nothing). -/
theorem payload_eq (x0 : FVec Ideal S5000x500 .bf16) (x1 : FVec Ideal S500x128 .bf16) :
    k0_pay1 x0 x1 = matmul (F := Ideal) (φ₁ := .bf16) (φ₂ := .bf16) dot_S5000x500_S500x128_S5000x128_1_0_0_1_n_n none x0 x1 (constant (F := Ideal) S5000x128 .f32 0x00000000#32) := by
  unfold k0_pay1
  simp only [shapeCast_self]

/-- The stored value at entry (p, q), over any blocks whose rows are rows `ρ p` of A and whose right factor is B:
    entry (ρ p, q) of the product A · B. -/
theorem payload_entry (D : DotDims S50000x500 S500x128 S50000x128) (hD : D = DotDims.plain 50000 500 128)
    (A : FVec Ideal S50000x500 .f32) (B : FVec Ideal S500x128 .f32)
    (x0 : FVec Ideal S5000x500 .bf16) (x1 : FVec Ideal S500x128 .bf16) (ρ : Fin 5000 → Fin 50000)
    (hA : ∀ (p : Fin 5000) (k : Fin 500), (x0 (ix2 p k) : EReal) = A (ix2 (ρ p) k))
    (hB : ∀ (k : Fin 500) (q : Fin 128), (x1 (ix2 k q) : EReal) = B (ix2 k q)) (p : Fin 5000) (q : Fin 128) :
    k0_pay1 x0 x1 (ix2 p q) = Host.dotGeneral (F := Ideal) D none A B (ix2 (ρ p) q) :=
  (congrFun (payload_eq x0 x1) (ix2 p q)).trans
    (BlockRows.matmul_block_eq (φ₁ := .f32) (φ₂ := .f32) (ψ₁ := .bf16) (ψ₂ := .bf16) dot_S5000x500_S500x128_S5000x128_1_0_0_1_n_n rfl D hD A B x0 x1 ρ hA hB p q)

/-- The left factor's block at point t, at (p, k), is the array's entry (5000·t + p, k). -/
theorem lhs_block (c : Dev nD) (t : Fin cfg0.N) (p : Fin 5000) (k : Fin 500) :
    iblk0 V c 0 t (ix2 p k) = V c main_v30 (ix2 (row t p) k) := by
  obtain ⟨e0, e1, e2, e3, e4, e5, e6⟩ := block_indices t
  show V c main_v30 (((cfg0.win 0).blk t).view.emb (ix2 p k)) = V c main_v30 (ix2 (row t p) k)
  refine congrArg _ (funext fun a => Fin.ext ?_)
  match a with
  | ⟨0, _⟩ => show win0_0.index t (0 : Fin 2) * 5000 + 1 * p.val = t.val * 5000 + p.val; omega
  | ⟨1, _⟩ => show win0_0.index t (1 : Fin 2) * 500 + 1 * k.val = k.val; omega

/-- The right factor's block at any point is the whole array. -/
theorem rhs_block (c : Dev nD) (t : Fin cfg0.N) (k : Fin 500) (q : Fin 128) :
    iblk0 V c 1 t (ix2 k q) = V c main_v31 (ix2 k q) := by
  obtain ⟨e0, e1, e2, e3, e4, e5, e6⟩ := block_indices t
  show V c main_v31 (((cfg0.win 1).blk t).view.emb (ix2 k q)) = V c main_v31 (ix2 k q)
  refine congrArg _ (funext fun a => Fin.ext ?_)
  match a with
  | ⟨0, _⟩ => show win0_1.index t (0 : Fin 2) * 500 + 1 * k.val = k.val; omega
  | ⟨1, _⟩ => show win0_1.index t (1 : Fin 2) * 128 + 1 * q.val = q.val; omega

/-- The output's block at point t, at (p, q), is the array's entry (5000·t + p, q). -/
theorem out_block (t : Fin cfg0.N) (p : Fin 5000) (q : Fin 128) :
    ((cfg0.win 2).blk t).view.emb (ix2 p q) = ix2 (row t p) q := by
  obtain ⟨e0, e1, e2, e3, e4, e5, e6⟩ := block_indices t
  refine funext fun a => Fin.ext ?_
  match a with
  | ⟨0, _⟩ => show win0_2.index t (0 : Fin 2) * 5000 + 1 * p.val = t.val * 5000 + p.val; omega
  | ⟨1, _⟩ => show win0_2.index t (1 : Fin 2) * 128 + 1 * q.val = q.val; omega

/-- What point t writes back is its block of the product A · B, for any A and B that the two arrays the kernel
    found on entry hold, entry by entry. -/
theorem written_back (D : DotDims S50000x500 S500x128 S50000x128) (hD : D = DotDims.plain 50000 500 128) (c : Dev nD)
    (A : FVec Ideal S50000x500 .f32) (B : FVec Ideal S500x128 .f32)
    (hA : ∀ i : S50000x500.Idx, (V c main_v30 i : EReal) = A i) (hB : ∀ i : S500x128.Idx, (V c main_v31 i : EReal) = B i)
    (t : Fin cfg0.N) :
    (dat0 V c).flushed 2 t
      = ((cfg0.win 2).blk t).view.read (Elt Ideal) (Host.dotGeneral (F := Ideal) D none A B) := by
  show (cfg0.win 2).cut (grid0.coords t) ((dat0 V c).after 2 t) = _
  rw [after0_2]
  unfold out0_2
  rw [View.canon_unit_zero zero_offsets]
  simp only [View.ld_unit_zero (S := S5000x500) zero_offsets, View.ld_unit_zero (S := S500x128) zero_offsets]
  funext j
  obtain ⟨p, q, rfl⟩ : ∃ (p : Fin 5000) (q : Fin 128), j = ix2 p q := ⟨j 0, j 1, eq_ix2 j⟩
  show k0_pay1 (iblk0 V c 0 t) (iblk0 V c 1 t) (ix2 p q)
    = Host.dotGeneral (F := Ideal) D none A B (((cfg0.win 2).blk t).view.emb (ix2 p q))
  rw [out_block t p q]
  exact payload_entry D hD A B (iblk0 V c 0 t) (iblk0 V c 1 t) (row t)
    (fun p k => (lhs_block V c t p k).trans (hA _)) (fun k q => (rhs_block V c t k q).trans (hB _)) p q

/-- An index of the output array is in point t's block iff each coordinate is in the block's range on its axis. -/
theorem mem_block (t : Fin cfg0.N) (i : S50000x128.Idx) :
    i ∈ ((cfg0.win 2).blk t).view.set
      ↔ ∀ a : Fin 2, win0_2.index t a * S5000x128.size a ≤ (i a).val ∧ (i a).val < win0_2.index t a * S5000x128.size a + S5000x128.size a := by
  show i ∈ ((View.whole main_v32).slice (win0_2.rect t)).set ↔ _
  rw [View.set_slice_whole, Rect.mem_set_unit]
  exact Iff.rfl

/-- Every block index of the output's rows is some grid point's. -/
theorem point_of_block : ∀ q0 : Fin 10, ∃ t : Fin cfg0.N, win0_2.index t = ![q0.val, 0] :=
  (by decide +kernel : ∀ q0 : Fin 10, ∃ t : Fin grid0.N, win0_2.index t = ![q0.val, 0])

/-- The ten row blocks cover the array: row r is in block r / 5000. -/
theorem covered (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := point_of_block ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- THE OUTPUT ARRAY after the kernel: the product A · B of what the two arrays held on entry. -/
theorem output (D : DotDims S50000x500 S500x128 S50000x128) (hD : D = DotDims.plain 50000 500 128) (c : Dev nD)
    (A : FVec Ideal S50000x500 .f32) (B : FVec Ideal S500x128 .f32)
    (hA : ∀ i : S50000x500.Idx, (V c main_v30 i : EReal) = A i) (hB : ∀ i : S500x128.Idx, (V c main_v31 i : EReal) = B i) :
    (dat0 V c).arrAt 2 cfg0.N = Host.dotGeneral (F := Ideal) D none A B :=
  (dat0 V c).arrAt_eq_of_cover 2 (Host.dotGeneral (F := Ideal) D none A B)
    (fun t _ => written_back V D hD c A B hA hB t) covered

end Cert.KernelIdeal.Region0

end
-- ==== Proof.ChainLayer1.lean ====
/-
  From the first kernel to the second kernel's entry.

  The first kernel leaves in its output array the product of the node features by the first weight matrix (the rounding
  of both to the narrower format changes nothing on extended reals): the reference's first matrix product. The
  operations that follow — gather along the edges' sources, scale by the edge weights, add up at the destinations, add
  the bias, rectify — are the reference's own applied to equal operands; the index vectors, the edge weights and the
  later layers' arguments are written by no kernel and none of these operations, and are carried along.
-/
import proofs.«178061_j57535381897260_1_alg».proof.Proof.ChainPrep
import proofs.«178061_j57535381897260_1_alg».proof.Proof.ChainWeight
import proofs.«178061_j57535381897260_1_alg».proof.Proof.Region0

set_option maxRecDepth 16384

noncomputable section

namespace Cert.KernelIdeal.Chain

open Cert.KernelIdeal Cert.KernelIdeal.Gen Idealize.ShloMosaic Idealize.ShloMosaic.TcCoe Idealize.SL.Sem
open Cert.ReferenceIdeal.ReadP

variable (m : (ℓ : Loc nD τ sig) → Buf (Elt Ideal) ℓ) (ρ : Dev nD → PrngReg) (c : Dev nD)

/-- Rounding to the narrower float format does nothing to an array of extended reals. -/
theorem round_id {s : Shape} (x : FVec Ideal s .f32) (h : FTy.bf16.bits < FTy.f32.bits) :
    (truncf (F := Ideal) .bf16 x h : s.Idx → EReal) = x := rfl

/-- The contents on entry to the second kernel: the operations after the first kernel folded over its exit contents. -/
theorem entry1_fold : W7 m ρ c = StableHlo.after hostOps1_2 (StableHlo.after Plain.relu1Ops (StableHlo.after hostOps1 (W4 m ρ c))) := by
  show StableHlo.after hostOps1_2 (StableHlo.after hostOps1_1 (StableHlo.after hostOps1 (W4 m ρ c))) = _
  rw [Plain.relu1Ops_eq]

/-- Kernel 0 writes only its output: src is as on entry. -/
theorem exit0_src : W4 m ρ c (Proc.devRef .tc main_v3) = val_main_v3 (F := Ideal) (m ((c.tc : Thread nD τ).loc main_arg1)) :=
  (W4_of_ne m ρ c main_v3 (by decide)).trans (entry0_src m ρ c)

/-- Kernel 0 writes only its output: dst is as on entry. -/
theorem exit0_dst : W4 m ρ c (Proc.devRef .tc main_v6) = val_main_v6 (F := Ideal) (m ((c.tc : Thread nD τ).loc main_arg1)) :=
  (W4_of_ne m ρ c main_v6 (by decide)).trans (entry0_dst m ρ c)

/-- Kernel 0 writes only its output: weight is as on entry. -/
theorem exit0_weight : W4 m ρ c (Proc.devRef .tc main_v29) = val_main_v29 (F := Ideal) (m ((c.tc : Thread nD τ).loc main_arg1)) :=
  (W4_of_ne m ρ c main_v29 (by decide)).trans (entry0_weight m ρ c)

/-- Kernel 0 writes only its output: arg3 is as on entry. -/
theorem exit0_arg3 : W4 m ρ c (Proc.devRef .tc main_arg3) = (m ((c.tc : Thread nD τ).loc main_arg3)) :=
  (W4_of_ne m ρ c main_arg3 (by decide)).trans (entry0_arg3 m ρ c)

/-- Kernel 0 writes only its output: arg4 is as on entry. -/
theorem exit0_arg4 : W4 m ρ c (Proc.devRef .tc main_arg4) = (m ((c.tc : Thread nD τ).loc main_arg4)) :=
  (W4_of_ne m ρ c main_arg4 (by decide)).trans (entry0_arg4 m ρ c)

/-- Kernel 0 writes only its output: arg5 is as on entry. -/
theorem exit0_arg5 : W4 m ρ c (Proc.devRef .tc main_arg5) = (m ((c.tc : Thread nD τ).loc main_arg5)) :=
  (W4_of_ne m ρ c main_arg5 (by decide)).trans (entry0_arg5 m ρ c)

/-- Kernel 0 writes only its output: arg6 is as on entry. -/
theorem exit0_arg6 : W4 m ρ c (Proc.devRef .tc main_arg6) = (m ((c.tc : Thread nD τ).loc main_arg6)) :=
  (W4_of_ne m ρ c main_arg6 (by decide)).trans (entry0_arg6 m ρ c)

/-- Kernel 0 writes only its output: arg7 is as on entry. -/
theorem exit0_arg7 : W4 m ρ c (Proc.devRef .tc main_arg7) = (m ((c.tc : Thread nD τ).loc main_arg7)) :=
  (W4_of_ne m ρ c main_arg7 (by decide)).trans (entry0_arg7 m ρ c)

/-- Kernel 0's output: the first matrix product. -/
theorem exit0_prod : W4 m ρ c (Proc.devRef .tc main_v32) = val_main_v30 (F := Ideal) (m ((c.tc : Thread nD τ).loc main_arg0)) (m ((c.tc : Thread nD τ).loc main_arg2)) := by
  refine (W4_arr m ρ c 2).trans ?_
  exact Region0.output (V3 m ρ) Cert.ReferenceIdeal.dot_S50000x500_S500x128_S50000x128_1_0_0_1_n_n rfl c (m ((c.tc : Thread nD τ).loc main_arg0)) (m ((c.tc : Thread nD τ).loc main_arg2))
    (fun i => congrFun (entry0_lhs m ρ c) i) (fun i => congrFun (entry0_rhs m ρ c) i)

/-- Carried to kernel 1's entry: src. -/
theorem entry1_src : W7 m ρ c (Proc.devRef .tc main_v3) = val_main_v3 (F := Ideal) (m ((c.tc : Thread nD τ).loc main_arg1)) := by
  rw [entry1_fold]
  after_results_simp
  exact exit0_src m ρ c

/-- Carried to kernel 1's entry: dst. -/
theorem entry1_dst : W7 m ρ c (Proc.devRef .tc main_v6) = val_main_v6 (F := Ideal) (m ((c.tc : Thread nD τ).loc main_arg1)) := by
  rw [entry1_fold]
  after_results_simp
  exact exit0_dst m ρ c

/-- Carried to kernel 1's entry: weight. -/
theorem entry1_weight : W7 m ρ c (Proc.devRef .tc main_v29) = val_main_v29 (F := Ideal) (m ((c.tc : Thread nD τ).loc main_arg1)) := by
  rw [entry1_fold]
  after_results_simp
  exact exit0_weight m ρ c

/-- Carried to kernel 1's entry: arg5. -/
theorem entry1_arg5 : W7 m ρ c (Proc.devRef .tc main_arg5) = (m ((c.tc : Thread nD τ).loc main_arg5)) := by
  rw [entry1_fold]
  after_results_simp
  exact exit0_arg5 m ρ c

/-- Carried to kernel 1's entry: arg6. -/
theorem entry1_arg6 : W7 m ρ c (Proc.devRef .tc main_arg6) = (m ((c.tc : Thread nD τ).loc main_arg6)) := by
  rw [entry1_fold]
  after_results_simp
  exact exit0_arg6 m ρ c

/-- Carried to kernel 1's entry: arg7. -/
theorem entry1_arg7 : W7 m ρ c (Proc.devRef .tc main_arg7) = (m ((c.tc : Thread nD τ).loc main_arg7)) := by
  rw [entry1_fold]
  after_results_simp
  exact exit0_arg7 m ρ c

/-- Kernel 1's left factor: the first layer's output, rectified. -/
theorem entry1_lhs : W7 m ρ c (Proc.devRef .tc main_v50) = val_main_v47 (F := Ideal) (m ((c.tc : Thread nD τ).loc main_arg0)) (m ((c.tc : Thread nD τ).loc main_arg1)) (m ((c.tc : Thread nD τ).loc main_arg2)) (m ((c.tc : Thread nD τ).loc main_arg3)) := by
  rw [entry1_fold]
  after_results_simp
  rw [exit0_prod m ρ c, exit0_src m ρ c, exit0_weight m ρ c, exit0_dst m ρ c, exit0_arg3 m ρ c]
  rw [round_id]
  rfl

/-- Kernel 1's right factor: the second weight matrix. -/
theorem entry1_rhs : W7 m ρ c (Proc.devRef .tc main_v51) = (m ((c.tc : Thread nD τ).loc main_arg4)) := by
  rw [entry1_fold]
  after_results_simp
  rw [exit0_arg4 m ρ c]
  rfl

end Cert.KernelIdeal.Chain

end
-- ==== Proof.Region1.lean ====
/-
  Matrix-product kernel 1: what its ten grid points leave in the output array.

  Grid point t stages rows 5000·t … 5000·t + 4999 of the left factor (an [50000, 128] array) and the whole right factor
  (a [128, 128] array), multiplies the two blocks into a zero accumulator, and writes the [5000, 128] result back as
  rows 5000·t … 5000·t + 4999 of the output. Entry (p, q) of that block is the sum over k of A(5000·t + p, k) · B(k, q),
  which is entry (5000·t + p, q) of the whole product A · B; so each point writes its block of ONE array, the product.
  The ten row blocks tile the 50000 rows (row r lies in block r / 5000), hence after the last point the output array
  IS the product of the two arrays the kernel found on entry.
-/
import proofs.«178061_j57535381897260_1_alg».proof.Proof.Gen.KernelIdeal.Frame
import proofs.«178061_j57535381897260_1_alg».proof.Proof.BlockRows
import Idealize.ShloMosaic.Lib.Pipeline.Value

set_option maxRecDepth 16384

noncomputable section

namespace Cert.KernelIdeal.Region1

open Cert.KernelIdeal Cert.KernelIdeal.Gen Idealize.ShloMosaic Idealize.ShloMosaic.TcCoe Idealize.SL.Sem
open Idealize.ShloMosaic.ValueIdx
open Idealize.ShloMosaic.Pipeline (Dat)

-- the buffer contents on entry to the kernel: a parameter
variable (V : (c : Dev nD) → (b : Ref sig .tc) → Buf (Elt Ideal) ((c : Thread nD τ).loc b))

theorem zero_offsets : (![0, 0] : Fin 2 → Nat) = fun _ => 0 := funext fun a => by fin_cases a <;> rfl

/-- The block index maps over the grid: the left factor's and the output's row-block index is the grid point, every
    column-block index is zero, the right factor is one block; and there are ten points. -/
theorem block_indices : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 ∧ t.val < 10 :=
  (by decide +kernel : ∀ t : Fin grid1.N, _)

/-- Row p of grid point t's block is row 5000·t + p of the array. -/
def row (t : Fin cfg1.N) (p : Fin 5000) : Fin 50000 :=
  ⟨t.val * 5000 + p.val, by have := (block_indices t).2.2.2.2.2.2; have := p.isLt; omega⟩

/-- The body's stored value is the product of its two loaded blocks into a zero accumulator (its casts are to the
    blocks' own shapes and do nothing). -/
theorem payload_eq (x0 : FVec Ideal S5000x128 .bf16) (x1 : FVec Ideal S128x128 .bf16) :
    k1_pay1 x0 x1 = matmul (F := Ideal) (φ₁ := .bf16) (φ₂ := .bf16) dot_S5000x128_S128x128_S5000x128_1_0_0_1_n_n none x0 x1 (constant (F := Ideal) S5000x128 .f32 0x00000000#32) := by
  unfold k1_pay1
  simp only [shapeCast_self]

/-- The stored value at entry (p, q), over any blocks whose rows are rows `ρ p` of A and whose right factor is B:
    entry (ρ p, q) of the product A · B. -/
theorem payload_entry (D : DotDims S50000x128 S128x128 S50000x128) (hD : D = DotDims.plain 50000 128 128)
    (A : FVec Ideal S50000x128 .f32) (B : FVec Ideal S128x128 .f32)
    (x0 : FVec Ideal S5000x128 .bf16) (x1 : FVec Ideal S128x128 .bf16) (ρ : Fin 5000 → Fin 50000)
    (hA : ∀ (p : Fin 5000) (k : Fin 128), (x0 (ix2 p k) : EReal) = A (ix2 (ρ p) k))
    (hB : ∀ (k : Fin 128) (q : Fin 128), (x1 (ix2 k q) : EReal) = B (ix2 k q)) (p : Fin 5000) (q : Fin 128) :
    k1_pay1 x0 x1 (ix2 p q) = Host.dotGeneral (F := Ideal) D none A B (ix2 (ρ p) q) :=
  (congrFun (payload_eq x0 x1) (ix2 p q)).trans
    (BlockRows.matmul_block_eq (φ₁ := .f32) (φ₂ := .f32) (ψ₁ := .bf16) (ψ₂ := .bf16) dot_S5000x128_S128x128_S5000x128_1_0_0_1_n_n rfl D hD A B x0 x1 ρ hA hB p q)

/-- The left factor's block at point t, at (p, k), is the array's entry (5000·t + p, k). -/
theorem lhs_block (c : Dev nD) (t : Fin cfg1.N) (p : Fin 5000) (k : Fin 128) :
    iblk1 V c 0 t (ix2 p k) = V c main_v50 (ix2 (row t p) k) := by
  obtain ⟨e0, e1, e2, e3, e4, e5, e6⟩ := block_indices t
  show V c main_v50 (((cfg1.win 0).blk t).view.emb (ix2 p k)) = V c main_v50 (ix2 (row t p) k)
  refine congrArg _ (funext fun a => Fin.ext ?_)
  match a with
  | ⟨0, _⟩ => show win1_0.index t (0 : Fin 2) * 5000 + 1 * p.val = t.val * 5000 + p.val; omega
  | ⟨1, _⟩ => show win1_0.index t (1 : Fin 2) * 128 + 1 * k.val = k.val; omega

/-- The right factor's block at any point is the whole array. -/
theorem rhs_block (c : Dev nD) (t : Fin cfg1.N) (k : Fin 128) (q : Fin 128) :
    iblk1 V c 1 t (ix2 k q) = V c main_v51 (ix2 k q) := by
  obtain ⟨e0, e1, e2, e3, e4, e5, e6⟩ := block_indices t
  show V c main_v51 (((cfg1.win 1).blk t).view.emb (ix2 k q)) = V c main_v51 (ix2 k q)
  refine congrArg _ (funext fun a => Fin.ext ?_)
  match a with
  | ⟨0, _⟩ => show win1_1.index t (0 : Fin 2) * 128 + 1 * k.val = k.val; omega
  | ⟨1, _⟩ => show win1_1.index t (1 : Fin 2) * 128 + 1 * q.val = q.val; omega

/-- The output's block at point t, at (p, q), is the array's entry (5000·t + p, q). -/
theorem out_block (t : Fin cfg1.N) (p : Fin 5000) (q : Fin 128) :
    ((cfg1.win 2).blk t).view.emb (ix2 p q) = ix2 (row t p) q := by
  obtain ⟨e0, e1, e2, e3, e4, e5, e6⟩ := block_indices t
  refine funext fun a => Fin.ext ?_
  match a with
  | ⟨0, _⟩ => show win1_2.index t (0 : Fin 2) * 5000 + 1 * p.val = t.val * 5000 + p.val; omega
  | ⟨1, _⟩ => show win1_2.index t (1 : Fin 2) * 128 + 1 * q.val = q.val; omega

/-- What point t writes back is its block of the product A · B, for any A and B that the two arrays the kernel
    found on entry hold, entry by entry. -/
theorem written_back (D : DotDims S50000x128 S128x128 S50000x128) (hD : D = DotDims.plain 50000 128 128) (c : Dev nD)
    (A : FVec Ideal S50000x128 .f32) (B : FVec Ideal S128x128 .f32)
    (hA : ∀ i : S50000x128.Idx, (V c main_v50 i : EReal) = A i) (hB : ∀ i : S128x128.Idx, (V c main_v51 i : EReal) = B i)
    (t : Fin cfg1.N) :
    (dat1 V c).flushed 2 t
      = ((cfg1.win 2).blk t).view.read (Elt Ideal) (Host.dotGeneral (F := Ideal) D none A B) := by
  show (cfg1.win 2).cut (grid1.coords t) ((dat1 V c).after 2 t) = _
  rw [after1_2]
  unfold out1_2
  rw [View.canon_unit_zero zero_offsets]
  simp only [View.ld_unit_zero (S := S5000x128) zero_offsets, View.ld_unit_zero (S := S128x128) zero_offsets]
  funext j
  obtain ⟨p, q, rfl⟩ : ∃ (p : Fin 5000) (q : Fin 128), j = ix2 p q := ⟨j 0, j 1, eq_ix2 j⟩
  show k1_pay1 (iblk1 V c 0 t) (iblk1 V c 1 t) (ix2 p q)
    = Host.dotGeneral (F := Ideal) D none A B (((cfg1.win 2).blk t).view.emb (ix2 p q))
  rw [out_block t p q]
  exact payload_entry D hD A B (iblk1 V c 0 t) (iblk1 V c 1 t) (row t)
    (fun p k => (lhs_block V c t p k).trans (hA _)) (fun k q => (rhs_block V c t k q).trans (hB _)) p q

/-- An index of the output array is in point t's block iff each coordinate is in the block's range on its axis. -/
theorem mem_block (t : Fin cfg1.N) (i : S50000x128.Idx) :
    i ∈ ((cfg1.win 2).blk t).view.set
      ↔ ∀ a : Fin 2, win1_2.index t a * S5000x128.size a ≤ (i a).val ∧ (i a).val < win1_2.index t a * S5000x128.size a + S5000x128.size a := by
  show i ∈ ((View.whole main_v52).slice (win1_2.rect t)).set ↔ _
  rw [View.set_slice_whole, Rect.mem_set_unit]
  exact Iff.rfl

/-- Every block index of the output's rows is some grid point's. -/
theorem point_of_block : ∀ q0 : Fin 10, ∃ t : Fin cfg1.N, win1_2.index t = ![q0.val, 0] :=
  (by decide +kernel : ∀ q0 : Fin 10, ∃ t : Fin grid1.N, win1_2.index t = ![q0.val, 0])

/-- The ten row blocks cover the array: row r is in block r / 5000. -/
theorem covered (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  obtain ⟨t, ht⟩ := point_of_block ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_block]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- THE OUTPUT ARRAY after the kernel: the product A · B of what the two arrays held on entry. -/
theorem output (D : DotDims S50000x128 S128x128 S50000x128) (hD : D = DotDims.plain 50000 128 128) (c : Dev nD)
    (A : FVec Ideal S50000x128 .f32) (B : FVec Ideal S128x128 .f32)
    (hA : ∀ i : S50000x128.Idx, (V c main_v50 i : EReal) = A i) (hB : ∀ i : S128x128.Idx, (V c main_v51 i : EReal) = B i) :
    (dat1 V c).arrAt 2 cfg1.N = Host.dotGeneral (F := Ideal) D none A B :=
  (dat1 V c).arrAt_eq_of_cover 2 (Host.dotGeneral (F := Ideal) D none A B)
    (fun t _ => written_back V D hD c A B hA hB t) covered

end Cert.KernelIdeal.Region1

end
-- ==== Proof.ChainLayer2.lean ====
/-
  From the second kernel to the third kernel's entry: the second kernel's output is the reference's second matrix
  product (of the rectified first layer by the second weight matrix); the aggregation, bias and rectifier that follow
  are the reference's own on equal operands; the index vectors, weights and the last layer's bias are carried along.
-/
import proofs.«178061_j57535381897260_1_alg».proof.Proof.ChainLayer1
import proofs.«178061_j57535381897260_1_alg».proof.Proof.Region1

set_option maxRecDepth 16384

noncomputable section

namespace Cert.KernelIdeal.Chain

open Cert.KernelIdeal Cert.KernelIdeal.Gen Idealize.ShloMosaic Idealize.ShloMosaic.TcCoe Idealize.SL.Sem
open Cert.ReferenceIdeal.ReadP

variable (m : (ℓ : Loc nD τ sig) → Buf (Elt Ideal) ℓ) (ρ : Dev nD → PrngReg) (c : Dev nD)

/-- The contents on entry to the third kernel. -/
theorem entry2_fold : W11 m ρ c = StableHlo.after hostOps2_2 (StableHlo.after Plain.relu2Ops (StableHlo.after hostOps2 (W8 m ρ c))) := by
  show StableHlo.after hostOps2_2 (StableHlo.after hostOps2_1 (StableHlo.after hostOps2 (W8 m ρ c))) = _
  rw [Plain.relu2Ops_eq]

/-- Kernel 1 writes only its output: src is as on entry. -/
theorem exit1_src : W8 m ρ c (Proc.devRef .tc main_v3) = val_main_v3 (F := Ideal) (m ((c.tc : Thread nD τ).loc main_arg1)) :=
  (W8_of_ne m ρ c main_v3 (by decide)).trans (entry1_src m ρ c)

/-- Kernel 1 writes only its output: dst is as on entry. -/
theorem exit1_dst : W8 m ρ c (Proc.devRef .tc main_v6) = val_main_v6 (F := Ideal) (m ((c.tc : Thread nD τ).loc main_arg1)) :=
  (W8_of_ne m ρ c main_v6 (by decide)).trans (entry1_dst m ρ c)

/-- Kernel 1 writes only its output: weight is as on entry. -/
theorem exit1_weight : W8 m ρ c (Proc.devRef .tc main_v29) = val_main_v29 (F := Ideal) (m ((c.tc : Thread nD τ).loc main_arg1)) :=
  (W8_of_ne m ρ c main_v29 (by decide)).trans (entry1_weight m ρ c)

/-- Kernel 1 writes only its output: arg5 is as on entry. -/
theorem exit1_arg5 : W8 m ρ c (Proc.devRef .tc main_arg5) = (m ((c.tc : Thread nD τ).loc main_arg5)) :=
  (W8_of_ne m ρ c main_arg5 (by decide)).trans (entry1_arg5 m ρ c)

/-- Kernel 1 writes only its output: arg6 is as on entry. -/
theorem exit1_arg6 : W8 m ρ c (Proc.devRef .tc main_arg6) = (m ((c.tc : Thread nD τ).loc main_arg6)) :=
  (W8_of_ne m ρ c main_arg6 (by decide)).trans (entry1_arg6 m ρ c)

/-- Kernel 1 writes only its output: arg7 is as on entry. -/
theorem exit1_arg7 : W8 m ρ c (Proc.devRef .tc main_arg7) = (m ((c.tc : Thread nD τ).loc main_arg7)) :=
  (W8_of_ne m ρ c main_arg7 (by decide)).trans (entry1_arg7 m ρ c)

/-- Kernel 1's output: the second matrix product. -/
theorem exit1_prod : W8 m ρ c (Proc.devRef .tc main_v52) = val_main_v48 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (W8_arr m ρ c 2).trans ?_
  exact Region1.output (V7 m ρ) Cert.ReferenceIdeal.dot_S50000x128_S128x128_S50000x128_1_0_0_1_n_n rfl c (val_main_v47 (F := Ideal) (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4))
    (fun i => congrFun (entry1_lhs m ρ c) i) (fun i => congrFun (entry1_rhs m ρ c) i)

/-- Carried to kernel 2's entry: src. -/
theorem entry2_src : W11 m ρ c (Proc.devRef .tc main_v3) = val_main_v3 (F := Ideal) (m ((c.tc : Thread nD τ).loc main_arg1)) := by
  rw [entry2_fold]
  after_results_simp
  exact exit1_src m ρ c

/-- Carried to kernel 2's entry: dst. -/
theorem entry2_dst : W11 m ρ c (Proc.devRef .tc main_v6) = val_main_v6 (F := Ideal) (m ((c.tc : Thread nD τ).loc main_arg1)) := by
  rw [entry2_fold]
  after_results_simp
  exact exit1_dst m ρ c

/-- Carried to kernel 2's entry: weight. -/
theorem entry2_weight : W11 m ρ c (Proc.devRef .tc main_v29) = val_main_v29 (F := Ideal) (m ((c.tc : Thread nD τ).loc main_arg1)) := by
  rw [entry2_fold]
  after_results_simp
  exact exit1_weight m ρ c

/-- Carried to kernel 2's entry: arg7. -/
theorem entry2_arg7 : W11 m ρ c (Proc.devRef .tc main_arg7) = (m ((c.tc : Thread nD τ).loc main_arg7)) := by
  rw [entry2_fold]
  after_results_simp
  exact exit1_arg7 m ρ c

/-- Kernel 2's left factor: the second layer's output, rectified. -/
theorem entry2_lhs : W11 m ρ c (Proc.devRef .tc main_v70) = val_main_v65 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  rw [entry2_fold]
  after_results_simp
  rw [exit1_prod m ρ c, exit1_src m ρ c, exit1_weight m ρ c, exit1_dst m ρ c, exit1_arg5 m ρ c]
  rw [round_id]
  rfl

/-- Kernel 2's right factor: the third weight matrix. -/
theorem entry2_rhs : W11 m ρ c (Proc.devRef .tc main_v71) = (m ((c.tc : Thread nD τ).loc main_arg6)) := by
  rw [entry2_fold]
  after_results_simp
  rw [exit1_arg6 m ρ c]
  rfl

end Cert.KernelIdeal.Chain

end
-- ==== Proof.Region2.lean ====
/-
  Matrix-product kernel 2: what its ten grid points leave in the output array.

  Grid point t stages rows 5000·t … 5000·t + 4999 of the left factor (an [50000, 128] array) and the whole right factor
  (a [128, 40] array), multiplies the two blocks into a zero accumulator, and writes the [5000, 40] result back as
  rows 5000·t … 5000·t + 4999 of the output. Entry (p, q) of that block is the sum over k of A(5000·t + p, k) · B(k, q),
  which is entry (5000·t + p, q) of the whole product A · B; so each point writes its block of ONE array, the product.
  The ten row blocks tile the 50000 rows (row r lies in block r / 5000), hence after the last point the output array
  IS the product of the two arrays the kernel found on entry.
-/
import proofs.«178061_j57535381897260_1_alg».proof.Proof.Gen.KernelIdeal.Frame
import proofs.«178061_j57535381897260_1_alg».proof.Proof.BlockRows
import Idealize.ShloMosaic.Lib.Pipeline.Value

set_option maxRecDepth 16384

noncomputable section

namespace Cert.KernelIdeal.Region2

open Cert.KernelIdeal Cert.KernelIdeal.Gen Idealize.ShloMosaic Idealize.ShloMosaic.TcCoe Idealize.SL.Sem
open Idealize.ShloMosaic.ValueIdx
open Idealize.ShloMosaic.Pipeline (Dat)

-- the buffer contents on entry to the kernel: a parameter
variable (V : (c : Dev nD) → (b : Ref sig .tc) → Buf (Elt Ideal) ((c : Thread nD τ).loc b))

theorem zero_offsets : (![0, 0] : Fin 2 → Nat) = fun _ => 0 := funext fun a => by fin_cases a <;> rfl

/-- The block index maps over the grid: the left factor's and the output's row-block index is the grid point, every
    column-block index is zero, the right factor is one block; and there are ten points. -/
theorem block_indices : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 ∧ t.val < 10 :=
  (by decide +kernel : ∀ t : Fin grid2.N, _)

/-- Row p of grid point t's block is row 5000·t + p of the array. -/
def row (t : Fin cfg2.N) (p : Fin 5000) : Fin 50000 :=
  ⟨t.val * 5000 + p.val, by have := (block_indices t).2.2.2.2.2.2; have := p.isLt; omega⟩

/-- The body's stored value is the product of its two loaded blocks into a zero accumulator (its casts are to the
    blocks' own shapes and do nothing). -/
theorem payload_eq (x0 : FVec Ideal S5000x128 .bf16) (x1 : FVec Ideal S128x40 .bf16) :
    k2_pay1 x0 x1 = matmul (F := Ideal) (φ₁ := .bf16) (φ₂ := .bf16) dot_S5000x128_S128x40_S5000x40_1_0_0_1_n_n none x0 x1 (constant (F := Ideal) S5000x40 .f32 0x00000000#32) := by
  unfold k2_pay1
  simp only [shapeCast_self]

/-- The stored value at entry (p, q), over any blocks whose rows are rows `ρ p` of A and whose right factor is B:
    entry (ρ p, q) of the product A · B. -/
theorem payload_entry (D : DotDims S50000x128 S128x40 S50000x40) (hD : D = DotDims.plain 50000 128 40)
    (A : FVec Ideal S50000x128 .f32) (B : FVec Ideal S128x40 .f32)
    (x0 : FVec Ideal S5000x128 .bf16) (x1 : FVec Ideal S128x40 .bf16) (ρ : Fin 5000 → Fin 50000)
    (hA : ∀ (p : Fin 5000) (k : Fin 128), (x0 (ix2 p k) : EReal) = A (ix2 (ρ p) k))
    (hB : ∀ (k : Fin 128) (q : Fin 40), (x1 (ix2 k q) : EReal) = B (ix2 k q)) (p : Fin 5000) (q : Fin 40) :
    k2_pay1 x0 x1 (ix2 p q) = Host.dotGeneral (F := Ideal) D none A B (ix2 (ρ p) q) :=
  (congrFun (payload_eq x0 x1) (ix2 p q)).trans
    (BlockRows.matmul_block_eq (φ₁ := .f32) (φ₂ := .f32) (ψ₁ := .bf16) (ψ₂ := .bf16) dot_S5000x128_S128x40_S5000x40_1_0_0_1_n_n rfl D hD A B x0 x1 ρ hA hB p q)

/-- The left factor's block at point t, at (p, k), is the array's entry (5000·t + p, k). -/
theorem lhs_block (c : Dev nD) (t : Fin cfg2.N) (p : Fin 5000) (k : Fin 128) :
    iblk2 V c 0 t (ix2 p k) = V c main_v70 (ix2 (row t p) k) := by
  obtain ⟨e0, e1, e2, e3, e4, e5, e6⟩ := block_indices t
  show V c main_v70 (((cfg2.win 0).blk t).view.emb (ix2 p k)) = V c main_v70 (ix2 (row t p) k)
  refine congrArg _ (funext fun a => Fin.ext ?_)
  match a with
  | ⟨0, _⟩ => show win2_0.index t (0 : Fin 2) * 5000 + 1 * p.val = t.val * 5000 + p.val; omega
  | ⟨1, _⟩ => show win2_0.index t (1 : Fin 2) * 128 + 1 * k.val = k.val; omega

/-- The right factor's block at any point is the whole array. -/
theorem rhs_block (c : Dev nD) (t : Fin cfg2.N) (k : Fin 128) (q : Fin 40) :
    iblk2 V c 1 t (ix2 k q) = V c main_v71 (ix2 k q) := by
  obtain ⟨e0, e1, e2, e3, e4, e5, e6⟩ := block_indices t
  show V c main_v71 (((cfg2.win 1).blk t).view.emb (ix2 k q)) = V c main_v71 (ix2 k q)
  refine congrArg _ (funext fun a => Fin.ext ?_)
  match a with
  | ⟨0, _⟩ => show win2_1.index t (0 : Fin 2) * 128 + 1 * k.val = k.val; omega
  | ⟨1, _⟩ => show win2_1.index t (1 : Fin 2) * 40 + 1 * q.val = q.val; omega

/-- The output's block at point t, at (p, q), is the array's entry (5000·t + p, q). -/
theorem out_block (t : Fin cfg2.N) (p : Fin 5000) (q : Fin 40) :
    ((cfg2.win 2).blk t).view.emb (ix2 p q) = ix2 (row t p) q := by
  obtain ⟨e0, e1, e2, e3, e4, e5, e6⟩ := block_indices t
  refine funext fun a => Fin.ext ?_
  match a with
  | ⟨0, _⟩ => show win2_2.index t (0 : Fin 2) * 5000 + 1 * p.val = t.val * 5000 + p.val; omega
  | ⟨1, _⟩ => show win2_2.index t (1 : Fin 2) * 40 + 1 * q.val = q.val; omega

/-- What point t writes back is its block of the product A · B, for any A and B that the two arrays the kernel
    found on entry hold, entry by entry. -/
theorem written_back (D : DotDims S50000x128 S128x40 S50000x40) (hD : D = DotDims.plain 50000 128 40) (c : Dev nD)
    (A : FVec Ideal S50000x128 .f32) (B : FVec Ideal S128x40 .f32)
    (hA : ∀ i : S50000x128.Idx, (V c main_v70 i : EReal) = A i) (hB : ∀ i : S128x40.Idx, (V c main_v71 i : EReal) = B i)
    (t : Fin cfg2.N) :
    (dat2 V c).flushed 2 t
      = ((cfg2.win 2).blk t).view.read (Elt Ideal) (Host.dotGeneral (F := Ideal) D none A B) := by
  show (cfg2.win 2).cut (grid2.coords t) ((dat2 V c).after 2 t) = _
  rw [after2_2]
  unfold out2_2
  rw [View.canon_unit_zero zero_offsets]
  simp only [View.ld_unit_zero (S := S5000x128) zero_offsets, View.ld_unit_zero (S := S128x40) zero_offsets]
  funext j
  obtain ⟨p, q, rfl⟩ : ∃ (p : Fin 5000) (q : Fin 40), j = ix2 p q := ⟨j 0, j 1, eq_ix2 j⟩
  show k2_pay1 (iblk2 V c 0 t) (iblk2 V c 1 t) (ix2 p q)
    = Host.dotGeneral (F := Ideal) D none A B (((cfg2.win 2).blk t).view.emb (ix2 p q))
  rw [out_block t p q]
  exact payload_entry D hD A B (iblk2 V c 0 t) (iblk2 V c 1 t) (row t)
    (fun p k => (lhs_block V c t p k).trans (hA _)) (fun k q => (rhs_block V c t k q).trans (hB _)) p q

/-- An index of the output array is in point t's block iff each coordinate is in the block's range on its axis. -/
theorem mem_block (t : Fin cfg2.N) (i : S50000x40.Idx) :
    i ∈ ((cfg2.win 2).blk t).view.set
      ↔ ∀ a : Fin 2, win2_2.index t a * S5000x40.size a ≤ (i a).val ∧ (i a).val < win2_2.index t a * S5000x40.size a + S5000x40.size a := by
  show i ∈ ((View.whole main_v72).slice (win2_2.rect t)).set ↔ _
  rw [View.set_slice_whole, Rect.mem_set_unit]
  exact Iff.rfl

/-- Every block index of the output's rows is some grid point's. -/
theorem point_of_block : ∀ q0 : Fin 10, ∃ t : Fin cfg2.N, win2_2.index t = ![q0.val, 0] :=
  (by decide +kernel : ∀ q0 : Fin 10, ∃ t : Fin grid2.N, win2_2.index t = ![q0.val, 0])

/-- The ten row blocks cover the array: row r is in block r / 5000. -/
theorem covered (i : S50000x40.Idx) :
    ∃ t : Fin cfg2.N, (cfg2.win 2).flush t = true ∧ i ∈ ((cfg2.win 2).blk t).view.set := by
  have hi0 : (i 0).val < 50000 := (i 0).isLt
  have hi1 : (i 1).val < 40 := (i 1).isLt
  obtain ⟨t, ht⟩ := point_of_block ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_block]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 40 ≤ (i 1).val ∧ (i 1).val < win2_2.index t (1 : Fin 2) * 40 + 40; omega

/-- THE OUTPUT ARRAY after the kernel: the product A · B of what the two arrays held on entry. -/
theorem output (D : DotDims S50000x128 S128x40 S50000x40) (hD : D = DotDims.plain 50000 128 40) (c : Dev nD)
    (A : FVec Ideal S50000x128 .f32) (B : FVec Ideal S128x40 .f32)
    (hA : ∀ i : S50000x128.Idx, (V c main_v70 i : EReal) = A i) (hB : ∀ i : S128x40.Idx, (V c main_v71 i : EReal) = B i) :
    (dat2 V c).arrAt 2 cfg2.N = Host.dotGeneral (F := Ideal) D none A B :=
  (dat2 V c).arrAt_eq_of_cover 2 (Host.dotGeneral (F := Ideal) D none A B)
    (fun t _ => written_back V D hD c A B hA hB t) covered

end Cert.KernelIdeal.Region2

end
-- ==== Proof.ChainLayer3.lean ====
/-
  From the third kernel to the result: the third kernel's output is the reference's third matrix product; the last
  aggregation and bias, then the row-wise log-softmax, are the reference's own on equal operands.
-/
import proofs.«178061_j57535381897260_1_alg».proof.Proof.ChainLayer2
import proofs.«178061_j57535381897260_1_alg».proof.Proof.Region2

set_option maxRecDepth 16384

noncomputable section

namespace Cert.KernelIdeal.Chain

open Cert.KernelIdeal Cert.KernelIdeal.Gen Idealize.ShloMosaic Idealize.ShloMosaic.TcCoe Idealize.SL.Sem
open Cert.ReferenceIdeal.ReadP

variable (m : (ℓ : Loc nD τ sig) → Buf (Elt Ideal) ℓ) (ρ : Dev nD → PrngReg) (c : Dev nD)

/-- The buffer contents after the third layer's aggregation and bias, before the log-softmax. -/
def beforeSoftmax : Valuation τ sig (Elt Ideal) := W13 m ρ c

/-- The final contents: the log-softmax's operations folded over the contents before it. -/
theorem result_fold : W14 m ρ c = StableHlo.after Plain.softmaxOps (beforeSoftmax m ρ c) := by
  show StableHlo.after hostOps3_1 (W13 m ρ c) = _
  rw [Plain.softmaxOps_eq]
  rfl

/-- Kernel 2 writes only its output: src is as on entry. -/
theorem exit2_src : W12 m ρ c (Proc.devRef .tc main_v3) = val_main_v3 (F := Ideal) (m ((c.tc : Thread nD τ).loc main_arg1)) :=
  (W12_of_ne m ρ c main_v3 (by decide)).trans (entry2_src m ρ c)

/-- Kernel 2 writes only its output: dst is as on entry. -/
theorem exit2_dst : W12 m ρ c (Proc.devRef .tc main_v6) = val_main_v6 (F := Ideal) (m ((c.tc : Thread nD τ).loc main_arg1)) :=
  (W12_of_ne m ρ c main_v6 (by decide)).trans (entry2_dst m ρ c)

/-- Kernel 2 writes only its output: weight is as on entry. -/
theorem exit2_weight : W12 m ρ c (Proc.devRef .tc main_v29) = val_main_v29 (F := Ideal) (m ((c.tc : Thread nD τ).loc main_arg1)) :=
  (W12_of_ne m ρ c main_v29 (by decide)).trans (entry2_weight m ρ c)

/-- Kernel 2 writes only its output: arg7 is as on entry. -/
theorem exit2_arg7 : W12 m ρ c (Proc.devRef .tc main_arg7) = (m ((c.tc : Thread nD τ).loc main_arg7)) :=
  (W12_of_ne m ρ c main_arg7 (by decide)).trans (entry2_arg7 m ρ c)

/-- Kernel 2's output: the third matrix product. -/
theorem exit2_prod : W12 m ρ c (Proc.devRef .tc main_v72) = val_main_v66 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  refine (W12_arr m ρ c 2).trans ?_
  exact Region2.output (V11 m ρ) Cert.ReferenceIdeal.dot_S50000x128_S128x40_S50000x40_1_0_0_1_n_n rfl c (val_main_v65 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) (m ((c.tc : Thread nD τ).loc main_arg6))
    (fun i => congrFun (entry2_lhs m ρ c) i) (fun i => congrFun (entry2_rhs m ρ c) i)

/-- The third layer's output before the log-softmax. -/
theorem logits : beforeSoftmax m ρ c (Proc.devRef .tc main_v88) = val_main_v82 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  show StableHlo.after hostOps3 (W12 m ρ c) (Proc.devRef .tc main_v88) = _
  after_results_simp
  rw [exit2_prod m ρ c, exit2_src m ρ c, exit2_weight m ρ c, exit2_dst m ρ c, exit2_arg7 m ρ c]
  rfl

/-- THE RESULT: the reference's last stage of the same arguments. -/
theorem result : W14 m ρ c (Proc.devRef .tc main_v89) = val_main_v83 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  rw [result_fold]
  after_results_simp
  rw [logits m ρ c]
  rfl

end Cert.KernelIdeal.Chain

end
-- ==== Proof.RefRun.lean ====
/-
  The reference program's run.

  The reference program is a straight line of 121 array operations and launches no kernel: from any memory every
  execution terminates, and afterwards each buffer holds the fold of the operations' results over the launch contents.
  The line is cut here into six stretches — the edges' source and destination nodes, self-loops appended; the in-degrees, the edge weights, and the first matrix product; the first layer's aggregation, bias and rectifier, and the second matrix product; the same for the second layer, and the third matrix product; the third layer's aggregation and bias; the row-wise log-softmax — so that the contents after each stretch can be named
  and read one stretch at a time. The argument arrays are written by no operation.
-/
import proofs.«178061_j57535381897260_1_alg».proof.Proof.Gen.ReferenceIdeal
import proofs.«178061_j57535381897260_1_alg».proof.Proof.LibHostFold
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Stretch 0: the edges' source and destination nodes, self-loops appended (a called function's operations stand in its call's place). -/
abbrev edgeOps : List (HloOp τ sig (Elt F)) :=
  [ nullary main_v0 (iotaInDim S50000 32 0),
    unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    reshape main_v1 main_v2 rfl shapeCasts_S1x800000_S800000,
    binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    unary main_arg1 main_v4 ((extractStridedSlice S1x800000 ![1, 0] · slices_S2x800000_S1x800000_1_0) : (⟨S2x800000, .i32⟩ : BufTy).Contents (Elt F) → (⟨S1x800000, .i32⟩ : BufTy).Contents (Elt F)),
    reshape main_v4 main_v5 rfl shapeCasts_S1x800000_S800000,
    binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)) ]
/-- Stretch 1: the in-degrees, the edge weights, and the first matrix product (a called function's operations stand in its call's place). -/
abbrev weightOps : List (HloOp τ sig (Elt F)) :=
  [ nullary main_cst (constant S_ .f32 0x3F800000#32),
    unary main_cst main_v7 (broadcastInDim S850000 ![] bcast_S_S850000 : (⟨S_, .f32⟩ : BufTy).Contents (Elt F) → (⟨S850000, .f32⟩ : BufTy).Contents (Elt F)),
    nullary main_cst_0 (constant S_ .f32 0x00000000#32),
    unary main_cst_0 main_v8 (broadcastInDim S50000 ![] bcast_S_S50000 : (⟨S_, .f32⟩ : BufTy).Contents (Elt F) → (⟨S50000, .f32⟩ : BufTy).Contents (Elt F)),
    unary main_v6 main_v9 (broadcastInDim S850000x1 ![0] bcast_S850000_S850000x1_0 : (⟨S850000, .i32⟩ : BufTy).Contents (Elt F) → (⟨S850000x1, .i32⟩ : BufTy).Contents (Elt F)),
    ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_1 (constant S_ .f32 0x00000000#32),
    unary main_cst_1 main_v11 (broadcastInDim S50000 ![] bcast_S_S50000 : (⟨S_, .f32⟩ : BufTy).Contents (Elt F) → (⟨S50000, .f32⟩ : BufTy).Contents (Elt F)),
    binary main_v10 main_v11 main_v12 (cmpf .ogt : (⟨S50000, .f32⟩ : BufTy).Contents (Elt F) → (⟨S50000, .f32⟩ : BufTy).Contents (Elt F) → (⟨S50000, .i1⟩ : BufTy).Contents (Elt F)),
    unary main_v10 main_v13 (Host.rsqrt : (⟨S50000, .f32⟩ : BufTy).Contents (Elt F) → (⟨S50000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v12) (TRef.of (T := ⟨S50000, .f32⟩) main_v13) (TRef.of (T := ⟨S50000, .f32⟩) main_call0_v1) (TRef.of (T := ⟨S50000, .f32⟩) main_v14) select,
    nullary main_c (constantI S_ 32 0#32),
    unary main_c main_v15 (broadcastInDim S850000 ![] bcast_S_S850000 : (⟨S_, .i32⟩ : BufTy).Contents (Elt F) → (⟨S850000, .i32⟩ : BufTy).Contents (Elt F)),
    binary main_v3 main_v15 main_v16 (cmpi .slt : (⟨S850000, .i32⟩ : BufTy).Contents (Elt F) → (⟨S850000, .i32⟩ : BufTy).Contents (Elt F) → (⟨S850000, .i1⟩ : BufTy).Contents (Elt F)),
    nullary main_c_3 (constantI S_ 32 50000#32),
    unary main_c_3 main_v17 (broadcastInDim S850000 ![] bcast_S_S850000 : (⟨S_, .i32⟩ : BufTy).Contents (Elt F) → (⟨S850000, .i32⟩ : BufTy).Contents (Elt F)),
    binary main_v3 main_v17 main_v18 (addi : (⟨S850000, .i32⟩ : BufTy).Contents (Elt F) → (⟨S850000, .i32⟩ : BufTy).Contents (Elt F) → (⟨S850000, .i32⟩ : BufTy).Contents (Elt F)),
    ternary main_v16 main_v18 main_v3 main_v19 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v19 main_v20 (broadcastInDim S850000x1 ![0] bcast_S850000_S850000x1_0 : (⟨S850000, .i32⟩ : BufTy).Contents (Elt F) → (⟨S850000x1, .i32⟩ : BufTy).Contents (Elt F)),
    binary main_v14 main_v20 main_v21 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_4 (constantI S_ 32 0#32),
    unary main_c_4 main_v22 (broadcastInDim S850000 ![] bcast_S_S850000 : (⟨S_, .i32⟩ : BufTy).Contents (Elt F) → (⟨S850000, .i32⟩ : BufTy).Contents (Elt F)),
    binary main_v6 main_v22 main_v23 (cmpi .slt : (⟨S850000, .i32⟩ : BufTy).Contents (Elt F) → (⟨S850000, .i32⟩ : BufTy).Contents (Elt F) → (⟨S850000, .i1⟩ : BufTy).Contents (Elt F)),
    nullary main_c_5 (constantI S_ 32 50000#32),
    unary main_c_5 main_v24 (broadcastInDim S850000 ![] bcast_S_S850000 : (⟨S_, .i32⟩ : BufTy).Contents (Elt F) → (⟨S850000, .i32⟩ : BufTy).Contents (Elt F)),
    binary main_v6 main_v24 main_v25 (addi : (⟨S850000, .i32⟩ : BufTy).Contents (Elt F) → (⟨S850000, .i32⟩ : BufTy).Contents (Elt F) → (⟨S850000, .i32⟩ : BufTy).Contents (Elt F)),
    ternary main_v23 main_v25 main_v6 main_v26 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v26 main_v27 (broadcastInDim S850000x1 ![0] bcast_S850000_S850000x1_0 : (⟨S850000, .i32⟩ : BufTy).Contents (Elt F) → (⟨S850000x1, .i32⟩ : BufTy).Contents (Elt F)),
    binary main_v14 main_v27 main_v28 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v21 main_v28 main_v29 (mulf : (⟨S850000, .f32⟩ : BufTy).Contents (Elt F) → (⟨S850000, .f32⟩ : BufTy).Contents (Elt F) → (⟨S850000, .f32⟩ : BufTy).Contents (Elt F)),
    binary main_arg0 main_arg2 main_v30 ((fun l r => Host.dotGeneral dot_S50000x500_S500x128_S50000x128_1_0_0_1_n_n none l r) : (⟨S50000x500, .f32⟩ : BufTy).Contents (Elt F) → (⟨S500x128, .f32⟩ : BufTy).Contents (Elt F) → (⟨S50000x128, .f32⟩ : BufTy).Contents (Elt F)) ]
/-- Stretch 2: the first layer's aggregation, bias and rectifier, and the second matrix product (a called function's operations stand in its call's place). -/
abbrev layer1Ops : List (HloOp τ sig (Elt F)) :=
  [ nullary main_c_6 (constantI S_ 32 0#32),
    unary main_c_6 main_v31 (broadcastInDim S850000 ![] bcast_S_S850000 : (⟨S_, .i32⟩ : BufTy).Contents (Elt F) → (⟨S850000, .i32⟩ : BufTy).Contents (Elt F)),
    binary main_v3 main_v31 main_v32 (cmpi .slt : (⟨S850000, .i32⟩ : BufTy).Contents (Elt F) → (⟨S850000, .i32⟩ : BufTy).Contents (Elt F) → (⟨S850000, .i1⟩ : BufTy).Contents (Elt F)),
    nullary main_c_7 (constantI S_ 32 50000#32),
    unary main_c_7 main_v33 (broadcastInDim S850000 ![] bcast_S_S850000 : (⟨S_, .i32⟩ : BufTy).Contents (Elt F) → (⟨S850000, .i32⟩ : BufTy).Contents (Elt F)),
    binary main_v3 main_v33 main_v34 (addi : (⟨S850000, .i32⟩ : BufTy).Contents (Elt F) → (⟨S850000, .i32⟩ : BufTy).Contents (Elt F) → (⟨S850000, .i32⟩ : BufTy).Contents (Elt F)),
    ternary main_v32 main_v34 main_v3 main_v35 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v35 main_v36 (broadcastInDim S850000x1 ![0] bcast_S850000_S850000x1_0 : (⟨S850000, .i32⟩ : BufTy).Contents (Elt F) → (⟨S850000x1, .i32⟩ : BufTy).Contents (Elt F)),
    binary main_v30 main_v36 main_v37 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v29 main_v38 (broadcastInDim S850000x1 ![0] bcast_S850000_S850000x1_0 : (⟨S850000, .f32⟩ : BufTy).Contents (Elt F) → (⟨S850000x1, .f32⟩ : BufTy).Contents (Elt F)),
    unary main_v38 main_v39 (broadcastInDim S850000x128 ![0, 1] bcast_S850000x1_S850000x128_0_1 : (⟨S850000x1, .f32⟩ : BufTy).Contents (Elt F) → (⟨S850000x128, .f32⟩ : BufTy).Contents (Elt F)),
    binary main_v37 main_v39 main_v40 (mulf : (⟨S850000x128, .f32⟩ : BufTy).Contents (Elt F) → (⟨S850000x128, .f32⟩ : BufTy).Contents (Elt F) → (⟨S850000x128, .f32⟩ : BufTy).Contents (Elt F)),
    nullary main_cst_8 (constant S_ .f32 0x00000000#32),
    unary main_cst_8 main_v41 (broadcastInDim S50000x128 ![] bcast_S_S50000x128 : (⟨S_, .f32⟩ : BufTy).Contents (Elt F) → (⟨S50000x128, .f32⟩ : BufTy).Contents (Elt F)),
    unary main_v6 main_v42 (broadcastInDim S850000x1 ![0] bcast_S850000_S850000x1_0 : (⟨S850000, .i32⟩ : BufTy).Contents (Elt F) → (⟨S850000x1, .i32⟩ : BufTy).Contents (Elt F)),
    ternary main_v41 main_v42 main_v40 main_v43 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg3 main_v44 (broadcastInDim S1x128 ![1] bcast_S128_S1x128_1 : (⟨S128, .f32⟩ : BufTy).Contents (Elt F) → (⟨S1x128, .f32⟩ : BufTy).Contents (Elt F)),
    unary main_v44 main_v45 (broadcastInDim S50000x128 ![0, 1] bcast_S1x128_S50000x128_0_1 : (⟨S1x128, .f32⟩ : BufTy).Contents (Elt F) → (⟨S50000x128, .f32⟩ : BufTy).Contents (Elt F)),
    binary main_v43 main_v45 main_v46 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v46) (TRef.of (T := ⟨S50000x128, .f32⟩) main_call1_v0) (TRef.of (T := ⟨S50000x128, .f32⟩) main_v47) maximumf,
    binary main_v47 main_arg4 main_v48 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) ]
/-- Stretch 3: the same for the second layer, and the third matrix product (a called function's operations stand in its call's place). -/
abbrev layer2Ops : List (HloOp τ sig (Elt F)) :=
  [ nullary main_c_9 (constantI S_ 32 0#32),
    unary main_c_9 main_v49 (broadcastInDim S850000 ![] bcast_S_S850000 : (⟨S_, .i32⟩ : BufTy).Contents (Elt F) → (⟨S850000, .i32⟩ : BufTy).Contents (Elt F)),
    binary main_v3 main_v49 main_v50 (cmpi .slt : (⟨S850000, .i32⟩ : BufTy).Contents (Elt F) → (⟨S850000, .i32⟩ : BufTy).Contents (Elt F) → (⟨S850000, .i1⟩ : BufTy).Contents (Elt F)),
    nullary main_c_10 (constantI S_ 32 50000#32),
    unary main_c_10 main_v51 (broadcastInDim S850000 ![] bcast_S_S850000 : (⟨S_, .i32⟩ : BufTy).Contents (Elt F) → (⟨S850000, .i32⟩ : BufTy).Contents (Elt F)),
    binary main_v3 main_v51 main_v52 (addi : (⟨S850000, .i32⟩ : BufTy).Contents (Elt F) → (⟨S850000, .i32⟩ : BufTy).Contents (Elt F) → (⟨S850000, .i32⟩ : BufTy).Contents (Elt F)),
    ternary main_v50 main_v52 main_v3 main_v53 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v53 main_v54 (broadcastInDim S850000x1 ![0] bcast_S850000_S850000x1_0 : (⟨S850000, .i32⟩ : BufTy).Contents (Elt F) → (⟨S850000x1, .i32⟩ : BufTy).Contents (Elt F)),
    binary main_v48 main_v54 main_v55 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v29 main_v56 (broadcastInDim S850000x1 ![0] bcast_S850000_S850000x1_0 : (⟨S850000, .f32⟩ : BufTy).Contents (Elt F) → (⟨S850000x1, .f32⟩ : BufTy).Contents (Elt F)),
    unary main_v56 main_v57 (broadcastInDim S850000x128 ![0, 1] bcast_S850000x1_S850000x128_0_1 : (⟨S850000x1, .f32⟩ : BufTy).Contents (Elt F) → (⟨S850000x128, .f32⟩ : BufTy).Contents (Elt F)),
    binary main_v55 main_v57 main_v58 (mulf : (⟨S850000x128, .f32⟩ : BufTy).Contents (Elt F) → (⟨S850000x128, .f32⟩ : BufTy).Contents (Elt F) → (⟨S850000x128, .f32⟩ : BufTy).Contents (Elt F)),
    nullary main_cst_11 (constant S_ .f32 0x00000000#32),
    unary main_cst_11 main_v59 (broadcastInDim S50000x128 ![] bcast_S_S50000x128 : (⟨S_, .f32⟩ : BufTy).Contents (Elt F) → (⟨S50000x128, .f32⟩ : BufTy).Contents (Elt F)),
    unary main_v6 main_v60 (broadcastInDim S850000x1 ![0] bcast_S850000_S850000x1_0 : (⟨S850000, .i32⟩ : BufTy).Contents (Elt F) → (⟨S850000x1, .i32⟩ : BufTy).Contents (Elt F)),
    ternary main_v59 main_v60 main_v58 main_v61 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg5 main_v62 (broadcastInDim S1x128 ![1] bcast_S128_S1x128_1 : (⟨S128, .f32⟩ : BufTy).Contents (Elt F) → (⟨S1x128, .f32⟩ : BufTy).Contents (Elt F)),
    unary main_v62 main_v63 (broadcastInDim S50000x128 ![0, 1] bcast_S1x128_S50000x128_0_1 : (⟨S1x128, .f32⟩ : BufTy).Contents (Elt F) → (⟨S50000x128, .f32⟩ : BufTy).Contents (Elt F)),
    binary main_v61 main_v63 main_v64 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x128, .f32⟩) main_call2_v0) (broadcastInDim S50000x128 ![] bcast_S_S50000x128),
    TRef.binary (TRef.of (T := ⟨S50000x128, .f32⟩) main_v64) (TRef.of (T := ⟨S50000x128, .f32⟩) main_call2_v0) (TRef.of (T := ⟨S50000x128, .f32⟩) main_v65) maximumf,
    binary main_v65 main_arg6 main_v66 ((fun l r => Host.dotGeneral dot_S50000x128_S128x40_S50000x40_1_0_0_1_n_n none l r) : (⟨S50000x128, .f32⟩ : BufTy).Contents (Elt F) → (⟨S128x40, .f32⟩ : BufTy).Contents (Elt F) → (⟨S50000x40, .f32⟩ : BufTy).Contents (Elt F)) ]
/-- Stretch 4: the third layer's aggregation and bias (a called function's operations stand in its call's place). -/
abbrev layer3Ops : List (HloOp τ sig (Elt F)) :=
  [ nullary main_c_12 (constantI S_ 32 0#32),
    unary main_c_12 main_v67 (broadcastInDim S850000 ![] bcast_S_S850000 : (⟨S_, .i32⟩ : BufTy).Contents (Elt F) → (⟨S850000, .i32⟩ : BufTy).Contents (Elt F)),
    binary main_v3 main_v67 main_v68 (cmpi .slt : (⟨S850000, .i32⟩ : BufTy).Contents (Elt F) → (⟨S850000, .i32⟩ : BufTy).Contents (Elt F) → (⟨S850000, .i1⟩ : BufTy).Contents (Elt F)),
    nullary main_c_13 (constantI S_ 32 50000#32),
    unary main_c_13 main_v69 (broadcastInDim S850000 ![] bcast_S_S850000 : (⟨S_, .i32⟩ : BufTy).Contents (Elt F) → (⟨S850000, .i32⟩ : BufTy).Contents (Elt F)),
    binary main_v3 main_v69 main_v70 (addi : (⟨S850000, .i32⟩ : BufTy).Contents (Elt F) → (⟨S850000, .i32⟩ : BufTy).Contents (Elt F) → (⟨S850000, .i32⟩ : BufTy).Contents (Elt F)),
    ternary main_v68 main_v70 main_v3 main_v71 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v71 main_v72 (broadcastInDim S850000x1 ![0] bcast_S850000_S850000x1_0 : (⟨S850000, .i32⟩ : BufTy).Contents (Elt F) → (⟨S850000x1, .i32⟩ : BufTy).Contents (Elt F)),
    binary main_v66 main_v72 main_v73 ((fun x i => Host.gather gather_S50000x40_S850000x1_S850000x40_1_0_n_n_0_1_140 x i) : (⟨S50000x40, .f32⟩ : BufTy).Contents (Elt F) → (⟨S850000x1, .i32⟩ : BufTy).Contents (Elt F) → (⟨S850000x40, .f32⟩ : BufTy).Contents (Elt F)),
    unary main_v29 main_v74 (broadcastInDim S850000x1 ![0] bcast_S850000_S850000x1_0 : (⟨S850000, .f32⟩ : BufTy).Contents (Elt F) → (⟨S850000x1, .f32⟩ : BufTy).Contents (Elt F)),
    unary main_v74 main_v75 (broadcastInDim S850000x40 ![0, 1] bcast_S850000x1_S850000x40_0_1 : (⟨S850000x1, .f32⟩ : BufTy).Contents (Elt F) → (⟨S850000x40, .f32⟩ : BufTy).Contents (Elt F)),
    binary main_v73 main_v75 main_v76 (mulf : (⟨S850000x40, .f32⟩ : BufTy).Contents (Elt F) → (⟨S850000x40, .f32⟩ : BufTy).Contents (Elt F) → (⟨S850000x40, .f32⟩ : BufTy).Contents (Elt F)),
    nullary main_cst_14 (constant S_ .f32 0x00000000#32),
    unary main_cst_14 main_v77 (broadcastInDim S50000x40 ![] bcast_S_S50000x40 : (⟨S_, .f32⟩ : BufTy).Contents (Elt F) → (⟨S50000x40, .f32⟩ : BufTy).Contents (Elt F)),
    unary main_v6 main_v78 (broadcastInDim S850000x1 ![0] bcast_S850000_S850000x1_0 : (⟨S850000, .i32⟩ : BufTy).Contents (Elt F) → (⟨S850000x1, .i32⟩ : BufTy).Contents (Elt F)),
    ternary main_v77 main_v78 main_v76 main_v79 ((fun x i u => Host.scatterAdd scatter_S50000x40_S850000x1_S850000x40_1_0_0_1 x i u) : (⟨S50000x40, .f32⟩ : BufTy).Contents (Elt F) → (⟨S850000x1, .i32⟩ : BufTy).Contents (Elt F) → (⟨S850000x40, .f32⟩ : BufTy).Contents (Elt F) → (⟨S50000x40, .f32⟩ : BufTy).Contents (Elt F)),
    unary main_arg7 main_v80 (broadcastInDim S1x40 ![1] bcast_S40_S1x40_1 : (⟨S40, .f32⟩ : BufTy).Contents (Elt F) → (⟨S1x40, .f32⟩ : BufTy).Contents (Elt F)),
    unary main_v80 main_v81 (broadcastInDim S50000x40 ![0, 1] bcast_S1x40_S50000x40_0_1 : (⟨S1x40, .f32⟩ : BufTy).Contents (Elt F) → (⟨S50000x40, .f32⟩ : BufTy).Contents (Elt F)),
    binary main_v79 main_v81 main_v82 (addf : (⟨S50000x40, .f32⟩ : BufTy).Contents (Elt F) → (⟨S50000x40, .f32⟩ : BufTy).Contents (Elt F) → (⟨S50000x40, .f32⟩ : BufTy).Contents (Elt F)) ]
/-- Stretch 5: the row-wise log-softmax (a called function's operations stand in its call's place). -/
abbrev softmaxOps : List (HloOp τ sig (Elt F)) :=
  [ TRef.nullary (TRef.of (T := ⟨S_, .f32⟩) main_call3_cst) (constant S_ .f32 0xFF800000#32),
    TRef.binary (TRef.of (T := ⟨S50000x40, .f32⟩) main_v82) (TRef.of (T := ⟨S_, .f32⟩) main_call3_cst) (TRef.of (T := ⟨S50000, .f32⟩) main_call3_v0) (fun x v => Host.reduce FloatOps.maximumf x v reducesTo_S50000x40_S50000_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S50000, .f32⟩) main_call3_v1) (broadcastInDim S50000 ![] bcast_S_S50000),
    TRef.binary (TRef.of (T := ⟨S50000, .f32⟩) main_call3_v1) (TRef.of (T := ⟨S50000, .f32⟩) main_call3_v0) (TRef.of (T := ⟨S50000, .f32⟩) main_call3_v2) maximumf,
    TRef.unary (TRef.of (T := ⟨S50000, .f32⟩) main_call3_v2) (TRef.of (T := ⟨S50000x1, .f32⟩) main_call3_v3) (broadcastInDim S50000x1 ![0] bcast_S50000_S50000x1_0),
    TRef.unary (TRef.of (T := ⟨S50000x1, .f32⟩) main_call3_v3) (TRef.of (T := ⟨S50000x40, .f32⟩) main_call3_v4) (broadcastInDim S50000x40 ![0, 1] bcast_S50000x1_S50000x40_0_1),
    TRef.binary (TRef.of (T := ⟨S50000x40, .f32⟩) main_v82) (TRef.of (T := ⟨S50000x40, .f32⟩) main_call3_v4) (TRef.of (T := ⟨S50000x40, .f32⟩) main_call3_v5) subf,
    TRef.unary (TRef.of (T := ⟨S50000x40, .f32⟩) main_call3_v5) (TRef.of (T := ⟨S50000x40, .f32⟩) main_call3_v6) Host.exp,
    TRef.nullary (TRef.of (T := ⟨S_, .f32⟩) main_call3_cst_1) (constant S_ .f32 0x00000000#32),
    TRef.binary (TRef.of (T := ⟨S50000x40, .f32⟩) main_call3_v6) (TRef.of (T := ⟨S_, .f32⟩) main_call3_cst_1) (TRef.of (T := ⟨S50000, .f32⟩) main_call3_v7) (fun x v => Host.reduceAdd x v reducesTo_S50000x40_S50000_d1 h_S_),
    TRef.unary (TRef.of (T := ⟨S50000, .f32⟩) main_call3_v7) (TRef.of (T := ⟨S50000x1, .f32⟩) main_call3_v8) (broadcastInDim S50000x1 ![0] bcast_S50000_S50000x1_0),
    TRef.unary (TRef.of (T := ⟨S50000x1, .f32⟩) main_call3_v8) (TRef.of (T := ⟨S50000x1, .f32⟩) main_call3_v9) Host.log,
    TRef.unary (TRef.of (T := ⟨S50000x1, .f32⟩) main_call3_v9) (TRef.of (T := ⟨S50000x40, .f32⟩) main_call3_v10) (broadcastInDim S50000x40 ![0, 1] bcast_S50000x1_S50000x40_0_1),
    TRef.binary (TRef.of (T := ⟨S50000x40, .f32⟩) main_call3_v5) (TRef.of (T := ⟨S50000x40, .f32⟩) main_call3_v10) (TRef.of (T := ⟨S50000x40, .f32⟩) main_v83) subf ]

/-- The whole line. -/
abbrev ops : List (HloOp τ sig (Elt F)) :=
  [ nullary main_v0 (iotaInDim S50000 32 0),
    unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    reshape main_v1 main_v2 rfl shapeCasts_S1x800000_S800000,
    binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    unary main_arg1 main_v4 ((extractStridedSlice S1x800000 ![1, 0] · slices_S2x800000_S1x800000_1_0) : (⟨S2x800000, .i32⟩ : BufTy).Contents (Elt F) → (⟨S1x800000, .i32⟩ : BufTy).Contents (Elt F)),
    reshape main_v4 main_v5 rfl shapeCasts_S1x800000_S800000,
    binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst (constant S_ .f32 0x3F800000#32),
    unary main_cst main_v7 (broadcastInDim S850000 ![] bcast_S_S850000 : (⟨S_, .f32⟩ : BufTy).Contents (Elt F) → (⟨S850000, .f32⟩ : BufTy).Contents (Elt F)),
    nullary main_cst_0 (constant S_ .f32 0x00000000#32),
    unary main_cst_0 main_v8 (broadcastInDim S50000 ![] bcast_S_S50000 : (⟨S_, .f32⟩ : BufTy).Contents (Elt F) → (⟨S50000, .f32⟩ : BufTy).Contents (Elt F)),
    unary main_v6 main_v9 (broadcastInDim S850000x1 ![0] bcast_S850000_S850000x1_0 : (⟨S850000, .i32⟩ : BufTy).Contents (Elt F) → (⟨S850000x1, .i32⟩ : BufTy).Contents (Elt F)),
    ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_1 (constant S_ .f32 0x00000000#32),
    unary main_cst_1 main_v11 (broadcastInDim S50000 ![] bcast_S_S50000 : (⟨S_, .f32⟩ : BufTy).Contents (Elt F) → (⟨S50000, .f32⟩ : BufTy).Contents (Elt F)),
    binary main_v10 main_v11 main_v12 (cmpf .ogt : (⟨S50000, .f32⟩ : BufTy).Contents (Elt F) → (⟨S50000, .f32⟩ : BufTy).Contents (Elt F) → (⟨S50000, .i1⟩ : BufTy).Contents (Elt F)),
    unary main_v10 main_v13 (Host.rsqrt : (⟨S50000, .f32⟩ : BufTy).Contents (Elt F) → (⟨S50000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v12) (TRef.of (T := ⟨S50000, .f32⟩) main_v13) (TRef.of (T := ⟨S50000, .f32⟩) main_call0_v1) (TRef.of (T := ⟨S50000, .f32⟩) main_v14) select,
    nullary main_c (constantI S_ 32 0#32),
    unary main_c main_v15 (broadcastInDim S850000 ![] bcast_S_S850000 : (⟨S_, .i32⟩ : BufTy).Contents (Elt F) → (⟨S850000, .i32⟩ : BufTy).Contents (Elt F)),
    binary main_v3 main_v15 main_v16 (cmpi .slt : (⟨S850000, .i32⟩ : BufTy).Contents (Elt F) → (⟨S850000, .i32⟩ : BufTy).Contents (Elt F) → (⟨S850000, .i1⟩ : BufTy).Contents (Elt F)),
    nullary main_c_3 (constantI S_ 32 50000#32),
    unary main_c_3 main_v17 (broadcastInDim S850000 ![] bcast_S_S850000 : (⟨S_, .i32⟩ : BufTy).Contents (Elt F) → (⟨S850000, .i32⟩ : BufTy).Contents (Elt F)),
    binary main_v3 main_v17 main_v18 (addi : (⟨S850000, .i32⟩ : BufTy).Contents (Elt F) → (⟨S850000, .i32⟩ : BufTy).Contents (Elt F) → (⟨S850000, .i32⟩ : BufTy).Contents (Elt F)),
    ternary main_v16 main_v18 main_v3 main_v19 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v19 main_v20 (broadcastInDim S850000x1 ![0] bcast_S850000_S850000x1_0 : (⟨S850000, .i32⟩ : BufTy).Contents (Elt F) → (⟨S850000x1, .i32⟩ : BufTy).Contents (Elt F)),
    binary main_v14 main_v20 main_v21 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_4 (constantI S_ 32 0#32),
    unary main_c_4 main_v22 (broadcastInDim S850000 ![] bcast_S_S850000 : (⟨S_, .i32⟩ : BufTy).Contents (Elt F) → (⟨S850000, .i32⟩ : BufTy).Contents (Elt F)),
    binary main_v6 main_v22 main_v23 (cmpi .slt : (⟨S850000, .i32⟩ : BufTy).Contents (Elt F) → (⟨S850000, .i32⟩ : BufTy).Contents (Elt F) → (⟨S850000, .i1⟩ : BufTy).Contents (Elt F)),
    nullary main_c_5 (constantI S_ 32 50000#32),
    unary main_c_5 main_v24 (broadcastInDim S850000 ![] bcast_S_S850000 : (⟨S_, .i32⟩ : BufTy).Contents (Elt F) → (⟨S850000, .i32⟩ : BufTy).Contents (Elt F)),
    binary main_v6 main_v24 main_v25 (addi : (⟨S850000, .i32⟩ : BufTy).Contents (Elt F) → (⟨S850000, .i32⟩ : BufTy).Contents (Elt F) → (⟨S850000, .i32⟩ : BufTy).Contents (Elt F)),
    ternary main_v23 main_v25 main_v6 main_v26 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v26 main_v27 (broadcastInDim S850000x1 ![0] bcast_S850000_S850000x1_0 : (⟨S850000, .i32⟩ : BufTy).Contents (Elt F) → (⟨S850000x1, .i32⟩ : BufTy).Contents (Elt F)),
    binary main_v14 main_v27 main_v28 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v21 main_v28 main_v29 (mulf : (⟨S850000, .f32⟩ : BufTy).Contents (Elt F) → (⟨S850000, .f32⟩ : BufTy).Contents (Elt F) → (⟨S850000, .f32⟩ : BufTy).Contents (Elt F)),
    binary main_arg0 main_arg2 main_v30 ((fun l r => Host.dotGeneral dot_S50000x500_S500x128_S50000x128_1_0_0_1_n_n none l r) : (⟨S50000x500, .f32⟩ : BufTy).Contents (Elt F) → (⟨S500x128, .f32⟩ : BufTy).Contents (Elt F) → (⟨S50000x128, .f32⟩ : BufTy).Contents (Elt F)),
    nullary main_c_6 (constantI S_ 32 0#32),
    unary main_c_6 main_v31 (broadcastInDim S850000 ![] bcast_S_S850000 : (⟨S_, .i32⟩ : BufTy).Contents (Elt F) → (⟨S850000, .i32⟩ : BufTy).Contents (Elt F)),
    binary main_v3 main_v31 main_v32 (cmpi .slt : (⟨S850000, .i32⟩ : BufTy).Contents (Elt F) → (⟨S850000, .i32⟩ : BufTy).Contents (Elt F) → (⟨S850000, .i1⟩ : BufTy).Contents (Elt F)),
    nullary main_c_7 (constantI S_ 32 50000#32),
    unary main_c_7 main_v33 (broadcastInDim S850000 ![] bcast_S_S850000 : (⟨S_, .i32⟩ : BufTy).Contents (Elt F) → (⟨S850000, .i32⟩ : BufTy).Contents (Elt F)),
    binary main_v3 main_v33 main_v34 (addi : (⟨S850000, .i32⟩ : BufTy).Contents (Elt F) → (⟨S850000, .i32⟩ : BufTy).Contents (Elt F) → (⟨S850000, .i32⟩ : BufTy).Contents (Elt F)),
    ternary main_v32 main_v34 main_v3 main_v35 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v35 main_v36 (broadcastInDim S850000x1 ![0] bcast_S850000_S850000x1_0 : (⟨S850000, .i32⟩ : BufTy).Contents (Elt F) → (⟨S850000x1, .i32⟩ : BufTy).Contents (Elt F)),
    binary main_v30 main_v36 main_v37 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v29 main_v38 (broadcastInDim S850000x1 ![0] bcast_S850000_S850000x1_0 : (⟨S850000, .f32⟩ : BufTy).Contents (Elt F) → (⟨S850000x1, .f32⟩ : BufTy).Contents (Elt F)),
    unary main_v38 main_v39 (broadcastInDim S850000x128 ![0, 1] bcast_S850000x1_S850000x128_0_1 : (⟨S850000x1, .f32⟩ : BufTy).Contents (Elt F) → (⟨S850000x128, .f32⟩ : BufTy).Contents (Elt F)),
    binary main_v37 main_v39 main_v40 (mulf : (⟨S850000x128, .f32⟩ : BufTy).Contents (Elt F) → (⟨S850000x128, .f32⟩ : BufTy).Contents (Elt F) → (⟨S850000x128, .f32⟩ : BufTy).Contents (Elt F)),
    nullary main_cst_8 (constant S_ .f32 0x00000000#32),
    unary main_cst_8 main_v41 (broadcastInDim S50000x128 ![] bcast_S_S50000x128 : (⟨S_, .f32⟩ : BufTy).Contents (Elt F) → (⟨S50000x128, .f32⟩ : BufTy).Contents (Elt F)),
    unary main_v6 main_v42 (broadcastInDim S850000x1 ![0] bcast_S850000_S850000x1_0 : (⟨S850000, .i32⟩ : BufTy).Contents (Elt F) → (⟨S850000x1, .i32⟩ : BufTy).Contents (Elt F)),
    ternary main_v41 main_v42 main_v40 main_v43 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg3 main_v44 (broadcastInDim S1x128 ![1] bcast_S128_S1x128_1 : (⟨S128, .f32⟩ : BufTy).Contents (Elt F) → (⟨S1x128, .f32⟩ : BufTy).Contents (Elt F)),
    unary main_v44 main_v45 (broadcastInDim S50000x128 ![0, 1] bcast_S1x128_S50000x128_0_1 : (⟨S1x128, .f32⟩ : BufTy).Contents (Elt F) → (⟨S50000x128, .f32⟩ : BufTy).Contents (Elt F)),
    binary main_v43 main_v45 main_v46 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v46) (TRef.of (T := ⟨S50000x128, .f32⟩) main_call1_v0) (TRef.of (T := ⟨S50000x128, .f32⟩) main_v47) maximumf,
    binary main_v47 main_arg4 main_v48 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_9 (constantI S_ 32 0#32),
    unary main_c_9 main_v49 (broadcastInDim S850000 ![] bcast_S_S850000 : (⟨S_, .i32⟩ : BufTy).Contents (Elt F) → (⟨S850000, .i32⟩ : BufTy).Contents (Elt F)),
    binary main_v3 main_v49 main_v50 (cmpi .slt : (⟨S850000, .i32⟩ : BufTy).Contents (Elt F) → (⟨S850000, .i32⟩ : BufTy).Contents (Elt F) → (⟨S850000, .i1⟩ : BufTy).Contents (Elt F)),
    nullary main_c_10 (constantI S_ 32 50000#32),
    unary main_c_10 main_v51 (broadcastInDim S850000 ![] bcast_S_S850000 : (⟨S_, .i32⟩ : BufTy).Contents (Elt F) → (⟨S850000, .i32⟩ : BufTy).Contents (Elt F)),
    binary main_v3 main_v51 main_v52 (addi : (⟨S850000, .i32⟩ : BufTy).Contents (Elt F) → (⟨S850000, .i32⟩ : BufTy).Contents (Elt F) → (⟨S850000, .i32⟩ : BufTy).Contents (Elt F)),
    ternary main_v50 main_v52 main_v3 main_v53 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v53 main_v54 (broadcastInDim S850000x1 ![0] bcast_S850000_S850000x1_0 : (⟨S850000, .i32⟩ : BufTy).Contents (Elt F) → (⟨S850000x1, .i32⟩ : BufTy).Contents (Elt F)),
    binary main_v48 main_v54 main_v55 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v29 main_v56 (broadcastInDim S850000x1 ![0] bcast_S850000_S850000x1_0 : (⟨S850000, .f32⟩ : BufTy).Contents (Elt F) → (⟨S850000x1, .f32⟩ : BufTy).Contents (Elt F)),
    unary main_v56 main_v57 (broadcastInDim S850000x128 ![0, 1] bcast_S850000x1_S850000x128_0_1 : (⟨S850000x1, .f32⟩ : BufTy).Contents (Elt F) → (⟨S850000x128, .f32⟩ : BufTy).Contents (Elt F)),
    binary main_v55 main_v57 main_v58 (mulf : (⟨S850000x128, .f32⟩ : BufTy).Contents (Elt F) → (⟨S850000x128, .f32⟩ : BufTy).Contents (Elt F) → (⟨S850000x128, .f32⟩ : BufTy).Contents (Elt F)),
    nullary main_cst_11 (constant S_ .f32 0x00000000#32),
    unary main_cst_11 main_v59 (broadcastInDim S50000x128 ![] bcast_S_S50000x128 : (⟨S_, .f32⟩ : BufTy).Contents (Elt F) → (⟨S50000x128, .f32⟩ : BufTy).Contents (Elt F)),
    unary main_v6 main_v60 (broadcastInDim S850000x1 ![0] bcast_S850000_S850000x1_0 : (⟨S850000, .i32⟩ : BufTy).Contents (Elt F) → (⟨S850000x1, .i32⟩ : BufTy).Contents (Elt F)),
    ternary main_v59 main_v60 main_v58 main_v61 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg5 main_v62 (broadcastInDim S1x128 ![1] bcast_S128_S1x128_1 : (⟨S128, .f32⟩ : BufTy).Contents (Elt F) → (⟨S1x128, .f32⟩ : BufTy).Contents (Elt F)),
    unary main_v62 main_v63 (broadcastInDim S50000x128 ![0, 1] bcast_S1x128_S50000x128_0_1 : (⟨S1x128, .f32⟩ : BufTy).Contents (Elt F) → (⟨S50000x128, .f32⟩ : BufTy).Contents (Elt F)),
    binary main_v61 main_v63 main_v64 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x128, .f32⟩) main_call2_v0) (broadcastInDim S50000x128 ![] bcast_S_S50000x128),
    TRef.binary (TRef.of (T := ⟨S50000x128, .f32⟩) main_v64) (TRef.of (T := ⟨S50000x128, .f32⟩) main_call2_v0) (TRef.of (T := ⟨S50000x128, .f32⟩) main_v65) maximumf,
    binary main_v65 main_arg6 main_v66 ((fun l r => Host.dotGeneral dot_S50000x128_S128x40_S50000x40_1_0_0_1_n_n none l r) : (⟨S50000x128, .f32⟩ : BufTy).Contents (Elt F) → (⟨S128x40, .f32⟩ : BufTy).Contents (Elt F) → (⟨S50000x40, .f32⟩ : BufTy).Contents (Elt F)),
    nullary main_c_12 (constantI S_ 32 0#32),
    unary main_c_12 main_v67 (broadcastInDim S850000 ![] bcast_S_S850000 : (⟨S_, .i32⟩ : BufTy).Contents (Elt F) → (⟨S850000, .i32⟩ : BufTy).Contents (Elt F)),
    binary main_v3 main_v67 main_v68 (cmpi .slt : (⟨S850000, .i32⟩ : BufTy).Contents (Elt F) → (⟨S850000, .i32⟩ : BufTy).Contents (Elt F) → (⟨S850000, .i1⟩ : BufTy).Contents (Elt F)),
    nullary main_c_13 (constantI S_ 32 50000#32),
    unary main_c_13 main_v69 (broadcastInDim S850000 ![] bcast_S_S850000 : (⟨S_, .i32⟩ : BufTy).Contents (Elt F) → (⟨S850000, .i32⟩ : BufTy).Contents (Elt F)),
    binary main_v3 main_v69 main_v70 (addi : (⟨S850000, .i32⟩ : BufTy).Contents (Elt F) → (⟨S850000, .i32⟩ : BufTy).Contents (Elt F) → (⟨S850000, .i32⟩ : BufTy).Contents (Elt F)),
    ternary main_v68 main_v70 main_v3 main_v71 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v71 main_v72 (broadcastInDim S850000x1 ![0] bcast_S850000_S850000x1_0 : (⟨S850000, .i32⟩ : BufTy).Contents (Elt F) → (⟨S850000x1, .i32⟩ : BufTy).Contents (Elt F)),
    binary main_v66 main_v72 main_v73 ((fun x i => Host.gather gather_S50000x40_S850000x1_S850000x40_1_0_n_n_0_1_140 x i) : (⟨S50000x40, .f32⟩ : BufTy).Contents (Elt F) → (⟨S850000x1, .i32⟩ : BufTy).Contents (Elt F) → (⟨S850000x40, .f32⟩ : BufTy).Contents (Elt F)),
    unary main_v29 main_v74 (broadcastInDim S850000x1 ![0] bcast_S850000_S850000x1_0 : (⟨S850000, .f32⟩ : BufTy).Contents (Elt F) → (⟨S850000x1, .f32⟩ : BufTy).Contents (Elt F)),
    unary main_v74 main_v75 (broadcastInDim S850000x40 ![0, 1] bcast_S850000x1_S850000x40_0_1 : (⟨S850000x1, .f32⟩ : BufTy).Contents (Elt F) → (⟨S850000x40, .f32⟩ : BufTy).Contents (Elt F)),
    binary main_v73 main_v75 main_v76 (mulf : (⟨S850000x40, .f32⟩ : BufTy).Contents (Elt F) → (⟨S850000x40, .f32⟩ : BufTy).Contents (Elt F) → (⟨S850000x40, .f32⟩ : BufTy).Contents (Elt F)),
    nullary main_cst_14 (constant S_ .f32 0x00000000#32),
    unary main_cst_14 main_v77 (broadcastInDim S50000x40 ![] bcast_S_S50000x40 : (⟨S_, .f32⟩ : BufTy).Contents (Elt F) → (⟨S50000x40, .f32⟩ : BufTy).Contents (Elt F)),
    unary main_v6 main_v78 (broadcastInDim S850000x1 ![0] bcast_S850000_S850000x1_0 : (⟨S850000, .i32⟩ : BufTy).Contents (Elt F) → (⟨S850000x1, .i32⟩ : BufTy).Contents (Elt F)),
    ternary main_v77 main_v78 main_v76 main_v79 ((fun x i u => Host.scatterAdd scatter_S50000x40_S850000x1_S850000x40_1_0_0_1 x i u) : (⟨S50000x40, .f32⟩ : BufTy).Contents (Elt F) → (⟨S850000x1, .i32⟩ : BufTy).Contents (Elt F) → (⟨S850000x40, .f32⟩ : BufTy).Contents (Elt F) → (⟨S50000x40, .f32⟩ : BufTy).Contents (Elt F)),
    unary main_arg7 main_v80 (broadcastInDim S1x40 ![1] bcast_S40_S1x40_1 : (⟨S40, .f32⟩ : BufTy).Contents (Elt F) → (⟨S1x40, .f32⟩ : BufTy).Contents (Elt F)),
    unary main_v80 main_v81 (broadcastInDim S50000x40 ![0, 1] bcast_S1x40_S50000x40_0_1 : (⟨S1x40, .f32⟩ : BufTy).Contents (Elt F) → (⟨S50000x40, .f32⟩ : BufTy).Contents (Elt F)),
    binary main_v79 main_v81 main_v82 (addf : (⟨S50000x40, .f32⟩ : BufTy).Contents (Elt F) → (⟨S50000x40, .f32⟩ : BufTy).Contents (Elt F) → (⟨S50000x40, .f32⟩ : BufTy).Contents (Elt F)),
    TRef.nullary (TRef.of (T := ⟨S_, .f32⟩) main_call3_cst) (constant S_ .f32 0xFF800000#32),
    TRef.binary (TRef.of (T := ⟨S50000x40, .f32⟩) main_v82) (TRef.of (T := ⟨S_, .f32⟩) main_call3_cst) (TRef.of (T := ⟨S50000, .f32⟩) main_call3_v0) (fun x v => Host.reduce FloatOps.maximumf x v reducesTo_S50000x40_S50000_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S50000, .f32⟩) main_call3_v1) (broadcastInDim S50000 ![] bcast_S_S50000),
    TRef.binary (TRef.of (T := ⟨S50000, .f32⟩) main_call3_v1) (TRef.of (T := ⟨S50000, .f32⟩) main_call3_v0) (TRef.of (T := ⟨S50000, .f32⟩) main_call3_v2) maximumf,
    TRef.unary (TRef.of (T := ⟨S50000, .f32⟩) main_call3_v2) (TRef.of (T := ⟨S50000x1, .f32⟩) main_call3_v3) (broadcastInDim S50000x1 ![0] bcast_S50000_S50000x1_0),
    TRef.unary (TRef.of (T := ⟨S50000x1, .f32⟩) main_call3_v3) (TRef.of (T := ⟨S50000x40, .f32⟩) main_call3_v4) (broadcastInDim S50000x40 ![0, 1] bcast_S50000x1_S50000x40_0_1),
    TRef.binary (TRef.of (T := ⟨S50000x40, .f32⟩) main_v82) (TRef.of (T := ⟨S50000x40, .f32⟩) main_call3_v4) (TRef.of (T := ⟨S50000x40, .f32⟩) main_call3_v5) subf,
    TRef.unary (TRef.of (T := ⟨S50000x40, .f32⟩) main_call3_v5) (TRef.of (T := ⟨S50000x40, .f32⟩) main_call3_v6) Host.exp,
    TRef.nullary (TRef.of (T := ⟨S_, .f32⟩) main_call3_cst_1) (constant S_ .f32 0x00000000#32),
    TRef.binary (TRef.of (T := ⟨S50000x40, .f32⟩) main_call3_v6) (TRef.of (T := ⟨S_, .f32⟩) main_call3_cst_1) (TRef.of (T := ⟨S50000, .f32⟩) main_call3_v7) (fun x v => Host.reduceAdd x v reducesTo_S50000x40_S50000_d1 h_S_),
    TRef.unary (TRef.of (T := ⟨S50000, .f32⟩) main_call3_v7) (TRef.of (T := ⟨S50000x1, .f32⟩) main_call3_v8) (broadcastInDim S50000x1 ![0] bcast_S50000_S50000x1_0),
    TRef.unary (TRef.of (T := ⟨S50000x1, .f32⟩) main_call3_v8) (TRef.of (T := ⟨S50000x1, .f32⟩) main_call3_v9) Host.log,
    TRef.unary (TRef.of (T := ⟨S50000x1, .f32⟩) main_call3_v9) (TRef.of (T := ⟨S50000x40, .f32⟩) main_call3_v10) (broadcastInDim S50000x40 ![0, 1] bcast_S50000x1_S50000x40_0_1),
    TRef.binary (TRef.of (T := ⟨S50000x40, .f32⟩) main_call3_v5) (TRef.of (T := ⟨S50000x40, .f32⟩) main_call3_v10) (TRef.of (T := ⟨S50000x40, .f32⟩) main_v83) subf ]

theorem ops_split : (ops : List (HloOp τ sig (Elt F))) = edgeOps ++ (weightOps ++ (layer1Ops ++ (layer2Ops ++ (layer3Ops ++ softmaxOps)))) := rfl

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

/-- The buffer contents after each stretch. -/
def at0 (m : (ℓ : Loc nD τ sig) → Buf (Elt F) ℓ) (c : Dev nD) : Valuation τ sig (Elt F) := after edgeOps (launchContents m c)
def at1 (m : (ℓ : Loc nD τ sig) → Buf (Elt F) ℓ) (c : Dev nD) : Valuation τ sig (Elt F) := after weightOps (at0 m c)
def at2 (m : (ℓ : Loc nD τ sig) → Buf (Elt F) ℓ) (c : Dev nD) : Valuation τ sig (Elt F) := after layer1Ops (at1 m c)
def at3 (m : (ℓ : Loc nD τ sig) → Buf (Elt F) ℓ) (c : Dev nD) : Valuation τ sig (Elt F) := after layer2Ops (at2 m c)
def at4 (m : (ℓ : Loc nD τ sig) → Buf (Elt F) ℓ) (c : Dev nD) : Valuation τ sig (Elt F) := after layer3Ops (at3 m c)
def at5 (m : (ℓ : Loc nD τ sig) → Buf (Elt F) ℓ) (c : Dev nD) : Valuation τ sig (Elt F) := after softmaxOps (at4 m c)

theorem fold_split (m : (ℓ : Loc nD τ sig) → Buf (Elt F) ℓ) (c : Dev nD) : after ops (launchContents m c) = at5 m c := by
  unfold at5 at4 at3 at2 at1 at0
  rw [ops_split, HostFold.after_append, HostFold.after_append, HostFold.after_append, HostFold.after_append, HostFold.after_append]

set_option maxRecDepth 8192 in
set_option maxHeartbeats 4000000 in
/-- From any memory with zero counters every weakly fair execution of the program terminates; the result buffer then
    holds the fold's value after the last stretch, and the argument arrays are as launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v83) = at5 m c (Proc.devRef .tc main_v83)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v83).trans (congrFun (fold_split m c) _),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl)⟩)
    (run_seq scopedRefs_eq scopedSems_eq defs main (fun _ => ops) main_eq (fun _ => ops_sub) m ρ)

end Cert.ReferenceIdeal.RefRun

end
-- ==== Proof.RefPlain.lean ====
/-
  The reference program's stretches that contain operations of called functions (the select guarding the inverse square
  root, the two rectifiers, the log-softmax), with those operations written on the buffers themselves. A called
  function's operation is stated through a typed view of each buffer, a transport along the buffer's recorded type; for
  these buffers that transport is the identity, so each stretch equals the same operations applied to the buffers directly,
  and the contents after a stretch are the fold of that plain list.
-/
import proofs.«178061_j57535381897260_1_alg».proof.Proof.RefRun

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Stretch 1 on the buffers. -/
abbrev weightOps' : List (HloOp τ sig (Elt F)) :=
  [ nullary main_cst (constant S_ .f32 0x3F800000#32),
    unary main_cst main_v7 (broadcastInDim S850000 ![] bcast_S_S850000 : (⟨S_, .f32⟩ : BufTy).Contents (Elt F) → (⟨S850000, .f32⟩ : BufTy).Contents (Elt F)),
    nullary main_cst_0 (constant S_ .f32 0x00000000#32),
    unary main_cst_0 main_v8 (broadcastInDim S50000 ![] bcast_S_S50000 : (⟨S_, .f32⟩ : BufTy).Contents (Elt F) → (⟨S50000, .f32⟩ : BufTy).Contents (Elt F)),
    unary main_v6 main_v9 (broadcastInDim S850000x1 ![0] bcast_S850000_S850000x1_0 : (⟨S850000, .i32⟩ : BufTy).Contents (Elt F) → (⟨S850000x1, .i32⟩ : BufTy).Contents (Elt F)),
    ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_1 (constant S_ .f32 0x00000000#32),
    unary main_cst_1 main_v11 (broadcastInDim S50000 ![] bcast_S_S50000 : (⟨S_, .f32⟩ : BufTy).Contents (Elt F) → (⟨S50000, .f32⟩ : BufTy).Contents (Elt F)),
    binary main_v10 main_v11 main_v12 (cmpf .ogt : (⟨S50000, .f32⟩ : BufTy).Contents (Elt F) → (⟨S50000, .f32⟩ : BufTy).Contents (Elt F) → (⟨S50000, .i1⟩ : BufTy).Contents (Elt F)),
    unary main_v10 main_v13 (Host.rsqrt : (⟨S50000, .f32⟩ : BufTy).Contents (Elt F) → (⟨S50000, .f32⟩ : BufTy).Contents (Elt F)),
    nullary main_cst_2 (constant S_ .f32 0x00000000#32),
    unary main_cst_2 main_call0_v0 ((id) : (⟨S_, .f32⟩ : BufTy).Contents (Elt F) → (⟨S_, .f32⟩ : BufTy).Contents (Elt F)),
    unary main_call0_v0 main_call0_v1 ((broadcastInDim S50000 ![] bcast_S_S50000) : (⟨S_, .f32⟩ : BufTy).Contents (Elt F) → (⟨S50000, .f32⟩ : BufTy).Contents (Elt F)),
    ternary main_v12 main_v13 main_call0_v1 main_v14 ((select) : (⟨S50000, .i1⟩ : BufTy).Contents (Elt F) → (⟨S50000, .f32⟩ : BufTy).Contents (Elt F) → (⟨S50000, .f32⟩ : BufTy).Contents (Elt F) → (⟨S50000, .f32⟩ : BufTy).Contents (Elt F)),
    nullary main_c (constantI S_ 32 0#32),
    unary main_c main_v15 (broadcastInDim S850000 ![] bcast_S_S850000 : (⟨S_, .i32⟩ : BufTy).Contents (Elt F) → (⟨S850000, .i32⟩ : BufTy).Contents (Elt F)),
    binary main_v3 main_v15 main_v16 (cmpi .slt : (⟨S850000, .i32⟩ : BufTy).Contents (Elt F) → (⟨S850000, .i32⟩ : BufTy).Contents (Elt F) → (⟨S850000, .i1⟩ : BufTy).Contents (Elt F)),
    nullary main_c_3 (constantI S_ 32 50000#32),
    unary main_c_3 main_v17 (broadcastInDim S850000 ![] bcast_S_S850000 : (⟨S_, .i32⟩ : BufTy).Contents (Elt F) → (⟨S850000, .i32⟩ : BufTy).Contents (Elt F)),
    binary main_v3 main_v17 main_v18 (addi : (⟨S850000, .i32⟩ : BufTy).Contents (Elt F) → (⟨S850000, .i32⟩ : BufTy).Contents (Elt F) → (⟨S850000, .i32⟩ : BufTy).Contents (Elt F)),
    ternary main_v16 main_v18 main_v3 main_v19 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v19 main_v20 (broadcastInDim S850000x1 ![0] bcast_S850000_S850000x1_0 : (⟨S850000, .i32⟩ : BufTy).Contents (Elt F) → (⟨S850000x1, .i32⟩ : BufTy).Contents (Elt F)),
    binary main_v14 main_v20 main_v21 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_4 (constantI S_ 32 0#32),
    unary main_c_4 main_v22 (broadcastInDim S850000 ![] bcast_S_S850000 : (⟨S_, .i32⟩ : BufTy).Contents (Elt F) → (⟨S850000, .i32⟩ : BufTy).Contents (Elt F)),
    binary main_v6 main_v22 main_v23 (cmpi .slt : (⟨S850000, .i32⟩ : BufTy).Contents (Elt F) → (⟨S850000, .i32⟩ : BufTy).Contents (Elt F) → (⟨S850000, .i1⟩ : BufTy).Contents (Elt F)),
    nullary main_c_5 (constantI S_ 32 50000#32),
    unary main_c_5 main_v24 (broadcastInDim S850000 ![] bcast_S_S850000 : (⟨S_, .i32⟩ : BufTy).Contents (Elt F) → (⟨S850000, .i32⟩ : BufTy).Contents (Elt F)),
    binary main_v6 main_v24 main_v25 (addi : (⟨S850000, .i32⟩ : BufTy).Contents (Elt F) → (⟨S850000, .i32⟩ : BufTy).Contents (Elt F) → (⟨S850000, .i32⟩ : BufTy).Contents (Elt F)),
    ternary main_v23 main_v25 main_v6 main_v26 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v26 main_v27 (broadcastInDim S850000x1 ![0] bcast_S850000_S850000x1_0 : (⟨S850000, .i32⟩ : BufTy).Contents (Elt F) → (⟨S850000x1, .i32⟩ : BufTy).Contents (Elt F)),
    binary main_v14 main_v27 main_v28 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v21 main_v28 main_v29 (mulf : (⟨S850000, .f32⟩ : BufTy).Contents (Elt F) → (⟨S850000, .f32⟩ : BufTy).Contents (Elt F) → (⟨S850000, .f32⟩ : BufTy).Contents (Elt F)),
    binary main_arg0 main_arg2 main_v30 ((fun l r => Host.dotGeneral dot_S50000x500_S500x128_S50000x128_1_0_0_1_n_n none l r) : (⟨S50000x500, .f32⟩ : BufTy).Contents (Elt F) → (⟨S500x128, .f32⟩ : BufTy).Contents (Elt F) → (⟨S50000x128, .f32⟩ : BufTy).Contents (Elt F)) ]
theorem weightOps_plain : (weightOps : List (HloOp τ sig (Elt F))) = weightOps' := rfl
theorem at1_eq (m : (ℓ : Loc nD τ sig) → Buf (Elt F) ℓ) (c : Dev nD) : at1 m c = after weightOps' (at0 m c) := by
  unfold at1; rw [weightOps_plain]

/-- Stretch 2 on the buffers. -/
abbrev layer1Ops' : List (HloOp τ sig (Elt F)) :=
  [ nullary main_c_6 (constantI S_ 32 0#32),
    unary main_c_6 main_v31 (broadcastInDim S850000 ![] bcast_S_S850000 : (⟨S_, .i32⟩ : BufTy).Contents (Elt F) → (⟨S850000, .i32⟩ : BufTy).Contents (Elt F)),
    binary main_v3 main_v31 main_v32 (cmpi .slt : (⟨S850000, .i32⟩ : BufTy).Contents (Elt F) → (⟨S850000, .i32⟩ : BufTy).Contents (Elt F) → (⟨S850000, .i1⟩ : BufTy).Contents (Elt F)),
    nullary main_c_7 (constantI S_ 32 50000#32),
    unary main_c_7 main_v33 (broadcastInDim S850000 ![] bcast_S_S850000 : (⟨S_, .i32⟩ : BufTy).Contents (Elt F) → (⟨S850000, .i32⟩ : BufTy).Contents (Elt F)),
    binary main_v3 main_v33 main_v34 (addi : (⟨S850000, .i32⟩ : BufTy).Contents (Elt F) → (⟨S850000, .i32⟩ : BufTy).Contents (Elt F) → (⟨S850000, .i32⟩ : BufTy).Contents (Elt F)),
    ternary main_v32 main_v34 main_v3 main_v35 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v35 main_v36 (broadcastInDim S850000x1 ![0] bcast_S850000_S850000x1_0 : (⟨S850000, .i32⟩ : BufTy).Contents (Elt F) → (⟨S850000x1, .i32⟩ : BufTy).Contents (Elt F)),
    binary main_v30 main_v36 main_v37 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v29 main_v38 (broadcastInDim S850000x1 ![0] bcast_S850000_S850000x1_0 : (⟨S850000, .f32⟩ : BufTy).Contents (Elt F) → (⟨S850000x1, .f32⟩ : BufTy).Contents (Elt F)),
    unary main_v38 main_v39 (broadcastInDim S850000x128 ![0, 1] bcast_S850000x1_S850000x128_0_1 : (⟨S850000x1, .f32⟩ : BufTy).Contents (Elt F) → (⟨S850000x128, .f32⟩ : BufTy).Contents (Elt F)),
    binary main_v37 main_v39 main_v40 (mulf : (⟨S850000x128, .f32⟩ : BufTy).Contents (Elt F) → (⟨S850000x128, .f32⟩ : BufTy).Contents (Elt F) → (⟨S850000x128, .f32⟩ : BufTy).Contents (Elt F)),
    nullary main_cst_8 (constant S_ .f32 0x00000000#32),
    unary main_cst_8 main_v41 (broadcastInDim S50000x128 ![] bcast_S_S50000x128 : (⟨S_, .f32⟩ : BufTy).Contents (Elt F) → (⟨S50000x128, .f32⟩ : BufTy).Contents (Elt F)),
    unary main_v6 main_v42 (broadcastInDim S850000x1 ![0] bcast_S850000_S850000x1_0 : (⟨S850000, .i32⟩ : BufTy).Contents (Elt F) → (⟨S850000x1, .i32⟩ : BufTy).Contents (Elt F)),
    ternary main_v41 main_v42 main_v40 main_v43 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg3 main_v44 (broadcastInDim S1x128 ![1] bcast_S128_S1x128_1 : (⟨S128, .f32⟩ : BufTy).Contents (Elt F) → (⟨S1x128, .f32⟩ : BufTy).Contents (Elt F)),
    unary main_v44 main_v45 (broadcastInDim S50000x128 ![0, 1] bcast_S1x128_S50000x128_0_1 : (⟨S1x128, .f32⟩ : BufTy).Contents (Elt F) → (⟨S50000x128, .f32⟩ : BufTy).Contents (Elt F)),
    binary main_v43 main_v45 main_v46 (addf : (⟨S50000x128, .f32⟩ : BufTy).Contents (Elt F) → (⟨S50000x128, .f32⟩ : BufTy).Contents (Elt F) → (⟨S50000x128, .f32⟩ : BufTy).Contents (Elt F)),
    nullary main_call1_cst ((constant S_ .f32 0x00000000#32) : (⟨S_, .f32⟩ : BufTy).Contents (Elt F)),
    unary main_call1_cst main_call1_v0 ((broadcastInDim S50000x128 ![] bcast_S_S50000x128) : (⟨S_, .f32⟩ : BufTy).Contents (Elt F) → (⟨S50000x128, .f32⟩ : BufTy).Contents (Elt F)),
    binary main_v46 main_call1_v0 main_v47 ((maximumf) : (⟨S50000x128, .f32⟩ : BufTy).Contents (Elt F) → (⟨S50000x128, .f32⟩ : BufTy).Contents (Elt F) → (⟨S50000x128, .f32⟩ : BufTy).Contents (Elt F)),
    binary main_v47 main_arg4 main_v48 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) ]
theorem layer1Ops_plain : (layer1Ops : List (HloOp τ sig (Elt F))) = layer1Ops' := rfl
theorem at2_eq (m : (ℓ : Loc nD τ sig) → Buf (Elt F) ℓ) (c : Dev nD) : at2 m c = after layer1Ops' (at1 m c) := by
  unfold at2; rw [layer1Ops_plain]

/-- Stretch 3 on the buffers. -/
abbrev layer2Ops' : List (HloOp τ sig (Elt F)) :=
  [ nullary main_c_9 (constantI S_ 32 0#32),
    unary main_c_9 main_v49 (broadcastInDim S850000 ![] bcast_S_S850000 : (⟨S_, .i32⟩ : BufTy).Contents (Elt F) → (⟨S850000, .i32⟩ : BufTy).Contents (Elt F)),
    binary main_v3 main_v49 main_v50 (cmpi .slt : (⟨S850000, .i32⟩ : BufTy).Contents (Elt F) → (⟨S850000, .i32⟩ : BufTy).Contents (Elt F) → (⟨S850000, .i1⟩ : BufTy).Contents (Elt F)),
    nullary main_c_10 (constantI S_ 32 50000#32),
    unary main_c_10 main_v51 (broadcastInDim S850000 ![] bcast_S_S850000 : (⟨S_, .i32⟩ : BufTy).Contents (Elt F) → (⟨S850000, .i32⟩ : BufTy).Contents (Elt F)),
    binary main_v3 main_v51 main_v52 (addi : (⟨S850000, .i32⟩ : BufTy).Contents (Elt F) → (⟨S850000, .i32⟩ : BufTy).Contents (Elt F) → (⟨S850000, .i32⟩ : BufTy).Contents (Elt F)),
    ternary main_v50 main_v52 main_v3 main_v53 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v53 main_v54 (broadcastInDim S850000x1 ![0] bcast_S850000_S850000x1_0 : (⟨S850000, .i32⟩ : BufTy).Contents (Elt F) → (⟨S850000x1, .i32⟩ : BufTy).Contents (Elt F)),
    binary main_v48 main_v54 main_v55 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v29 main_v56 (broadcastInDim S850000x1 ![0] bcast_S850000_S850000x1_0 : (⟨S850000, .f32⟩ : BufTy).Contents (Elt F) → (⟨S850000x1, .f32⟩ : BufTy).Contents (Elt F)),
    unary main_v56 main_v57 (broadcastInDim S850000x128 ![0, 1] bcast_S850000x1_S850000x128_0_1 : (⟨S850000x1, .f32⟩ : BufTy).Contents (Elt F) → (⟨S850000x128, .f32⟩ : BufTy).Contents (Elt F)),
    binary main_v55 main_v57 main_v58 (mulf : (⟨S850000x128, .f32⟩ : BufTy).Contents (Elt F) → (⟨S850000x128, .f32⟩ : BufTy).Contents (Elt F) → (⟨S850000x128, .f32⟩ : BufTy).Contents (Elt F)),
    nullary main_cst_11 (constant S_ .f32 0x00000000#32),
    unary main_cst_11 main_v59 (broadcastInDim S50000x128 ![] bcast_S_S50000x128 : (⟨S_, .f32⟩ : BufTy).Contents (Elt F) → (⟨S50000x128, .f32⟩ : BufTy).Contents (Elt F)),
    unary main_v6 main_v60 (broadcastInDim S850000x1 ![0] bcast_S850000_S850000x1_0 : (⟨S850000, .i32⟩ : BufTy).Contents (Elt F) → (⟨S850000x1, .i32⟩ : BufTy).Contents (Elt F)),
    ternary main_v59 main_v60 main_v58 main_v61 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg5 main_v62 (broadcastInDim S1x128 ![1] bcast_S128_S1x128_1 : (⟨S128, .f32⟩ : BufTy).Contents (Elt F) → (⟨S1x128, .f32⟩ : BufTy).Contents (Elt F)),
    unary main_v62 main_v63 (broadcastInDim S50000x128 ![0, 1] bcast_S1x128_S50000x128_0_1 : (⟨S1x128, .f32⟩ : BufTy).Contents (Elt F) → (⟨S50000x128, .f32⟩ : BufTy).Contents (Elt F)),
    binary main_v61 main_v63 main_v64 (addf : (⟨S50000x128, .f32⟩ : BufTy).Contents (Elt F) → (⟨S50000x128, .f32⟩ : BufTy).Contents (Elt F) → (⟨S50000x128, .f32⟩ : BufTy).Contents (Elt F)),
    nullary main_call2_cst ((constant S_ .f32 0x00000000#32) : (⟨S_, .f32⟩ : BufTy).Contents (Elt F)),
    unary main_call2_cst main_call2_v0 ((broadcastInDim S50000x128 ![] bcast_S_S50000x128) : (⟨S_, .f32⟩ : BufTy).Contents (Elt F) → (⟨S50000x128, .f32⟩ : BufTy).Contents (Elt F)),
    binary main_v64 main_call2_v0 main_v65 ((maximumf) : (⟨S50000x128, .f32⟩ : BufTy).Contents (Elt F) → (⟨S50000x128, .f32⟩ : BufTy).Contents (Elt F) → (⟨S50000x128, .f32⟩ : BufTy).Contents (Elt F)),
    binary main_v65 main_arg6 main_v66 ((fun l r => Host.dotGeneral dot_S50000x128_S128x40_S50000x40_1_0_0_1_n_n none l r) : (⟨S50000x128, .f32⟩ : BufTy).Contents (Elt F) → (⟨S128x40, .f32⟩ : BufTy).Contents (Elt F) → (⟨S50000x40, .f32⟩ : BufTy).Contents (Elt F)) ]
theorem layer2Ops_plain : (layer2Ops : List (HloOp τ sig (Elt F))) = layer2Ops' := rfl
theorem at3_eq (m : (ℓ : Loc nD τ sig) → Buf (Elt F) ℓ) (c : Dev nD) : at3 m c = after layer2Ops' (at2 m c) := by
  unfold at3; rw [layer2Ops_plain]

/-- Stretch 5 on the buffers. -/
abbrev softmaxOps' : List (HloOp τ sig (Elt F)) :=
  [ nullary main_call3_cst ((constant S_ .f32 0xFF800000#32) : (⟨S_, .f32⟩ : BufTy).Contents (Elt F)),
    binary main_v82 main_call3_cst main_call3_v0 ((fun x v => Host.reduce FloatOps.maximumf x v reducesTo_S50000x40_S50000_d1 h_S_) : (⟨S50000x40, .f32⟩ : BufTy).Contents (Elt F) → (⟨S_, .f32⟩ : BufTy).Contents (Elt F) → (⟨S50000, .f32⟩ : BufTy).Contents (Elt F)),
    nullary main_call3_cst_0 ((constant S_ .f32 0xFF800000#32) : (⟨S_, .f32⟩ : BufTy).Contents (Elt F)),
    unary main_call3_cst_0 main_call3_v1 ((broadcastInDim S50000 ![] bcast_S_S50000) : (⟨S_, .f32⟩ : BufTy).Contents (Elt F) → (⟨S50000, .f32⟩ : BufTy).Contents (Elt F)),
    binary main_call3_v1 main_call3_v0 main_call3_v2 ((maximumf) : (⟨S50000, .f32⟩ : BufTy).Contents (Elt F) → (⟨S50000, .f32⟩ : BufTy).Contents (Elt F) → (⟨S50000, .f32⟩ : BufTy).Contents (Elt F)),
    unary main_call3_v2 main_call3_v3 ((broadcastInDim S50000x1 ![0] bcast_S50000_S50000x1_0) : (⟨S50000, .f32⟩ : BufTy).Contents (Elt F) → (⟨S50000x1, .f32⟩ : BufTy).Contents (Elt F)),
    unary main_call3_v3 main_call3_v4 ((broadcastInDim S50000x40 ![0, 1] bcast_S50000x1_S50000x40_0_1) : (⟨S50000x1, .f32⟩ : BufTy).Contents (Elt F) → (⟨S50000x40, .f32⟩ : BufTy).Contents (Elt F)),
    binary main_v82 main_call3_v4 main_call3_v5 ((subf) : (⟨S50000x40, .f32⟩ : BufTy).Contents (Elt F) → (⟨S50000x40, .f32⟩ : BufTy).Contents (Elt F) → (⟨S50000x40, .f32⟩ : BufTy).Contents (Elt F)),
    unary main_call3_v5 main_call3_v6 ((Host.exp) : (⟨S50000x40, .f32⟩ : BufTy).Contents (Elt F) → (⟨S50000x40, .f32⟩ : BufTy).Contents (Elt F)),
    nullary main_call3_cst_1 ((constant S_ .f32 0x00000000#32) : (⟨S_, .f32⟩ : BufTy).Contents (Elt F)),
    binary main_call3_v6 main_call3_cst_1 main_call3_v7 ((fun x v => Host.reduceAdd x v reducesTo_S50000x40_S50000_d1 h_S_) : (⟨S50000x40, .f32⟩ : BufTy).Contents (Elt F) → (⟨S_, .f32⟩ : BufTy).Contents (Elt F) → (⟨S50000, .f32⟩ : BufTy).Contents (Elt F)),
    unary main_call3_v7 main_call3_v8 ((broadcastInDim S50000x1 ![0] bcast_S50000_S50000x1_0) : (⟨S50000, .f32⟩ : BufTy).Contents (Elt F) → (⟨S50000x1, .f32⟩ : BufTy).Contents (Elt F)),
    unary main_call3_v8 main_call3_v9 ((Host.log) : (⟨S50000x1, .f32⟩ : BufTy).Contents (Elt F) → (⟨S50000x1, .f32⟩ : BufTy).Contents (Elt F)),
    unary main_call3_v9 main_call3_v10 ((broadcastInDim S50000x40 ![0, 1] bcast_S50000x1_S50000x40_0_1) : (⟨S50000x1, .f32⟩ : BufTy).Contents (Elt F) → (⟨S50000x40, .f32⟩ : BufTy).Contents (Elt F)),
    binary main_call3_v5 main_call3_v10 main_v83 ((subf) : (⟨S50000x40, .f32⟩ : BufTy).Contents (Elt F) → (⟨S50000x40, .f32⟩ : BufTy).Contents (Elt F) → (⟨S50000x40, .f32⟩ : BufTy).Contents (Elt F)) ]

/-- The row-maximum operation of the log-softmax, for any reducing function: the typed views of its three buffers are the
    buffers. (Stated over a variable so that nothing of the reduction itself is opened.) -/
theorem rowmax_plain (f : (⟨S50000x40, .f32⟩ : BufTy).Contents (Elt F) → (⟨S_, .f32⟩ : BufTy).Contents (Elt F) → (⟨S50000, .f32⟩ : BufTy).Contents (Elt F)) :
    (TRef.binary (TRef.of (T := ⟨S50000x40, .f32⟩) main_v82) (TRef.of (T := ⟨S_, .f32⟩) main_call3_cst) (TRef.of (T := ⟨S50000, .f32⟩) main_call3_v0) f : HloOp τ sig (Elt F))
      = binary main_v82 main_call3_cst main_call3_v0 f := rfl

theorem softmaxOps_plain : (softmaxOps : List (HloOp τ sig (Elt F))) = softmaxOps' :=
  congrArg₂ List.cons rfl (congrArg₂ List.cons (rowmax_plain _) rfl)
theorem at5_eq (m : (ℓ : Loc nD τ sig) → Buf (Elt F) ℓ) (c : Dev nD) : at5 m c = after softmaxOps' (at4 m c) := by
  unfold at5; rw [softmaxOps_plain]

end Cert.ReferenceIdeal.RefRun

end
-- ==== Proof.RefChainA.lean ====
/-
  The reference program's buffers after its first two stretches: the edges' source and destination nodes with the
  self-loops appended; then the first matrix product. Each is the stage of that name of the program read one operation
  at a time; the arguments are written by no operation.
-/
import proofs.«178061_j57535381897260_1_alg».proof.Proof.RefRun
import proofs.«178061_j57535381897260_1_alg».proof.Proof.RefPlain
import proofs.«178061_j57535381897260_1_alg».proof.Proof.RefReadPatched

set_option maxRecDepth 16384

noncomputable section

namespace Cert.ReferenceIdeal.RefChain

open Cert.ReferenceIdeal Cert.ReferenceIdeal.Gen Idealize.ShloMosaic Idealize.ShloMosaic.TcCoe Idealize.SL.Sem Idealize.ShloMosaic.StableHlo
open Cert.ReferenceIdeal.RefRun Cert.ReferenceIdeal.ReadP

variable (m : (ℓ : Loc nD τ sig) → Buf (Elt Ideal) ℓ) (c : Dev nD)

/-- After the first stretch: src. -/
theorem at0_src : at0 m c (Proc.devRef .tc main_v3) = val_main_v3 (F := Ideal) (m ((c.tc : Thread nD τ).loc main_arg1)) := by
  show StableHlo.after edgeOps (launchContents m c) (Proc.devRef .tc main_v3) = _
  after_results_simp <;> rfl

/-- After the first stretch: dst. -/
theorem at0_dst : at0 m c (Proc.devRef .tc main_v6) = val_main_v6 (F := Ideal) (m ((c.tc : Thread nD τ).loc main_arg1)) := by
  show StableHlo.after edgeOps (launchContents m c) (Proc.devRef .tc main_v6) = _
  after_results_simp <;> rfl

/-- The first stretch leaves arg0 as launched. -/
theorem at0_arg0 : at0 m c (Proc.devRef .tc main_arg0) = (m ((c.tc : Thread nD τ).loc main_arg0)) := by
  show StableHlo.after edgeOps (launchContents m c) (Proc.devRef .tc main_arg0) = _
  after_results_simp <;> rfl

/-- The first stretch leaves arg2 as launched. -/
theorem at0_arg2 : at0 m c (Proc.devRef .tc main_arg2) = (m ((c.tc : Thread nD τ).loc main_arg2)) := by
  show StableHlo.after edgeOps (launchContents m c) (Proc.devRef .tc main_arg2) = _
  after_results_simp <;> rfl

/-- The first stretch leaves arg3 as launched. -/
theorem at0_arg3 : at0 m c (Proc.devRef .tc main_arg3) = (m ((c.tc : Thread nD τ).loc main_arg3)) := by
  show StableHlo.after edgeOps (launchContents m c) (Proc.devRef .tc main_arg3) = _
  after_results_simp <;> rfl

/-- The first stretch leaves arg4 as launched. -/
theorem at0_arg4 : at0 m c (Proc.devRef .tc main_arg4) = (m ((c.tc : Thread nD τ).loc main_arg4)) := by
  show StableHlo.after edgeOps (launchContents m c) (Proc.devRef .tc main_arg4) = _
  after_results_simp <;> rfl

/-- The first stretch leaves arg5 as launched. -/
theorem at0_arg5 : at0 m c (Proc.devRef .tc main_arg5) = (m ((c.tc : Thread nD τ).loc main_arg5)) := by
  show StableHlo.after edgeOps (launchContents m c) (Proc.devRef .tc main_arg5) = _
  after_results_simp <;> rfl

/-- The first stretch leaves arg6 as launched. -/
theorem at0_arg6 : at0 m c (Proc.devRef .tc main_arg6) = (m ((c.tc : Thread nD τ).loc main_arg6)) := by
  show StableHlo.after edgeOps (launchContents m c) (Proc.devRef .tc main_arg6) = _
  after_results_simp <;> rfl

/-- The first stretch leaves arg7 as launched. -/
theorem at0_arg7 : at0 m c (Proc.devRef .tc main_arg7) = (m ((c.tc : Thread nD τ).loc main_arg7)) := by
  show StableHlo.after edgeOps (launchContents m c) (Proc.devRef .tc main_arg7) = _
  after_results_simp <;> rfl

/-- Carried through stretch 1: src. -/
theorem at1_src : at1 m c (Proc.devRef .tc main_v3) = val_main_v3 (F := Ideal) (m ((c.tc : Thread nD τ).loc main_arg1)) := by
  rw [at1_eq]
  after_results_simp
  exact at0_src m c

/-- Carried through stretch 1: dst. -/
theorem at1_dst : at1 m c (Proc.devRef .tc main_v6) = val_main_v6 (F := Ideal) (m ((c.tc : Thread nD τ).loc main_arg1)) := by
  rw [at1_eq]
  after_results_simp
  exact at0_dst m c

/-- Carried through stretch 1: arg3. -/
theorem at1_arg3 : at1 m c (Proc.devRef .tc main_arg3) = (m ((c.tc : Thread nD τ).loc main_arg3)) := by
  rw [at1_eq]
  after_results_simp
  exact at0_arg3 m c

/-- Carried through stretch 1: arg4. -/
theorem at1_arg4 : at1 m c (Proc.devRef .tc main_arg4) = (m ((c.tc : Thread nD τ).loc main_arg4)) := by
  rw [at1_eq]
  after_results_simp
  exact at0_arg4 m c

/-- Carried through stretch 1: arg5. -/
theorem at1_arg5 : at1 m c (Proc.devRef .tc main_arg5) = (m ((c.tc : Thread nD τ).loc main_arg5)) := by
  rw [at1_eq]
  after_results_simp
  exact at0_arg5 m c

/-- Carried through stretch 1: arg6. -/
theorem at1_arg6 : at1 m c (Proc.devRef .tc main_arg6) = (m ((c.tc : Thread nD τ).loc main_arg6)) := by
  rw [at1_eq]
  after_results_simp
  exact at0_arg6 m c

/-- Carried through stretch 1: arg7. -/
theorem at1_arg7 : at1 m c (Proc.devRef .tc main_arg7) = (m ((c.tc : Thread nD τ).loc main_arg7)) := by
  rw [at1_eq]
  after_results_simp
  exact at0_arg7 m c

/-- The first matrix product. -/
theorem at1_prod : at1 m c (Proc.devRef .tc main_v30) = val_main_v30 (F := Ideal) (m ((c.tc : Thread nD τ).loc main_arg0)) (m ((c.tc : Thread nD τ).loc main_arg2)) := by
  rw [at1_eq]
  after_results_simp
  rw [at0_arg0 m c, at0_arg2 m c]
  rfl

end Cert.ReferenceIdeal.RefChain

end
-- ==== Proof.RefChainWeight.lean ====
/-
  The reference program's edge weights after its second stretch: w(e) = d(src e)^(-1/2) · d(dst e)^(-1/2), with
  d(v)^(-1/2) read as 0 where d(v) = 0 — the stage of that name of the program read one operation at a time.
-/
import proofs.«178061_j57535381897260_1_alg».proof.Proof.RefChainA

set_option maxRecDepth 16384

noncomputable section

namespace Cert.ReferenceIdeal.RefChain

open Cert.ReferenceIdeal Cert.ReferenceIdeal.Gen Idealize.ShloMosaic Idealize.ShloMosaic.TcCoe Idealize.SL.Sem Idealize.ShloMosaic.StableHlo
open Cert.ReferenceIdeal.RefRun Cert.ReferenceIdeal.ReadP

variable (m : (ℓ : Loc nD τ sig) → Buf (Elt Ideal) ℓ) (c : Dev nD)

/-- The edge weights. -/
theorem at1_weight : at1 m c (Proc.devRef .tc main_v29) = val_main_v29 (F := Ideal) (m ((c.tc : Thread nD τ).loc main_arg1)) := by
  rw [at1_eq]
  after_results_simp
  rw [at0_src m c, at0_dst m c]
  rfl

end Cert.ReferenceIdeal.RefChain

end
-- ==== Proof.RefChainB.lean ====
/-
  The reference program's buffers after its third and fourth stretches: the second and third matrix products, each of
  the previous layer's aggregated, biased and rectified output; the index vectors, the weights and the later arguments
  carried along.
-/
import proofs.«178061_j57535381897260_1_alg».proof.Proof.RefChainA
import proofs.«178061_j57535381897260_1_alg».proof.Proof.RefChainWeight

set_option maxRecDepth 16384

noncomputable section

namespace Cert.ReferenceIdeal.RefChain

open Cert.ReferenceIdeal Cert.ReferenceIdeal.Gen Idealize.ShloMosaic Idealize.ShloMosaic.TcCoe Idealize.SL.Sem Idealize.ShloMosaic.StableHlo
open Cert.ReferenceIdeal.RefRun Cert.ReferenceIdeal.ReadP

variable (m : (ℓ : Loc nD τ sig) → Buf (Elt Ideal) ℓ) (c : Dev nD)

/-- Carried through stretch 2: src. -/
theorem at2_src : at2 m c (Proc.devRef .tc main_v3) = val_main_v3 (F := Ideal) (m ((c.tc : Thread nD τ).loc main_arg1)) := by
  rw [at2_eq]
  after_results_simp
  exact at1_src m c

/-- Carried through stretch 2: dst. -/
theorem at2_dst : at2 m c (Proc.devRef .tc main_v6) = val_main_v6 (F := Ideal) (m ((c.tc : Thread nD τ).loc main_arg1)) := by
  rw [at2_eq]
  after_results_simp
  exact at1_dst m c

/-- Carried through stretch 2: weight. -/
theorem at2_weight : at2 m c (Proc.devRef .tc main_v29) = val_main_v29 (F := Ideal) (m ((c.tc : Thread nD τ).loc main_arg1)) := by
  rw [at2_eq]
  after_results_simp
  exact at1_weight m c

/-- Carried through stretch 2: arg5. -/
theorem at2_arg5 : at2 m c (Proc.devRef .tc main_arg5) = (m ((c.tc : Thread nD τ).loc main_arg5)) := by
  rw [at2_eq]
  after_results_simp
  exact at1_arg5 m c

/-- Carried through stretch 2: arg6. -/
theorem at2_arg6 : at2 m c (Proc.devRef .tc main_arg6) = (m ((c.tc : Thread nD τ).loc main_arg6)) := by
  rw [at2_eq]
  after_results_simp
  exact at1_arg6 m c

/-- Carried through stretch 2: arg7. -/
theorem at2_arg7 : at2 m c (Proc.devRef .tc main_arg7) = (m ((c.tc : Thread nD τ).loc main_arg7)) := by
  rw [at2_eq]
  after_results_simp
  exact at1_arg7 m c

/-- The second matrix product. -/
theorem at2_prod : at2 m c (Proc.devRef .tc main_v48) = val_main_v48 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  rw [at2_eq]
  after_results_simp
  rw [at1_prod m c, at1_src m c, at1_weight m c, at1_dst m c, at1_arg3 m c, at1_arg4 m c]
  rfl

/-- Carried through stretch 3: src. -/
theorem at3_src : at3 m c (Proc.devRef .tc main_v3) = val_main_v3 (F := Ideal) (m ((c.tc : Thread nD τ).loc main_arg1)) := by
  rw [at3_eq]
  after_results_simp
  exact at2_src m c

/-- Carried through stretch 3: dst. -/
theorem at3_dst : at3 m c (Proc.devRef .tc main_v6) = val_main_v6 (F := Ideal) (m ((c.tc : Thread nD τ).loc main_arg1)) := by
  rw [at3_eq]
  after_results_simp
  exact at2_dst m c

/-- Carried through stretch 3: weight. -/
theorem at3_weight : at3 m c (Proc.devRef .tc main_v29) = val_main_v29 (F := Ideal) (m ((c.tc : Thread nD τ).loc main_arg1)) := by
  rw [at3_eq]
  after_results_simp
  exact at2_weight m c

/-- Carried through stretch 3: arg7. -/
theorem at3_arg7 : at3 m c (Proc.devRef .tc main_arg7) = (m ((c.tc : Thread nD τ).loc main_arg7)) := by
  rw [at3_eq]
  after_results_simp
  exact at2_arg7 m c

/-- The third matrix product. -/
theorem at3_prod : at3 m c (Proc.devRef .tc main_v66) = val_main_v66 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  rw [at3_eq]
  after_results_simp
  rw [at2_prod m c, at2_src m c, at2_weight m c, at2_dst m c, at2_arg5 m c, at2_arg6 m c]
  rfl

end Cert.ReferenceIdeal.RefChain

end
-- ==== Proof.RefChainC.lean ====
/-
  The reference program's last two stretches: the third layer's aggregation and bias, and the row-wise log-softmax of
  it, which is the result.
-/
import proofs.«178061_j57535381897260_1_alg».proof.Proof.RefChainB

set_option maxRecDepth 16384

noncomputable section

namespace Cert.ReferenceIdeal.RefChain

open Cert.ReferenceIdeal Cert.ReferenceIdeal.Gen Idealize.ShloMosaic Idealize.ShloMosaic.TcCoe Idealize.SL.Sem Idealize.ShloMosaic.StableHlo
open Cert.ReferenceIdeal.RefRun Cert.ReferenceIdeal.ReadP

variable (m : (ℓ : Loc nD τ sig) → Buf (Elt Ideal) ℓ) (c : Dev nD)

/-- The third layer's output before the log-softmax. -/
theorem at4_logits : at4 m c (Proc.devRef .tc main_v82) = val_main_v82 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  show StableHlo.after layer3Ops (at3 m c) (Proc.devRef .tc main_v82) = _
  after_results_simp
  rw [at3_prod m c, at3_src m c, at3_weight m c, at3_dst m c, at3_arg7 m c]
  rfl

/-- THE RESULT. -/
theorem at5_result : at5 m c (Proc.devRef .tc main_v83) = val_main_v83 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  rw [at5_eq]
  after_results_simp
  rw [at4_logits m c]
  rfl

end Cert.ReferenceIdeal.RefChain

end
-- ==== Proof.lean ====
/-
  A three-layer graph convolution with a log-softmax head, on 50000 nodes and 800000 edges.

  Both programs compute, from the edge list, the source and destination node of every edge with one self-loop per node
  appended, the in-degrees d, and the edge weights w(e) = d(src e)^(-1/2) · d(dst e)^(-1/2); then three times
      h ← Σ_{e : dst e = ·} w(e) · (h · W)(src e, ·) + b,
  rectified after the first two layers, and finally the row-wise log-softmax. They differ in one thing: the reference forms
  each product h · W whole, while the kernel program rounds h and W to a narrower float format and forms the product in
  ten blocks of 5000 rows, each block by a kernel that multiplies into a zero accumulator. On extended reals the rounding
  is the identity, a product into zero is the product, and a block of rows of h · W is the product of that block of rows
  of h by W; the ten blocks tile the rows. So each kernel's output array is the reference's product of equal operands,
  every other operation is the same operation applied to equal operands, and the two results are equal entry by entry —
  with no appeal to finiteness: only the rearrangement of rows is used, never a distributive or cancellation law.

  The kernel program's run is read off the generated frame's fold with its result kept; the reference's run is a
  straight line of operations, read in four stretches; both results are the same stage of the program read one operation
  at a time. No operation was rewritten in idealizing the kernel program, so there is nothing to preserve.
-/
import proofs.«178061_j57535381897260_1_alg».proof.Defs
import proofs.«178061_j57535381897260_1_alg».proof.Proof.Gen.Kernel
import proofs.«178061_j57535381897260_1_alg».proof.Proof.Gen.Kernel.Skeleton
import proofs.«178061_j57535381897260_1_alg».proof.Proof.Gen.Kernel.Launch
import proofs.«178061_j57535381897260_1_alg».proof.Proof.Gen.Kernel.Points
import proofs.«178061_j57535381897260_1_alg».proof.Proof.Gen.Kernel.Frame
import proofs.«178061_j57535381897260_1_alg».proof.Proof.Gen.KernelIdeal
import proofs.«178061_j57535381897260_1_alg».proof.Proof.Gen.KernelIdeal.Skeleton
import proofs.«178061_j57535381897260_1_alg».proof.Proof.Gen.KernelIdeal.Launch
import proofs.«178061_j57535381897260_1_alg».proof.Proof.Gen.KernelIdeal.Points
import proofs.«178061_j57535381897260_1_alg».proof.Proof.Gen.KernelIdeal.Frame
import proofs.«178061_j57535381897260_1_alg».proof.Proof.Gen.ReferenceIdeal
import proofs.«178061_j57535381897260_1_alg».proof.Proof.Gen.Pre_finite_inputs
import proofs.«178061_j57535381897260_1_alg».proof.Proof.KernelRun
import proofs.«178061_j57535381897260_1_alg».proof.Proof.ChainLayer3
import proofs.«178061_j57535381897260_1_alg».proof.Proof.RefRun
import proofs.«178061_j57535381897260_1_alg».proof.Proof.RefChainC
import Idealize.ShloMosaic.Adequacy
import Idealize.ShloMosaic.Init

noncomputable section

namespace Cert.Proof

open Idealize.ShloMosaic Idealize.SL.Sem

/-- The word-level kernel program runs and leaves its arguments unchanged. -/
theorem frame_kernel : Cert.frame_Kernel := fun m ρ _ => Cert.Kernel.Gen.frame m ρ

/-- So does the kernel program on extended reals. -/
theorem frame_kernelIdeal : Cert.frame_KernelIdeal := fun m ρ _ => Cert.KernelIdeal.Gen.frame m ρ

/-- And the reference: its run with the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- From memories that agree on the arguments both programs end with the same result: the last stage of the program read
    one operation at a time, at the kernel program's arguments. -/
theorem algebraic : Cert.algebraic_KernelIdeal_ReferenceIdeal := by
  intro m ρ m' ρ' _ hagree
  refine ⟨fun c => Cert.ReferenceIdeal.ReadP.val_main_v83 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    (θ_run Cert.KernelIdeal.defs _ _).mono
      (fun _ h c => ⟨(h c).1.trans (Cert.KernelIdeal.Chain.result m ρ c), (h c).2⟩)
      (Cert.KernelIdeal.RunValue.run_value (F := Ideal) m ρ), ?_⟩
  refine (θ_run Cert.ReferenceIdeal.defs _ _).mono (fun _ h c => ⟨(h c).1.trans ?_, (h c).2⟩)
    (Cert.ReferenceIdeal.RefRun.run (F := Ideal) m' ρ')
  obtain ⟨h0, h1, h2, h3, h4, h5, h6, h7⟩ := hagree c
  rw [Cert.ReferenceIdeal.RefChain.at5_result m' c, h0, h1, h2, h3, h4, h5, h6, h7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
